-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S192x192 : Shape := ⟨2, ![192, 192]⟩
abbrev S192 : Shape := ⟨1, ![192]⟩
abbrev S192x10 : Shape := ⟨2, ![192, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S192x10 : S_.BroadcastsInDim S192x10 (![] : Fin 0 → Fin S192x10.rank)
  reducesTo_S192x10_S_d0_1 : S192x10.ReducesTo [0, 1] S_
  bcast_S_S10 : S_.BroadcastsInDim S10 (![] : Fin 0 → Fin S10.rank)
  reducesTo_S10_S_d0 : S10.ReducesTo [0] S_

variable [Facts]

def fn_part8 {F : FTy → Type} [FloatOps F] (main_arg30 : FVec F S10 .f32) (main_v133 : IVec S_ 1) (main_v136 : IVec S192x10 1) : IVec S_ 1 :=
  let main_c_53 : IVec S_ 1 := constantI S_ 1 1#1
  let main_v137 : IVec S_ 1 := (fun x v => Host.reduce IntOp.andi x v reducesTo_S192x10_S_d0_1 h_S_) main_v136 main_c_53
  let main_v138 : IVec S_ 1 := andi main_v133 main_v137
  let main_v139 : FVec F S10 .f32 := Host.absf main_arg30
  let main_cst_54 : FVec F S_ .f32 := constant S_ .f32 0x7F800000#32
  let main_v140 : FVec F S10 .f32 := broadcastInDim S10 ![] bcast_S_S10 main_cst_54
  let main_v141 : IVec S10 1 := cmpf .olt main_v139 main_v140
  let main_c_55 : IVec S_ 1 := constantI S_ 1 1#1
  let main_v142 : IVec S_ 1 := (fun x v => Host.reduce IntOp.andi x v reducesTo_S10_S_d0 h_S_) main_v141 main_c_55
  let main_v143 : IVec S_ 1 := andi main_v138 main_v142
  main_v143

def fn_part7 {F : FTy → Type} [FloatOps F] (main_arg27 : FVec F S192x192 .f32) (main_arg28 : FVec F S192 .f32) (main_arg29 : FVec F S192x10 .f32) (main_arg30 : FVec F S10 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S192x192 .f32 := Host.absf main_arg27
  let main_cst_48 : FVec F S_ .f32 := constant S_ .f32 0x7F800000#32
  let main_v125 : FVec F S192x192 .f32 := broadcastInDim S192x192 ![] bcast_S_S192x192 main_cst_48
  let main_v126 : IVec S192x192 1 := cmpf .olt main_v124 main_v125
  let main_c_49 : IVec S_ 1 := constantI S_ 1 1#1
  let main_v127 : IVec S_ 1 := (fun x v => Host.reduce IntOp.andi x v reducesTo_S192x192_S_d0_1 h_S_) main_v126 main_c_49
  let main_v128 : IVec S_ 1 := andi main_v123 main_v127
  let main_v129 : FVec F S192 .f32 := Host.absf main_arg28
  let main_cst_50 : FVec F S_ .f32 := constant S_ .f32 0x7F800000#32
  let main_v130 : FVec F S192 .f32 := broadcastInDim S192 ![] bcast_S_S192 main_cst_50
  let main_v131 : IVec S192 1 := cmpf .olt main_v129 main_v130
  let main_c_51 : IVec S_ 1 := constantI S_ 1 1#1
  let main_v132 : IVec S_ 1 := (fun x v => Host.reduce IntOp.andi x v reducesTo_S192_S_d0 h_S_) main_v131 main_c_51
  let main_v133 : IVec S_ 1 := andi main_v128 main_v132
  let main_v134 : FVec F S192x10 .f32 := Host.absf main_arg29
  let main_cst_52 : FVec F S_ .f32 := constant S_ .f32 0x7F800000#32
  let main_v135 : FVec F S192x10 .f32 := broadcastInDim S192x10 ![] bcast_S_S192x10 main_cst_52
  let main_v136 : IVec S192x10 1 := cmpf .olt main_v134 main_v135
  fn_part8 (F := F) main_arg30 main_v133 main_v136

def fn_part6 {F : FTy → Type} [FloatOps F] (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x10 .f32) (main_arg30 : FVec F S10 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg25
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg26
  fn_part7 (F := F) main_arg27 main_arg28 main_arg29 main_arg30 main_v118 main_v119

def fn_part5 {F : FTy → Type} [FloatOps F] (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x10 .f32) (main_arg30 : FVec F S10 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_arg27 main_arg28 main_arg29 main_arg30 main_v98 main_v101 main_c_39

def fn_part4 {F : FTy → Type} [FloatOps F] (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x10 .f32) (main_arg30 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x10 .f32) (main_arg30 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x10 .f32) (main_arg30 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x10 .f32) (main_arg30 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64 .f32) (main_arg24 : FVec F S64 .f32) (main_arg25 : FVec F S64x64 .f32) (main_arg26 : FVec F S64 .f32) (main_arg27 : FVec F S192x192 .f32) (main_arg28 : FVec F S192 .f32) (main_arg29 : FVec F S192x10 .f32) (main_arg30 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S192x192 : Shape := ⟨2, ![192, 192]⟩
abbrev S192 : Shape := ⟨1, ![192]⟩
abbrev S192x10 : Shape := ⟨2, ![192, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S256x64 : Shape := ⟨2, ![256, 64]⟩
abbrev S100000x1 : Shape := ⟨2, ![100000, 1]⟩
abbrev S256x192 : Shape := ⟨2, ![256, 192]⟩
abbrev S1x192 : Shape := ⟨2, ![1, 192]⟩
abbrev S1x10 : Shape := ⟨2, ![1, 10]⟩
abbrev S256x10 : Shape := ⟨2, ![256, 10]⟩
abbrev S256 : Shape := ⟨1, ![256]⟩
abbrev S256x1 : Shape := ⟨2, ![256, 1]⟩

abbrev nBuf : Space → Nat
  | .hbm => 119
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64x64, .f32⟩
  | .hbm, ⟨26, _⟩ => ⟨S64, .f32⟩
  | .hbm, ⟨27, _⟩ => ⟨S192x192, .f32⟩
  | .hbm, ⟨28, _⟩ => ⟨S192, .f32⟩
  | .hbm, ⟨29, _⟩ => ⟨S192x10, .f32⟩
  | .hbm, ⟨30, _⟩ => ⟨S10, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S100000x64, .f32⟩
  | .hbm, ⟨55, _⟩ => ⟨S1x1600000, .i32⟩
  | .hbm, ⟨56, _⟩ => ⟨S1600000, .i32⟩
  | .hbm, ⟨57, _⟩ => ⟨S1x1600000, .i32⟩
  | .hbm, ⟨58, _⟩ => ⟨S1600000, .i32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S100000x64, .f32⟩
  | .hbm, ⟨79, _⟩ => ⟨S1x1600000, .i32⟩
  | .hbm, ⟨80, _⟩ => ⟨S1600000, .i32⟩
  | .hbm, ⟨81, _⟩ => ⟨S1x1600000, .i32⟩
  | .hbm, ⟨82, _⟩ => ⟨S1600000, .i32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S_, .f32⟩
  | .hbm, ⟨93, _⟩ => ⟨S100000x64, .f32⟩
  | .hbm, ⟨94, _⟩ => ⟨S1600000x1, .i32⟩
  | .hbm, ⟨95, _⟩ => ⟨S100000x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S100000x64, .f32⟩
  | .hbm, ⟨103, _⟩ => ⟨S_, .f32⟩
  | .hbm, ⟨104, _⟩ => ⟨S256x64, .f32⟩
  | .hbm, ⟨105, _⟩ => ⟨S100000x1, .i32⟩
  | .hbm, ⟨106, _⟩ => ⟨S256x64, .f32⟩
  | .hbm, ⟨107, _⟩ => ⟨S_, .f32⟩
  | .hbm, ⟨108, _⟩ => ⟨S256x64, .f32⟩
  | .hbm, ⟨109, _⟩ => ⟨S100000x1, .i32⟩
  | .hbm, ⟨110, _⟩ => ⟨S256x64, .f32⟩
  | .hbm, ⟨111, _⟩ => ⟨S_, .f32⟩
  | .hbm, ⟨112, _⟩ => ⟨S256x64, .f32⟩
  | .hbm, ⟨113, _⟩ => ⟨S100000x1, .i32⟩
  | .hbm, ⟨114, _⟩ => ⟨S256x64, .f32⟩
  | .hbm, ⟨115, _⟩ => ⟨S256x192, .f32⟩
  | .hbm, ⟨116, _⟩ => ⟨S1x192, .f32⟩
  | .hbm, ⟨117, _⟩ => ⟨S1x10, .f32⟩
  | .hbm, ⟨118, _⟩ => ⟨S256x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S256x192, .f32⟩
  | .local _ .vmem, ⟨43, _⟩ => ⟨S192x192, .f32⟩
  | .local _ .vmem, ⟨44, _⟩ => ⟨S1x192, .f32⟩
  | .local _ .vmem, ⟨45, _⟩ => ⟨S192x10, .f32⟩
  | .local _ .vmem, ⟨46, _⟩ => ⟨S1x10, .f32⟩
  | .local _ .vmem, ⟨47, _⟩ => ⟨S256x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_1 : Ref sig .tc := ⟨.hbm, 59, rfl⟩
abbrev main_v25 : Ref sig .tc := ⟨.hbm, 60, rfl⟩
abbrev main_v26 : Ref sig .tc := ⟨.hbm, 61, rfl⟩
abbrev main_c_2 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_3 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_4 : Ref sig .tc := ⟨.hbm, 83, rfl⟩
abbrev main_v46 : Ref sig .tc := ⟨.hbm, 84, rfl⟩
abbrev main_v47 : Ref sig .tc := ⟨.hbm, 85, rfl⟩
abbrev main_c_5 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_6 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_7 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_8 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_9 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x192 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S192x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S256x64 : S_.BroadcastsInDim S256x64 (![] : Fin 0 → Fin S256x64.rank)
  bcast_S100000_S100000x1_0 : S100000.BroadcastsInDim S100000x1 (![0] : Fin 1 → Fin S100000x1.rank)
  concatenates_S256x64_S256x64_S256x64_S256x192_d1 : Shape.Concatenates [S256x64, S256x64, S256x64] S256x192 1
  shapeCasts_S192_S1x192 : S192.ShapeCasts S1x192
  shapeCasts_S10_S1x10 : S10.ShapeCasts S1x10
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S192x192_S192x192_0_0 : ∀ a, (![0, 0] : Fin 2 → Nat) a + S192x192.size a ≤ S192x192.size a
  h_S192x192 : 0 < S192x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S256x192 : S1x192.Broadcasts S256x192
  inb_S192x10_S192x10_0_0 : ∀ a, (![0, 0] : Fin 2 → Nat) a + S192x10.size a ≤ S192x10.size a
  h_S192x10 : 0 < S192x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  dot_S256x192_S192x192_S256x192_1_0_0_1_n_n_wf : DotDims.WF S256x192 S192x192 S256x192 [1] [0] [0] [1] [] []
  dot_S256x192_S192x10_S256x10_1_0_0_1_n_n_wf : DotDims.WF S256x192 S192x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S100000x64.size a
  hwx2_10 : ∀ i : grid2.Coords, EltTy.bits .f32 = 32 ∨ (Rect.block (s := S100000x64) S5000x64.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x192.size a ≤ S256x192.size a
  hwx3_0 : ∀ i : grid3.Coords, EltTy.bits .f32 = 32 ∨ (Rect.block (s := S256x192) S256x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x192.size a ≤ S192x192.size a
  hwx3_1 : ∀ i : grid3.Coords, EltTy.bits .f32 = 32 ∨ (Rect.block (s := S192x192) S192x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x192.size a ≤ S1x192.size a
  hwx3_2 : ∀ i : grid3.Coords, EltTy.bits .f32 = 32 ∨ (Rect.block (s := S1x192) S1x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x10.size a ≤ S192x10.size a
  hwx3_3 : ∀ i : grid3.Coords, EltTy.bits .f32 = 32 ∨ (Rect.block (s := S192x10) S192x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x10.size a ≤ S256x10.size a
  hwx3_5 : ∀ i : grid3.Coords, EltTy.bits .f32 = 32 ∨ (Rect.block (s := S256x10) S256x10.size (cc3_transform_5 i) (hinb3_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x192_S192x192_S256x192_1_0_0_1_n_n : DotDims S256x192 S192x192 S256x192 where
  lhsContracting := [1]
  rhsContracting := [0]
  lhsNonContracting := [0]
  rhsNonContracting := [1]
  lhsBatch := []
  rhsBatch := []
  wf := dot_S256x192_S192x192_S256x192_1_0_0_1_n_n_wf
def dot_S256x192_S192x10_S256x10_1_0_0_1_n_n : DotDims S256x192 S192x10 S256x10 where
  lhsContracting := [1]
  rhsContracting := [0]
  lhsNonContracting := [0]
  rhsNonContracting := [1]
  lhsBatch := []
  rhsBatch := []
  wf := dot_S256x192_S192x10_S256x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v41) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg25) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v61) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v62) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v72) S256x192.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg27) S192x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg29) S192x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S256x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S192x192 : Shape := ⟨2, ![192, 192]⟩
abbrev S192 : Shape := ⟨1, ![192]⟩
abbrev S192x10 : Shape := ⟨2, ![192, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S256x64 : Shape := ⟨2, ![256, 64]⟩
abbrev S100000x1 : Shape := ⟨2, ![100000, 1]⟩
abbrev S256x192 : Shape := ⟨2, ![256, 192]⟩
abbrev S1x192 : Shape := ⟨2, ![1, 192]⟩
abbrev S256x10 : Shape := ⟨2, ![256, 10]⟩
abbrev S1x10 : Shape := ⟨2, ![1, 10]⟩
abbrev S256 : Shape := ⟨1, ![256]⟩
abbrev S256x1 : Shape := ⟨2, ![256, 1]⟩

abbrev nBuf : Space → Nat
  | .hbm => 214
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64, .f32⟩
  | 22 => ⟨S64, .f32⟩
  | 23 => ⟨S64, .f32⟩
  | 24 => ⟨S64, .f32⟩
  | 25 => ⟨S64x64, .f32⟩
  | 26 => ⟨S64, .f32⟩
  | 27 => ⟨S192x192, .f32⟩
  | 28 => ⟨S192, .f32⟩
  | 29 => ⟨S192x10, .f32⟩
  | 30 => ⟨S10, .f32⟩
  | 31 => ⟨S1x1600000, .i32⟩
  | 32 => ⟨S1600000, .i32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S1x1600000, .i32⟩
  | 43 => ⟨S1600000, .i32⟩
  | 44 => ⟨S_, .f32⟩
  | 45 => ⟨S100000x64, .f32⟩
  | 46 => ⟨S1600000x1, .i32⟩
  | 47 => ⟨S100000x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S64, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S1x1600000, .i32⟩
  | 80 => ⟨S1600000, .i32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S1x1600000, .i32⟩
  | 91 => ⟨S1600000, .i32⟩
  | 92 => ⟨S_, .f32⟩
  | 93 => ⟨S100000x64, .f32⟩
  | 94 => ⟨S1600000x1, .i32⟩
  | 95 => ⟨S100000x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S64, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S1x1600000, .i32⟩
  | _ => ⟨S100000x64, .f32⟩

abbrev hbmTy0_1 (i : Nat) : BufTy := match i % 128 with
  | 0 => ⟨S1600000, .i32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1x1600000, .i32⟩
  | 11 => ⟨S1600000, .i32⟩
  | 12 => ⟨S_, .f32⟩
  | 13 => ⟨S100000x64, .f32⟩
  | 14 => ⟨S1600000x1, .i32⟩
  | 15 => ⟨S100000x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S64, .f32⟩
  | 29 => ⟨S64, .f32⟩
  | 30 => ⟨S64, .f32⟩
  | 31 => ⟨S1x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S_, .f32⟩
  | 48 => ⟨S256x64, .f32⟩
  | 49 => ⟨S100000x1, .i32⟩
  | 50 => ⟨S256x64, .f32⟩
  | 51 => ⟨S_, .f32⟩
  | 52 => ⟨S256x64, .f32⟩
  | 53 => ⟨S100000x1, .i32⟩
  | 54 => ⟨S256x64, .f32⟩
  | 55 => ⟨S_, .f32⟩
  | 56 => ⟨S256x64, .f32⟩
  | 57 => ⟨S100000x1, .i32⟩
  | 58 => ⟨S256x64, .f32⟩
  | 59 => ⟨S256x192, .f32⟩
  | 60 => ⟨S256x192, .f32⟩
  | 61 => ⟨S1x192, .f32⟩
  | 62 => ⟨S256x192, .f32⟩
  | 63 => ⟨S256x192, .f32⟩
  | 64 => ⟨S_, .f32⟩
  | 65 => ⟨S256x192, .f32⟩
  | 66 => ⟨S256x192, .f32⟩
  | 67 => ⟨S256x10, .f32⟩
  | 68 => ⟨S1x10, .f32⟩
  | 69 => ⟨S256x10, .f32⟩
  | 70 => ⟨S256x10, .f32⟩
  | 71 => ⟨S_, .f32⟩
  | 72 => ⟨S256, .f32⟩
  | 73 => ⟨S_, .f32⟩
  | 74 => ⟨S256, .f32⟩
  | 75 => ⟨S256, .f32⟩
  | 76 => ⟨S256x1, .f32⟩
  | 77 => ⟨S256x10, .f32⟩
  | 78 => ⟨S256x10, .f32⟩
  | 79 => ⟨S256x10, .f32⟩
  | 80 => ⟨S_, .f32⟩
  | 81 => ⟨S256, .f32⟩
  | 82 => ⟨S256x1, .f32⟩
  | 83 => ⟨S256x1, .f32⟩
  | 84 => ⟨S256x10, .f32⟩
  | 85 => ⟨S256x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_c : Ref sig .tc := ⟨.hbm, 33, rfl⟩
abbrev main_v2 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call0_cst : Ref sig .tc := ⟨.hbm, 69, rfl⟩
abbrev main_call0_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call1_cst : Ref sig .tc := ⟨.hbm, 76, rfl⟩
abbrev main_call1_v0 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_2 : Ref sig .tc := ⟨.hbm, 81, rfl⟩
abbrev main_v42 : Ref sig .tc := ⟨.hbm, 82, rfl⟩
abbrev main_v43 : Ref sig .tc := ⟨.hbm, 83, rfl⟩
abbrev main_c_3 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_4 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_5 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_call2_cst : Ref sig .tc := ⟨.hbm, 117, rfl⟩
abbrev main_call2_v0 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_call3_cst : Ref sig .tc := ⟨.hbm, 124, rfl⟩
abbrev main_call3_v0 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_c_6 : Ref sig .tc := ⟨.hbm, 129, rfl⟩
abbrev main_v82 : Ref sig .tc := ⟨.hbm, 130, rfl⟩
abbrev main_v83 : Ref sig .tc := ⟨.hbm, 131, rfl⟩
abbrev main_c_7 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_8 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_9 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_call4_cst : Ref sig .tc := ⟨.hbm, 165, rfl⟩
abbrev main_call4_v0 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_call5_cst : Ref sig .tc := ⟨.hbm, 172, rfl⟩
abbrev main_call5_v0 : Ref sig .tc := ⟨.hbm, 173, rfl⟩
abbrev main_v119 : Ref sig .tc := ⟨.hbm, 174, rfl⟩
abbrev main_cst_10 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_11 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_12 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_call6_cst : Ref sig .tc := ⟨.hbm, 192, rfl⟩
abbrev main_call6_v0 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_call7_cst : Ref sig .tc := ⟨.hbm, 199, rfl⟩
abbrev main_call7_v0 : Ref sig .tc := ⟨.hbm, 200, rfl⟩
abbrev main_call7_cst_0 : Ref sig .tc := ⟨.hbm, 201, rfl⟩
abbrev main_call7_v1 : Ref sig .tc := ⟨.hbm, 202, rfl⟩
abbrev main_call7_v2 : Ref sig .tc := ⟨.hbm, 203, rfl⟩
abbrev main_call7_v3 : Ref sig .tc := ⟨.hbm, 204, rfl⟩
abbrev main_call7_v4 : Ref sig .tc := ⟨.hbm, 205, rfl⟩
abbrev main_call7_v5 : Ref sig .tc := ⟨.hbm, 206, rfl⟩
abbrev main_call7_v6 : Ref sig .tc := ⟨.hbm, 207, rfl⟩
abbrev main_call7_cst_1 : Ref sig .tc := ⟨.hbm, 208, rfl⟩
abbrev main_call7_v7 : Ref sig .tc := ⟨.hbm, 209, rfl⟩
abbrev main_call7_v8 : Ref sig .tc := ⟨.hbm, 210, rfl⟩
abbrev main_call7_v9 : Ref sig .tc := ⟨.hbm, 211, rfl⟩
abbrev main_call7_v10 : Ref sig .tc := ⟨.hbm, 212, rfl⟩
abbrev main_v139 : Ref sig .tc := ⟨.hbm, 213, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S256x64 : S_.BroadcastsInDim S256x64 (![] : Fin 0 → Fin S256x64.rank)
  bcast_S100000_S100000x1_0 : S100000.BroadcastsInDim S100000x1 (![0] : Fin 1 → Fin S100000x1.rank)
  concatenates_S256x64_S256x64_S256x64_S256x192_d1 : Shape.Concatenates [S256x64, S256x64, S256x64] S256x192 1
  bcast_S192_S1x192_1 : S192.BroadcastsInDim S1x192 (![1] : Fin 1 → Fin S1x192.rank)
  bcast_S1x192_S256x192_0_1 : S1x192.BroadcastsInDim S256x192 (![0, 1] : Fin 2 → Fin S256x192.rank)
  bcast_S_S256x192 : S_.BroadcastsInDim S256x192 (![] : Fin 0 → Fin S256x192.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x10_0_1 : S256x1.BroadcastsInDim S256x10 (![0, 1] : Fin 2 → Fin S256x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  dot_S256x192_S192x192_S256x192_1_0_0_1_n_n_wf : DotDims.WF S256x192 S192x192 S256x192 [1] [0] [0] [1] [] []
  dot_S256x192_S192x10_S256x10_1_0_0_1_n_n_wf : DotDims.WF S256x192 S192x10 S256x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x192_S192x192_S256x192_1_0_0_1_n_n : DotDims S256x192 S192x192 S256x192 where
  lhsContracting := [1]
  rhsContracting := [0]
  lhsNonContracting := [0]
  rhsNonContracting := [1]
  lhsBatch := []
  rhsBatch := []
  wf := dot_S256x192_S192x192_S256x192_1_0_0_1_n_n_wf
def dot_S256x192_S192x10_S256x10_1_0_0_1_n_n : DotDims S256x192 S192x10 S256x10 where
  lhsContracting := [1]
  rhsContracting := [0]
  lhsNonContracting := [0]
  rhsNonContracting := [1]
  lhsBatch := []
  rhsBatch := []
  wf := dot_S256x192_S192x10_S256x10_1_0_0_1_n_n_wf

class Facts : Prop extends Facts₀ where

variable [Facts]
-- ==== Proof.KData.lean ====
/- The data of the kernel program's run: per pallas_call, the block a window holds at a grid point, what the body
   leaves in the output window's buffer, and the pipeline's proof data; then the buffer contents at every boundary
   between a host stretch and a pallas_call, as a fold from the launch memory. Definitions and their projections only. -/
import proofs.«178267_j2276332667486_1_alg».proof.Proof.Gen.Kernel.Launch
import proofs.«178267_j2276332667486_1_alg».proof.Proof.Gen.Kernel.Skeleton
import proofs.«178267_j2276332667486_1_alg».proof.Proof.Gen.Kernel.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

section Regions
-- the TensorCore's buffer contents when a region is entered
variable (V : (c : Dev nD) → (b : Ref sig .tc) → Buf (Elt F) ((c : Thread nD τ).loc b))

/-! # Region 0: the first graph layer's two-layer perceptron on a block of 5000 node rows, stated at the contents `V` the region is entered with -/

/-- The block of window `w` at grid point `t`: the rectangle of the window's array that the point's index map
    selects, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Every access of the body is to a whole staging buffer: the full rectangle of each buffer shape. -/
abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-- What the body leaves in the output window's staging buffer, as a function of the input blocks: its single
    store covers the buffer, and the stored value is the body's arithmetic applied to the whole input blocks. -/
def out0_10 (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S5000x64 .f32 :=
  View.canon [⟨r0_0, k0_pay1 (k0_pay2 (View.ld x0 r0_0) (View.ld x1 r0_0) (View.ld x2 r0_1) (View.ld x3 r0_2) (View.ld x4 r0_2) (View.ld x5 r0_2) (View.ld x6 r0_2) (View.ld x7 r0_2) (View.ld x8 r0_1)) (View.ld x9 r0_2)⟩]

/-- The pipeline's proof data on core `c`: each array as the region finds it; after the body at point `t` an
    input window's buffer still holds its block and the output window's holds `out0_10` of the input blocks; the
    invariant is the one of a body that touches nothing but its windows; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-! # Region 1: the second graph layer's perceptron on a block of 5000 node rows, stated at the contents `V` the region is entered with -/

/-- The block of window `w` at grid point `t`: the rectangle of the window's array that the point's index map
    selects, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Every access of the body is to a whole staging buffer: the full rectangle of each buffer shape. -/
abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-- What the body leaves in the output window's staging buffer, as a function of the input blocks: its single
    store covers the buffer, and the stored value is the body's arithmetic applied to the whole input blocks. -/
def out1_10 (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S5000x64 .f32 :=
  View.canon [⟨r1_0, k1_pay1 (k1_pay2 (View.ld x0 r1_0) (View.ld x1 r1_0) (View.ld x2 r1_1) (View.ld x3 r1_2) (View.ld x4 r1_2) (View.ld x5 r1_2) (View.ld x6 r1_2) (View.ld x7 r1_2)) (k1_pay3 (View.ld x8 r1_1)) (constant S5000x64 .f32 0x00000000#32) (View.ld x9 r1_2)⟩]

/-- The pipeline's proof data on core `c`: each array as the region finds it; after the body at point `t` an
    input window's buffer still holds its block and the output window's holds `out1_10` of the input blocks; the
    invariant is the one of a body that touches nothing but its windows; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-! # Region 2: the third graph layer's perceptron on a block of 5000 node rows, stated at the contents `V` the region is entered with -/

/-- The block of window `w` at grid point `t`: the rectangle of the window's array that the point's index map
    selects, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Every access of the body is to a whole staging buffer: the full rectangle of each buffer shape. -/
abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-- What the body leaves in the output window's staging buffer, as a function of the input blocks: its single
    store covers the buffer, and the stored value is the body's arithmetic applied to the whole input blocks. -/
def out2_10 (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S5000x64 .f32 :=
  View.canon [⟨r2_0, k2_pay1 (k2_pay2 (View.ld x0 r2_0) (View.ld x1 r2_0) (View.ld x2 r2_1) (View.ld x3 r2_2) (View.ld x4 r2_2) (View.ld x5 r2_2) (View.ld x6 r2_2) (View.ld x7 r2_2)) (k2_pay3 (View.ld x8 r2_1)) (constant S5000x64 .f32 0x00000000#32) (View.ld x9 r2_2)⟩]

/-- The pipeline's proof data on core `c`: each array as the region finds it; after the body at point `t` an
    input window's buffer still holds its block and the output window's holds `out2_10` of the input blocks; the
    invariant is the one of a body that touches nothing but its windows; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-! # Region 3: the classifier head on the 256 pooled rows, stated at the contents `V` the region is entered with -/

/-- The block of window `w` at grid point `t`: the rectangle of the window's array that the point's index map
    selects, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Every access of the body is to a whole staging buffer: the full rectangle of each buffer shape. -/
abbrev r3_0 : Rect S256x192 := Rect.unit (s := S256x192) ![0, 0] S256x192.size inb_S256x192_S256x192_0_0
abbrev r3_1 : Rect S192x192 := Rect.unit (s := S192x192) ![0, 0] S192x192.size inb_S192x192_S192x192_0_0
abbrev r3_2 : Rect S1x192 := Rect.unit (s := S1x192) ![0, 0] S1x192.size inb_S1x192_S1x192_0_0
abbrev r3_3 : Rect S192x10 := Rect.unit (s := S192x10) ![0, 0] S192x10.size inb_S192x10_S192x10_0_0
abbrev r3_4 : Rect S1x10 := Rect.unit (s := S1x10) ![0, 0] S1x10.size inb_S1x10_S1x10_0_0
abbrev r3_5 : Rect S256x10 := Rect.unit (s := S256x10) ![0, 0] S256x10.size inb_S256x10_S256x10_0_0

/-- What the body leaves in the output window's staging buffer, as a function of the input blocks: its single
    store covers the buffer, and the stored value is the body's arithmetic applied to the whole input blocks. -/
def out3_5 (x0 : Vec F S256x192 .f32) (x1 : Vec F S192x192 .f32) (x2 : Vec F S1x192 .f32) (x3 : Vec F S192x10 .f32) (x4 : Vec F S1x10 .f32) : Vec F S256x10 .f32 :=
  View.canon [⟨r3_5, k3_pay1 (View.ld x0 r3_0) (View.ld x1 r3_1) (View.ld x2 r3_2) (View.ld x3 r3_3) (View.ld x4 r3_4)⟩]

/-- The pipeline's proof data on core `c`: each array as the region finds it; after the body at point `t` an
    input window's buffer still holds its block and the output window's holds `out3_5` of the input blocks; the
    invariant is the one of a body that touches nothing but its windows; full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

end Regions

variable (m : (ℓ : Loc nD τ sig) → Buf (Elt F) ℓ) (ρ : Dev nD → PrngReg)

/-! # The buffer contents at each boundary of the program: a fold from the launch memory

A stretch of host operations leaves what `StableHlo.after` computes from the contents before it; a region leaves its
arrays at what the pipeline's write-backs make of them and every other buffer as it was. -/

/-- Core `c`'s buffers at launch. -/
abbrev W0 : Dev nD → Valuation τ sig (Elt F) := fun c b => (s₀ m ρ).mem ((c : Dev nD), b)
/-- After the host stretch before region 0: what region 0 is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: its arrays at what the pipeline leaves (an input as entered, the output with every
    block's write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The exit contents read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1: what region 1 is entered with. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: its arrays at what the pipeline leaves (an input as entered, the output with every
    block's write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The exit contents read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2: what region 2 is entered with. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit: its arrays at what the pipeline leaves (an input as entered, the output with every
    block's write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The exit contents read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3: what region 3 is entered with. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- At region 3's exit: its arrays at what the pipeline leaves (an input as entered, the output with every
    block's write-back folded in), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The exit contents read at the TensorCore's references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.Kernel.Hand

end
-- ==== Proof.KBody0.lean ====
/- Region 0 of the kernel program: the body's triple on whole staging buffers, and from it the obligation the
   pipeline library asks of the body at every grid point. -/
import proofs.«178267_j2276332667486_1_alg».proof.Proof.KData
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## An input window's staging buffer holds its block at every point

A window is fetched when its block index moves; where it is not fetched (a window whose index map is constant is
fetched at the first point only) the buffer still holds the same block, the body having left it in place. So for any
proof data whose array is `V`'s and whose body leaves the block, the buffer before the body is the block. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body's single store covers the output buffer -/

theorem cover0_10 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple

On whole staging buffers, the inputs' at contents `x0 … x9` and the output's at anything, the body runs to a state
with the inputs' buffers unchanged and the output's at `out0_10` of the inputs. -/

set_option maxHeartbeats 1000000 in
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-! ## The body obligation at a generic point -/

/-- What the body is called with at point `t`: the invariant, the core's debts, and every window's current staging
    buffer at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns: the same, every window's buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KBody1.lean ====
/- Region 1 of the kernel program: the body's triple on whole staging buffers, and from it the obligation the
   pipeline library asks of the body at every grid point. -/
import proofs.«178267_j2276332667486_1_alg».proof.Proof.KData
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## An input window's staging buffer holds its block at every point

A window is fetched when its block index moves; where it is not fetched (a window whose index map is constant is
fetched at the first point only) the buffer still holds the same block, the body having left it in place. So for any
proof data whose array is `V`'s and whose body leaves the block, the buffer before the body is the block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body's single store covers the output buffer -/

theorem cover1_10 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple

On whole staging buffers, the inputs' at contents `x0 … x9` and the output's at anything, the body runs to a state
with the inputs' buffers unchanged and the output's at `out1_10` of the inputs. -/

set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10 arg11 harg11) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1_10 _)

/-! ## The body obligation at a generic point -/

/-- What the body is called with at point `t`: the invariant, the core's debts, and every window's current staging
    buffer at its contents before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What it returns: the same, every window's buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KBody2.lean ====
/- Region 2 of the kernel program: the body's triple on whole staging buffers, and from it the obligation the
   pipeline library asks of the body at every grid point. -/
import proofs.«178267_j2276332667486_1_alg».proof.Proof.KData
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## An input window's staging buffer holds its block at every point

A window is fetched when its block index moves; where it is not fetched (a window whose index map is constant is
fetched at the first point only) the buffer still holds the same block, the body having left it in place. So for any
proof data whose array is `V`'s and whose body leaves the block, the buffer before the body is the block. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body's single store covers the output buffer -/

theorem cover2_10 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple

On whole staging buffers, the inputs' at contents `x0 … x9` and the output's at anything, the body runs to a state
with the inputs' buffers unchanged and the output's at `out2_10` of the inputs. -/

set_option maxHeartbeats 1000000 in
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover2_10 _)

/-! ## The body obligation at a generic point -/

/-- What the body is called with at point `t`: the invariant, the core's debts, and every window's current staging
    buffer at its contents before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- What it returns: the same, every window's buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.KBody3.lean ====
/- Region 3 of the kernel program: the body's triple on whole staging buffers, and from it the obligation the
   pipeline library asks of the body at every grid point. -/
import proofs.«178267_j2276332667486_1_alg».proof.Proof.KData
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## An input window's staging buffer holds its block at every point

A window is fetched when its block index moves; where it is not fetched (a window whose index map is constant is
fetched at the first point only) the buffer still holds the same block, the body having left it in place. So for any
proof data whose array is `V`'s and whose body leaves the block, the buffer before the body is the block. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body's single store covers the output buffer -/

theorem cover3_5 (p0 : Vec F S256x10 .f32) (y : S256x10.Idx) :
    ∃ pc ∈ ([⟨r3_5, p0⟩] : List (View.Piece (Elt F) S256x10 .f32)), y ∈ pc.1.set :=
  View.cover_of_tiled [⟨r3_5, p0⟩] S256x10.size (by rfl) y

/-! ## The body's triple

On whole staging buffers, the inputs' at contents `x0 … x4` and the output's at anything, the body runs to a state
with the inputs' buffers unchanged and the output's at `out3_5` of the inputs. -/

set_option maxHeartbeats 1000000 in
theorem sound_kernel3 (c : Dev nD) (E : Set ℕ) (i : grid3.Coords) (arg1 : Memref sig .tc .vmem S256x192 .f32) (harg1 : arg1.IsWhole) (arg2 : Memref sig .tc .vmem S192x192 .f32) (harg2 : arg2.IsWhole) (arg3 : Memref sig .tc .vmem S1x192 .f32) (harg3 : arg3.IsWhole) (arg4 : Memref sig .tc .vmem S192x10 .f32) (harg4 : arg4.IsWhole) (arg5 : Memref sig .tc .vmem S1x10 .f32) (harg5 : arg5.IsWhole) (arg6 : Memref sig .tc .vmem S256x10 .f32) (harg6 : arg6.IsWhole)
    (x0 : Vec F S256x192 .f32) (x1 : Vec F S192x192 .f32) (x2 : Vec F S1x192 .f32) (x3 : Vec F S192x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__classifier_kernel i arg1 harg1 arg2 harg2 arg3 harg3 arg4 harg4 arg5 harg5 arg6 harg6) K := by
  simp only [cc3__classifier_kernel_eq_skeleton]; unfold cc3__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover3_5 _)

/-! ## The body obligation at a generic point -/

/-- What the body is called with at point `t`: the invariant, the core's debts, and every window's current staging
    buffer at its contents before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns: the same, every window's buffer at its contents after the body. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1000000 in
/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end

end Cert.Kernel.Hand

end
-- ==== Proof.KRun.lean ====
/- The run of the kernel program: its four pallas_calls among four stretches of host operations, as segments from the
   launch to the return over one thread state (every unscoped buffer at the boundary's contents); from it, that the
   program terminates with every unscoped buffer at the last boundary's contents, and so with every argument as launched. -/
import proofs.«178267_j2276332667486_1_alg».proof.Proof.KBody0
import proofs.«178267_j2276332667486_1_alg».proof.Proof.KBody1
import proofs.«178267_j2276332667486_1_alg».proof.Proof.KBody2
import proofs.«178267_j2276332667486_1_alg».proof.Proof.KBody3
import proofs.«178267_j2276332667486_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument, and a region either does not touch it or reads it through an input window, whose
array the pipeline leaves as it found it: the fold read at an argument walks back to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := (W2_arr m ρ c 8).trans (((dat0 (V1 m ρ) c).arrAt_in 8 rfl _).trans (A_eq0 (V1 m ρ) c 8))
    _ = W0 m ρ c (Proc.devRef .tc main_arg9) := StableHlo.after_of_writes_sub hostOps0 _ hostOps0_writes (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := (W4_arr m ρ c 2).trans (((dat1 (V3 m ρ) c).arrAt_in 2 rfl _).trans (A_eq1 (V3 m ρ) c 2))
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_writes_sub hostOps3 _ hostOps3_writes (by decide)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W8_main_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := StableHlo.after_of_writes_sub hostOps3 _ hostOps3_writes (by decide)
    _ = W5 m ρ c (Proc.devRef .tc main_arg16) := W6_of_ne m ρ c main_arg16 (by decide)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W8_main_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := StableHlo.after_of_writes_sub hostOps3 _ hostOps3_writes (by decide)
    _ = W5 m ρ c (Proc.devRef .tc main_arg17) := W6_of_ne m ρ c main_arg17 (by decide)
    _ = W4 m ρ c (Proc.devRef .tc main_arg17) := StableHlo.after_of_writes_sub hostOps2 _ hostOps2_writes (by decide)
    _ = W3 m ρ c (Proc.devRef .tc main_arg17) := (W4_arr m ρ c 8).trans (((dat1 (V3 m ρ) c).arrAt_in 8 rfl _).trans (A_eq1 (V3 m ρ) c 8))
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W8_main_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_writes_sub hostOps3 _ hostOps3_writes (by decide)
    _ = W5 m ρ c (Proc.devRef .tc main_arg18) := W6_of_ne m ρ c main_arg18 (by decide)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

theorem W8_main_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_writes_sub hostOps3 _ hostOps3_writes (by decide)
    _ = W5 m ρ c (Proc.devRef .tc main_arg19) := (W6_arr m ρ c 2).trans (((dat2 (V5 m ρ) c).arrAt_in 2 rfl _).trans (A_eq2 (V5 m ρ) c 2))
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl

theorem W8_main_arg20 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := StableHlo.after_of_writes_sub hostOps3 _ hostOps3_writes (by decide)
    _ = W5 m ρ c (Proc.devRef .tc main_arg20) := W6_of_ne m ρ c main_arg20 (by decide)
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl

theorem W8_main_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := StableHlo.after_of_writes_sub hostOps3 _ hostOps3_writes (by decide)
    _ = W5 m ρ c (Proc.devRef .tc main_arg21) := W6_of_ne m ρ c main_arg21 (by decide)
    _ = W4 m ρ c (Proc.devRef .tc main_arg21) := StableHlo.after_of_writes_sub hostOps2 _ hostOps2_writes (by decide)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = W0 m ρ c (Proc.devRef .tc main_arg21) := StableHlo.after_of_writes_sub hostOps0 _ hostOps0_writes (by decide)
    _ = m ((c : Thread nD τ).loc main_arg21) := rfl

theorem W8_main_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := StableHlo.after_of_writes_sub hostOps3 _ hostOps3_writes (by decide)
    _ = W5 m ρ c (Proc.devRef .tc main_arg22) := W6_of_ne m ρ c main_arg22 (by decide)
    _ = W4 m ρ c (Proc.devRef .tc main_arg22) := StableHlo.after_of_writes_sub hostOps2 _ hostOps2_writes (by decide)
    _ = W3 m ρ c (Proc.devRef .tc main_arg22) := W4_of_ne m ρ c main_arg22 (by decide)
    _ = W2 m ρ c (Proc.devRef .tc main_arg22) := StableHlo.after_of_writes_sub hostOps1 _ hostOps1_writes (by decide)
    _ = W1 m ρ c (Proc.devRef .tc main_arg22) := W2_of_ne m ρ c main_arg22 (by decide)
    _ = W0 m ρ c (Proc.devRef .tc main_arg22) := StableHlo.after_of_writes_sub hostOps0 _ hostOps0_writes (by decide)
    _ = m ((c : Thread nD τ).loc main_arg22) := rfl

theorem W8_main_arg23 (c : Dev nD) : W8 m ρ c (Proc.devRef .tc main_arg23) = m ((c : Thread nD τ).loc main_arg23) :=
  calc W8 m ρ c (Proc.devRef .tc main_arg23)
    _ = W7 m ρ c (Proc.devRef .tc main_arg23) := W8_of_ne m ρ c main_arg23 (by decide)
    _ = W6 m ρ c (Proc.devRef .tc main_arg23) := StableHlo.after_of_writes_sub hostOps3 _ hostOps3_writes (by decide)
    _ = W5 m ρ c (Proc.devRef .tc main_arg23) := W6_of_ne m ρ c main_arg23 (by decide)
    _ = W4 m ρ c (Proc.devRef .tc main_arg23) := StableHlo.after_of_writes_sub hostOps2 _ hostOps2_writes (by decide)
    _ = W3 m ρ c (Proc.devRef .tc main_arg23) := W4_of_ne m ρ c main_arg23 (by decide)
    _ = W2 m ρ c (Proc.devRef .tc main_arg23) := StableHlo.after_of_writes_sub hostOps1 _ hostOps1_writes (by decide)
    _ = W1 m ρ c (Proc.devRef .tc main_arg23) := W2_of_ne m ρ c main_arg23 (by decide)
    _ = W0 m ρ c (Proc.devRef .tc main_arg23) := StableHlo.after_of_writes_sub hostOps0 _ hostOps0_writes (by decide)
    _ = m ((c : Thread nD τ).loc main_arg23) := rfl

theorem W8_main_arg24 (c : Dev nD) : W8 m ρ c (Proc.devRef .tc main_arg24) = m ((c : Thread nD τ).loc main_arg24) :=
  calc W8 m ρ c (Proc.devRef .tc main_arg24)
    _ = W7 m ρ c (Proc.devRef .tc main_arg24) := W8_of_ne m ρ c main_arg24 (by decide)
    _ = W6 m ρ c (Proc.devRef .tc main_arg24) := StableHlo.after_of_writes_sub hostOps3 _ hostOps3_writes (by decide)
    _ = W5 m ρ c (Proc.devRef .tc main_arg24) := W6_of_ne m ρ c main_arg24 (by decide)
    _ = W4 m ρ c (Proc.devRef .tc main_arg24) := StableHlo.after_of_writes_sub hostOps2 _ hostOps2_writes (by decide)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl

theorem W8_main_arg25 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := StableHlo.after_of_writes_sub hostOps3 _ hostOps3_writes (by decide)
    _ = W5 m ρ c (Proc.devRef .tc main_arg25) := (W6_arr m ρ c 8).trans (((dat2 (V5 m ρ) c).arrAt_in 8 rfl _).trans (A_eq2 (V5 m ρ) c 8))
    _ = W4 m ρ c (Proc.devRef .tc main_arg25) := StableHlo.after_of_writes_sub hostOps2 _ hostOps2_writes (by decide)
    _ = W3 m ρ c (Proc.devRef .tc main_arg25) := W4_of_ne m ρ c main_arg25 (by decide)
    _ = W2 m ρ c (Proc.devRef .tc main_arg25) := StableHlo.after_of_writes_sub hostOps1 _ hostOps1_writes (by decide)
    _ = W1 m ρ c (Proc.devRef .tc main_arg25) := W2_of_ne m ρ c main_arg25 (by decide)
    _ = W0 m ρ c (Proc.devRef .tc main_arg25) := StableHlo.after_of_writes_sub hostOps0 _ hostOps0_writes (by decide)
    _ = m ((c : Thread nD τ).loc main_arg25) := rfl

theorem W8_main_arg26 (c : Dev nD) : W8 m ρ c (Proc.devRef .tc main_arg26) = m ((c : Thread nD τ).loc main_arg26) :=
  calc W8 m ρ c (Proc.devRef .tc main_arg26)
    _ = W7 m ρ c (Proc.devRef .tc main_arg26) := W8_of_ne m ρ c main_arg26 (by decide)
    _ = W6 m ρ c (Proc.devRef .tc main_arg26) := StableHlo.after_of_writes_sub hostOps3 _ hostOps3_writes (by decide)
    _ = W5 m ρ c (Proc.devRef .tc main_arg26) := W6_of_ne m ρ c main_arg26 (by decide)
    _ = W4 m ρ c (Proc.devRef .tc main_arg26) := StableHlo.after_of_writes_sub hostOps2 _ hostOps2_writes (by decide)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl

theorem W8_main_arg27 (c : Dev nD) : W8 m ρ c (Proc.devRef .tc main_arg27) = m ((c : Thread nD τ).loc main_arg27) :=
  calc W8 m ρ c (Proc.devRef .tc main_arg27)
    _ = W7 m ρ c (Proc.devRef .tc main_arg27) := (W8_arr m ρ c 1).trans (((dat3 (V7 m ρ) c).arrAt_in 1 rfl _).trans (A_eq3 (V7 m ρ) c 1))
    _ = W6 m ρ c (Proc.devRef .tc main_arg27) := StableHlo.after_of_writes_sub hostOps3 _ hostOps3_writes (by decide)
    _ = W5 m ρ c (Proc.devRef .tc main_arg27) := W6_of_ne m ρ c main_arg27 (by decide)
    _ = W4 m ρ c (Proc.devRef .tc main_arg27) := StableHlo.after_of_writes_sub hostOps2 _ hostOps2_writes (by decide)
    _ = W3 m ρ c (Proc.devRef .tc main_arg27) := W4_of_ne m ρ c main_arg27 (by decide)
    _ = W2 m ρ c (Proc.devRef .tc main_arg27) := StableHlo.after_of_writes_sub hostOps1 _ hostOps1_writes (by decide)
    _ = W1 m ρ c (Proc.devRef .tc main_arg27) := W2_of_ne m ρ c main_arg27 (by decide)
    _ = W0 m ρ c (Proc.devRef .tc main_arg27) := StableHlo.after_of_writes_sub hostOps0 _ hostOps0_writes (by decide)
    _ = m ((c : Thread nD τ).loc main_arg27) := rfl

theorem W8_main_arg28 (c : Dev nD) : W8 m ρ c (Proc.devRef .tc main_arg28) = m ((c : Thread nD τ).loc main_arg28) :=
  calc W8 m ρ c (Proc.devRef .tc main_arg28)
    _ = W7 m ρ c (Proc.devRef .tc main_arg28) := W8_of_ne m ρ c main_arg28 (by decide)
    _ = W6 m ρ c (Proc.devRef .tc main_arg28) := StableHlo.after_of_writes_sub hostOps3 _ hostOps3_writes (by decide)
    _ = W5 m ρ c (Proc.devRef .tc main_arg28) := W6_of_ne m ρ c main_arg28 (by decide)
    _ = W4 m ρ c (Proc.devRef .tc main_arg28) := StableHlo.after_of_writes_sub hostOps2 _ hostOps2_writes (by decide)
    _ = W3 m ρ c (Proc.devRef .tc main_arg28) := W4_of_ne m ρ c main_arg28 (by decide)
    _ = W2 m ρ c (Proc.devRef .tc main_arg28) := StableHlo.after_of_writes_sub hostOps1 _ hostOps1_writes (by decide)
    _ = W1 m ρ c (Proc.devRef .tc main_arg28) := W2_of_ne m ρ c main_arg28 (by decide)
    _ = W0 m ρ c (Proc.devRef .tc main_arg28) := StableHlo.after_of_writes_sub hostOps0 _ hostOps0_writes (by decide)
    _ = m ((c : Thread nD τ).loc main_arg28) := rfl

theorem W8_main_arg29 (c : Dev nD) : W8 m ρ c (Proc.devRef .tc main_arg29) = m ((c : Thread nD τ).loc main_arg29) :=
  calc W8 m ρ c (Proc.devRef .tc main_arg29)
    _ = W7 m ρ c (Proc.devRef .tc main_arg29) := (W8_arr m ρ c 3).trans (((dat3 (V7 m ρ) c).arrAt_in 3 rfl _).trans (A_eq3 (V7 m ρ) c 3))
    _ = W6 m ρ c (Proc.devRef .tc main_arg29) := StableHlo.after_of_writes_sub hostOps3 _ hostOps3_writes (by decide)
    _ = W5 m ρ c (Proc.devRef .tc main_arg29) := W6_of_ne m ρ c main_arg29 (by decide)
    _ = W4 m ρ c (Proc.devRef .tc main_arg29) := StableHlo.after_of_writes_sub hostOps2 _ hostOps2_writes (by decide)
    _ = W3 m ρ c (Proc.devRef .tc main_arg29) := W4_of_ne m ρ c main_arg29 (by decide)
    _ = W2 m ρ c (Proc.devRef .tc main_arg29) := StableHlo.after_of_writes_sub hostOps1 _ hostOps1_writes (by decide)
    _ = W1 m ρ c (Proc.devRef .tc main_arg29) := W2_of_ne m ρ c main_arg29 (by decide)
    _ = W0 m ρ c (Proc.devRef .tc main_arg29) := StableHlo.after_of_writes_sub hostOps0 _ hostOps0_writes (by decide)
    _ = m ((c : Thread nD τ).loc main_arg29) := rfl

theorem W8_main_arg30 (c : Dev nD) : W8 m ρ c (Proc.devRef .tc main_arg30) = m ((c : Thread nD τ).loc main_arg30) :=
  calc W8 m ρ c (Proc.devRef .tc main_arg30)
    _ = W7 m ρ c (Proc.devRef .tc main_arg30) := W8_of_ne m ρ c main_arg30 (by decide)
    _ = W6 m ρ c (Proc.devRef .tc main_arg30) := StableHlo.after_of_writes_sub hostOps3 _ hostOps3_writes (by decide)
    _ = W5 m ρ c (Proc.devRef .tc main_arg30) := W6_of_ne m ρ c main_arg30 (by decide)
    _ = W4 m ρ c (Proc.devRef .tc main_arg30) := StableHlo.after_of_writes_sub hostOps2 _ hostOps2_writes (by decide)
    _ = W3 m ρ c (Proc.devRef .tc main_arg30) := W4_of_ne m ρ c main_arg30 (by decide)
    _ = W2 m ρ c (Proc.devRef .tc main_arg30) := StableHlo.after_of_writes_sub hostOps1 _ hostOps1_writes (by decide)
    _ = W1 m ρ c (Proc.devRef .tc main_arg30) := W2_of_ne m ρ c main_arg30 (by decide)
    _ = W0 m ρ c (Proc.devRef .tc main_arg30) := StableHlo.after_of_writes_sub hostOps0 _ hostOps0_writes (by decide)
    _ = m ((c : Thread nD τ).loc main_arg30) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, at nothing. -/
abbrev R (c : Dev nD) : sProp 𝕄 := iprop((∃ r, prngReg c r) ∗ ∃ W, owes (c : Thread nD τ) (0 : CellTallies nD τ sig Unit) W)
/-- A host stretch as a segment: from the unscoped buffers at `W` to the same at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 as a segment over the thread state: entered with every unscoped buffer at `W1`, left with them at
    `W2`. At entry its arrays are split out of the unscoped buffers and at exit put back at what the pipeline
    leaves; the generator register goes into the pipeline's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at `W3`, left with them at
    `W4`. At entry its arrays are split out of the unscoped buffers and at exit put back at what the pipeline
    leaves; the generator register goes into the pipeline's invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state: entered with every unscoped buffer at `W5`, left with them at
    `W6`. At entry its arrays are split out of the unscoped buffers and at exit put back at what the pipeline
    leaves; the generator register goes into the pipeline's invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment over the thread state: entered with every unscoped buffer at `W7`, left with them at
    `W8`. At entry its arrays are split out of the unscoped buffers and at exit put back at what the pipeline
    leaves; the generator register goes into the pipeline's invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- The program is the run of its segments. -/
theorem main_run (c : Dev nD) : main (F := F) c = Pipeline.Seg.run (segs m ρ) := by
  rewrite [main_chain c, Pipeline.Seg.run_eq_chain]
  rfl

set_option backward.isDefEq.respectTransparency.types false in
/-- From any memory with zero counters every weakly fair execution of the program on the TensorCores terminates
    without fault, and every final state has every unscoped buffer at the last boundary's contents `W8`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: the program terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c => ⟨
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c),
    (h c _ (mem_uc main_arg14 (by decide))).trans (W8_main_arg14 m ρ c),
    (h c _ (mem_uc main_arg15 (by decide))).trans (W8_main_arg15 m ρ c),
    (h c _ (mem_uc main_arg16 (by decide))).trans (W8_main_arg16 m ρ c),
    (h c _ (mem_uc main_arg17 (by decide))).trans (W8_main_arg17 m ρ c),
    (h c _ (mem_uc main_arg18 (by decide))).trans (W8_main_arg18 m ρ c),
    (h c _ (mem_uc main_arg19 (by decide))).trans (W8_main_arg19 m ρ c),
    (h c _ (mem_uc main_arg20 (by decide))).trans (W8_main_arg20 m ρ c),
    (h c _ (mem_uc main_arg21 (by decide))).trans (W8_main_arg21 m ρ c),
    (h c _ (mem_uc main_arg22 (by decide))).trans (W8_main_arg22 m ρ c),
    (h c _ (mem_uc main_arg23 (by decide))).trans (W8_main_arg23 m ρ c),
    (h c _ (mem_uc main_arg24 (by decide))).trans (W8_main_arg24 m ρ c),
    (h c _ (mem_uc main_arg25 (by decide))).trans (W8_main_arg25 m ρ c),
    (h c _ (mem_uc main_arg26 (by decide))).trans (W8_main_arg26 m ρ c),
    (h c _ (mem_uc main_arg27 (by decide))).trans (W8_main_arg27 m ρ c),
    (h c _ (mem_uc main_arg28 (by decide))).trans (W8_main_arg28 m ρ c),
    (h c _ (mem_uc main_arg29 (by decide))).trans (W8_main_arg29 m ρ c),
    (h c _ (mem_uc main_arg30 (by decide))).trans (W8_main_arg30 m ρ c)⟩) (run m ρ)

/-- The same run read at the result buffer as well: it ends at the last boundary's contents. -/
theorem result : θ_run defs (onTc (τ := τ) (main (F := F))) ⟨m, fun _ => 0, ρ⟩ (fun r => ∀ c : Dev nD,
      r.2.mem ((c.tc : Thread nD τ).loc main_v75) = W8 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c => ⟨h c _ (mem_uc main_v75 (by decide)),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c),
    (h c _ (mem_uc main_arg14 (by decide))).trans (W8_main_arg14 m ρ c),
    (h c _ (mem_uc main_arg15 (by decide))).trans (W8_main_arg15 m ρ c),
    (h c _ (mem_uc main_arg16 (by decide))).trans (W8_main_arg16 m ρ c),
    (h c _ (mem_uc main_arg17 (by decide))).trans (W8_main_arg17 m ρ c),
    (h c _ (mem_uc main_arg18 (by decide))).trans (W8_main_arg18 m ρ c),
    (h c _ (mem_uc main_arg19 (by decide))).trans (W8_main_arg19 m ρ c),
    (h c _ (mem_uc main_arg20 (by decide))).trans (W8_main_arg20 m ρ c),
    (h c _ (mem_uc main_arg21 (by decide))).trans (W8_main_arg21 m ρ c),
    (h c _ (mem_uc main_arg22 (by decide))).trans (W8_main_arg22 m ρ c),
    (h c _ (mem_uc main_arg23 (by decide))).trans (W8_main_arg23 m ρ c),
    (h c _ (mem_uc main_arg24 (by decide))).trans (W8_main_arg24 m ρ c),
    (h c _ (mem_uc main_arg25 (by decide))).trans (W8_main_arg25 m ρ c),
    (h c _ (mem_uc main_arg26 (by decide))).trans (W8_main_arg26 m ρ c),
    (h c _ (mem_uc main_arg27 (by decide))).trans (W8_main_arg27 m ρ c),
    (h c _ (mem_uc main_arg28 (by decide))).trans (W8_main_arg28 m ρ c),
    (h c _ (mem_uc main_arg29 (by decide))).trans (W8_main_arg29 m ρ c),
    (h c _ (mem_uc main_arg30 (by decide))).trans (W8_main_arg30 m ρ c)⟩) (run m ρ)

end Cert.Kernel.Hand

end
-- ==== Proof.KiData.lean ====
/- The data of the kernel program's run: per pallas_call, the block a window holds at a grid point, what the body
   leaves in the output window's buffer, and the pipeline's proof data; then the buffer contents at every boundary
   between a host stretch and a pallas_call, as a fold from the launch memory. Definitions and their projections only. -/
import proofs.«178267_j2276332667486_1_alg».proof.Proof.Gen.KernelIdeal.Launch
import proofs.«178267_j2276332667486_1_alg».proof.Proof.Gen.KernelIdeal.Skeleton
import proofs.«178267_j2276332667486_1_alg».proof.Proof.Gen.KernelIdeal.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

section Regions
-- the TensorCore's buffer contents when a region is entered
variable (V : (c : Dev nD) → (b : Ref sig .tc) → Buf (Elt F) ((c : Thread nD τ).loc b))

/-! # Region 0: the first graph layer's two-layer perceptron on a block of 5000 node rows, stated at the contents `V` the region is entered with -/

/-- The block of window `w` at grid point `t`: the rectangle of the window's array that the point's index map
    selects, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Every access of the body is to a whole staging buffer: the full rectangle of each buffer shape. -/
abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-- What the body leaves in the output window's staging buffer, as a function of the input blocks: its single
    store covers the buffer, and the stored value is the body's arithmetic applied to the whole input blocks. -/
def out0_10 (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S5000x64 .f32 :=
  View.canon [⟨r0_0, k0_pay1 (k0_pay2 (View.ld x0 r0_0) (View.ld x1 r0_0) (View.ld x2 r0_1) (View.ld x3 r0_2) (View.ld x4 r0_2) (View.ld x5 r0_2) (View.ld x6 r0_2) (View.ld x7 r0_2) (View.ld x8 r0_1)) (View.ld x9 r0_2)⟩]

/-- The pipeline's proof data on core `c`: each array as the region finds it; after the body at point `t` an
    input window's buffer still holds its block and the output window's holds `out0_10` of the input blocks; the
    invariant is the one of a body that touches nothing but its windows; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-! # Region 1: the second graph layer's perceptron on a block of 5000 node rows, stated at the contents `V` the region is entered with -/

/-- The block of window `w` at grid point `t`: the rectangle of the window's array that the point's index map
    selects, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Every access of the body is to a whole staging buffer: the full rectangle of each buffer shape. -/
abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-- What the body leaves in the output window's staging buffer, as a function of the input blocks: its single
    store covers the buffer, and the stored value is the body's arithmetic applied to the whole input blocks. -/
def out1_10 (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S5000x64 .f32 :=
  View.canon [⟨r1_0, k1_pay1 (k1_pay2 (View.ld x0 r1_0) (View.ld x1 r1_0) (View.ld x2 r1_1) (View.ld x3 r1_2) (View.ld x4 r1_2) (View.ld x5 r1_2) (View.ld x6 r1_2) (View.ld x7 r1_2)) (k1_pay3 (View.ld x8 r1_1)) (constant S5000x64 .f32 0x00000000#32) (View.ld x9 r1_2)⟩]

/-- The pipeline's proof data on core `c`: each array as the region finds it; after the body at point `t` an
    input window's buffer still holds its block and the output window's holds `out1_10` of the input blocks; the
    invariant is the one of a body that touches nothing but its windows; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-! # Region 2: the third graph layer's perceptron on a block of 5000 node rows, stated at the contents `V` the region is entered with -/

/-- The block of window `w` at grid point `t`: the rectangle of the window's array that the point's index map
    selects, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Every access of the body is to a whole staging buffer: the full rectangle of each buffer shape. -/
abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-- What the body leaves in the output window's staging buffer, as a function of the input blocks: its single
    store covers the buffer, and the stored value is the body's arithmetic applied to the whole input blocks. -/
def out2_10 (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) : Vec F S5000x64 .f32 :=
  View.canon [⟨r2_0, k2_pay1 (k2_pay2 (View.ld x0 r2_0) (View.ld x1 r2_0) (View.ld x2 r2_1) (View.ld x3 r2_2) (View.ld x4 r2_2) (View.ld x5 r2_2) (View.ld x6 r2_2) (View.ld x7 r2_2)) (k2_pay3 (View.ld x8 r2_1)) (constant S5000x64 .f32 0x00000000#32) (View.ld x9 r2_2)⟩]

/-- The pipeline's proof data on core `c`: each array as the region finds it; after the body at point `t` an
    input window's buffer still holds its block and the output window's holds `out2_10` of the input blocks; the
    invariant is the one of a body that touches nothing but its windows; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-! # Region 3: the classifier head on the 256 pooled rows, stated at the contents `V` the region is entered with -/

/-- The block of window `w` at grid point `t`: the rectangle of the window's array that the point's index map
    selects, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Every access of the body is to a whole staging buffer: the full rectangle of each buffer shape. -/
abbrev r3_0 : Rect S256x192 := Rect.unit (s := S256x192) ![0, 0] S256x192.size inb_S256x192_S256x192_0_0
abbrev r3_1 : Rect S192x192 := Rect.unit (s := S192x192) ![0, 0] S192x192.size inb_S192x192_S192x192_0_0
abbrev r3_2 : Rect S1x192 := Rect.unit (s := S1x192) ![0, 0] S1x192.size inb_S1x192_S1x192_0_0
abbrev r3_3 : Rect S192x10 := Rect.unit (s := S192x10) ![0, 0] S192x10.size inb_S192x10_S192x10_0_0
abbrev r3_4 : Rect S1x10 := Rect.unit (s := S1x10) ![0, 0] S1x10.size inb_S1x10_S1x10_0_0
abbrev r3_5 : Rect S256x10 := Rect.unit (s := S256x10) ![0, 0] S256x10.size inb_S256x10_S256x10_0_0

/-- What the body leaves in the output window's staging buffer, as a function of the input blocks: its single
    store covers the buffer, and the stored value is the body's arithmetic applied to the whole input blocks. -/
def out3_5 (x0 : Vec F S256x192 .f32) (x1 : Vec F S192x192 .f32) (x2 : Vec F S1x192 .f32) (x3 : Vec F S192x10 .f32) (x4 : Vec F S1x10 .f32) : Vec F S256x10 .f32 :=
  View.canon [⟨r3_5, k3_pay1 (View.ld x0 r3_0) (View.ld x1 r3_1) (View.ld x2 r3_2) (View.ld x3 r3_3) (View.ld x4 r3_4)⟩]

/-- The pipeline's proof data on core `c`: each array as the region finds it; after the body at point `t` an
    input window's buffer still holds its block and the output window's holds `out3_5` of the input blocks; the
    invariant is the one of a body that touches nothing but its windows; full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

end Regions

variable (m : (ℓ : Loc nD τ sig) → Buf (Elt F) ℓ) (ρ : Dev nD → PrngReg)

/-! # The buffer contents at each boundary of the program: a fold from the launch memory

A stretch of host operations leaves what `StableHlo.after` computes from the contents before it; a region leaves its
arrays at what the pipeline's write-backs make of them and every other buffer as it was. -/

/-- Core `c`'s buffers at launch. -/
abbrev W0 : Dev nD → Valuation τ sig (Elt F) := fun c b => (s₀ m ρ).mem ((c : Dev nD), b)
/-- After the host stretch before region 0: what region 0 is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: its arrays at what the pipeline leaves (an input as entered, the output with every
    block's write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The exit contents read at the TensorCore's references. -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1: what region 1 is entered with. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: its arrays at what the pipeline leaves (an input as entered, the output with every
    block's write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The exit contents read at the TensorCore's references. -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2: what region 2 is entered with. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit: its arrays at what the pipeline leaves (an input as entered, the output with every
    block's write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The exit contents read at the TensorCore's references. -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch before region 3: what region 3 is entered with. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- At region 3's exit: its arrays at what the pipeline leaves (an input as entered, the output with every
    block's write-back folded in), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The exit contents read at the TensorCore's references. -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.KernelIdeal.Hand

end
-- ==== Proof.KiBody0.lean ====
/- Region 0 of the kernel program: the body's triple on whole staging buffers, and from it the obligation the
   pipeline library asks of the body at every grid point. -/
import proofs.«178267_j2276332667486_1_alg».proof.Proof.KiData
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## An input window's staging buffer holds its block at every point

A window is fetched when its block index moves; where it is not fetched (a window whose index map is constant is
fetched at the first point only) the buffer still holds the same block, the body having left it in place. So for any
proof data whose array is `V`'s and whose body leaves the block, the buffer before the body is the block. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body's single store covers the output buffer -/

theorem cover0_10 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

/-! ## The body's triple

On whole staging buffers, the inputs' at contents `x0 … x9` and the output's at anything, the body runs to a state
with the inputs' buffers unchanged and the output's at `out0_10` of the inputs. -/

set_option maxHeartbeats 1000000 in
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-! ## The body obligation at a generic point -/

/-- What the body is called with at point `t`: the invariant, the core's debts, and every window's current staging
    buffer at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it returns: the same, every window's buffer at its contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KiBody1.lean ====
/- Region 1 of the kernel program: the body's triple on whole staging buffers, and from it the obligation the
   pipeline library asks of the body at every grid point. -/
import proofs.«178267_j2276332667486_1_alg».proof.Proof.KiData
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## An input window's staging buffer holds its block at every point

A window is fetched when its block index moves; where it is not fetched (a window whose index map is constant is
fetched at the first point only) the buffer still holds the same block, the body having left it in place. So for any
proof data whose array is `V`'s and whose body leaves the block, the buffer before the body is the block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body's single store covers the output buffer -/

theorem cover1_10 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple

On whole staging buffers, the inputs' at contents `x0 … x9` and the output's at anything, the body runs to a state
with the inputs' buffers unchanged and the output's at `out1_10` of the inputs. -/

set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10 arg11 harg11) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1_10 _)

/-! ## The body obligation at a generic point -/

/-- What the body is called with at point `t`: the invariant, the core's debts, and every window's current staging
    buffer at its contents before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What it returns: the same, every window's buffer at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KiBody2.lean ====
/- Region 2 of the kernel program: the body's triple on whole staging buffers, and from it the obligation the
   pipeline library asks of the body at every grid point. -/
import proofs.«178267_j2276332667486_1_alg».proof.Proof.KiData
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## An input window's staging buffer holds its block at every point

A window is fetched when its block index moves; where it is not fetched (a window whose index map is constant is
fetched at the first point only) the buffer still holds the same block, the body having left it in place. So for any
proof data whose array is `V`'s and whose body leaves the block, the buffer before the body is the block. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body's single store covers the output buffer -/

theorem cover2_10 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple

On whole staging buffers, the inputs' at contents `x0 … x9` and the output's at anything, the body runs to a state
with the inputs' buffers unchanged and the output's at `out2_10` of the inputs. -/

set_option maxHeartbeats 1000000 in
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 : Vec F S5000x64 .f32) (x1 : Vec F S5000x64 .f32) (x2 : Vec F S64x64 .f32) (x3 : Vec F S1x64 .f32) (x4 : Vec F S1x64 .f32) (x5 : Vec F S1x64 .f32) (x6 : Vec F S1x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover2_10 _)

/-! ## The body obligation at a generic point -/

/-- What the body is called with at point `t`: the invariant, the core's debts, and every window's current staging
    buffer at its contents before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- What it returns: the same, every window's buffer at its contents after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KiBody3.lean ====
/- Region 3 of the kernel program: the body's triple on whole staging buffers, and from it the obligation the
   pipeline library asks of the body at every grid point. -/
import proofs.«178267_j2276332667486_1_alg».proof.Proof.KiData
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## An input window's staging buffer holds its block at every point

A window is fetched when its block index moves; where it is not fetched (a window whose index map is constant is
fetched at the first point only) the buffer still holds the same block, the body having left it in place. So for any
proof data whose array is `V`'s and whose body leaves the block, the buffer before the body is the block. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body's single store covers the output buffer -/

theorem cover3_5 (p0 : Vec F S256x10 .f32) (y : S256x10.Idx) :
    ∃ pc ∈ ([⟨r3_5, p0⟩] : List (View.Piece (Elt F) S256x10 .f32)), y ∈ pc.1.set :=
  View.cover_of_tiled [⟨r3_5, p0⟩] S256x10.size (by rfl) y

/-! ## The body's triple

On whole staging buffers, the inputs' at contents `x0 … x4` and the output's at anything, the body runs to a state
with the inputs' buffers unchanged and the output's at `out3_5` of the inputs. -/

set_option maxHeartbeats 1000000 in
theorem sound_kernel3 (c : Dev nD) (E : Set ℕ) (i : grid3.Coords) (arg1 : Memref sig .tc .vmem S256x192 .f32) (harg1 : arg1.IsWhole) (arg2 : Memref sig .tc .vmem S192x192 .f32) (harg2 : arg2.IsWhole) (arg3 : Memref sig .tc .vmem S1x192 .f32) (harg3 : arg3.IsWhole) (arg4 : Memref sig .tc .vmem S192x10 .f32) (harg4 : arg4.IsWhole) (arg5 : Memref sig .tc .vmem S1x10 .f32) (harg5 : arg5.IsWhole) (arg6 : Memref sig .tc .vmem S256x10 .f32) (harg6 : arg6.IsWhole)
    (x0 : Vec F S256x192 .f32) (x1 : Vec F S192x192 .f32) (x2 : Vec F S1x192 .f32) (x3 : Vec F S192x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__classifier_kernel i arg1 harg1 arg2 harg2 arg3 harg3 arg4 harg4 arg5 harg5 arg6 harg6) K := by
  simp only [cc3__classifier_kernel_eq_skeleton]; unfold cc3__classifier_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover3_5 _)

/-! ## The body obligation at a generic point -/

/-- What the body is called with at point `t`: the invariant, the core's debts, and every window's current staging
    buffer at its contents before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns: the same, every window's buffer at its contents after the body. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1000000 in
/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.Hand

end
-- ==== Proof.KiRun.lean ====
/- The run of the kernel program: its four pallas_calls among four stretches of host operations, as segments from the
   launch to the return over one thread state (every unscoped buffer at the boundary's contents); from it, that the
   program terminates with every unscoped buffer at the last boundary's contents, and so with every argument as launched. -/
import proofs.«178267_j2276332667486_1_alg».proof.Proof.KiBody0
import proofs.«178267_j2276332667486_1_alg».proof.Proof.KiBody1
import proofs.«178267_j2276332667486_1_alg».proof.Proof.KiBody2
import proofs.«178267_j2276332667486_1_alg».proof.Proof.KiBody3
import proofs.«178267_j2276332667486_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument, and a region either does not touch it or reads it through an input window, whose
array the pipeline leaves as it found it: the fold read at an argument walks back to the launch memory. -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := (W2_arr m ρ c 8).trans (((dat0 (V1 m ρ) c).arrAt_in 8 rfl _).trans (A_eq0 (V1 m ρ) c 8))
    _ = W0 m ρ c (Proc.devRef .tc main_arg9) := StableHlo.after_of_writes_sub hostOps0 _ hostOps0_writes (by decide)
    _ = m ((c : Thread nD τ).loc main_arg9) := rfl

theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := (W4_arr m ρ c 2).trans (((dat1 (V3 m ρ) c).arrAt_in 2 rfl _).trans (A_eq1 (V3 m ρ) c 2))
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_writes_sub hostOps3 _ hostOps3_writes (by decide)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W8_main_arg16 (c : Dev nD) : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := StableHlo.after_of_writes_sub hostOps3 _ hostOps3_writes (by decide)
    _ = W5 m ρ c (Proc.devRef .tc main_arg16) := W6_of_ne m ρ c main_arg16 (by decide)
    _ = W4 m ρ c (Proc.devRef .tc main_arg16) := StableHlo.after_of_writes_sub hostOps2 _ hostOps2_writes (by decide)
    _ = W3 m ρ c (Proc.devRef .tc main_arg16) := W4_of_ne m ρ c main_arg16 (by decide)
    _ = W2 m ρ c (Proc.devRef .tc main_arg16) := StableHlo.after_of_writes_sub hostOps1 _ hostOps1_writes (by decide)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W8_main_arg17 (c : Dev nD) : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := StableHlo.after_of_writes_sub hostOps3 _ hostOps3_writes (by decide)
    _ = W5 m ρ c (Proc.devRef .tc main_arg17) := W6_of_ne m ρ c main_arg17 (by decide)
    _ = W4 m ρ c (Proc.devRef .tc main_arg17) := StableHlo.after_of_writes_sub hostOps2 _ hostOps2_writes (by decide)
    _ = W3 m ρ c (Proc.devRef .tc main_arg17) := (W4_arr m ρ c 8).trans (((dat1 (V3 m ρ) c).arrAt_in 8 rfl _).trans (A_eq1 (V3 m ρ) c 8))
    _ = W2 m ρ c (Proc.devRef .tc main_arg17) := StableHlo.after_of_writes_sub hostOps1 _ hostOps1_writes (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W8_main_arg18 (c : Dev nD) : W8 m ρ c (Proc.devRef .tc main_arg18) = m ((c : Thread nD τ).loc main_arg18) :=
  calc W8 m ρ c (Proc.devRef .tc main_arg18)
    _ = W7 m ρ c (Proc.devRef .tc main_arg18) := W8_of_ne m ρ c main_arg18 (by decide)
    _ = W6 m ρ c (Proc.devRef .tc main_arg18) := StableHlo.after_of_writes_sub hostOps3 _ hostOps3_writes (by decide)
    _ = W5 m ρ c (Proc.devRef .tc main_arg18) := W6_of_ne m ρ c main_arg18 (by decide)
    _ = W4 m ρ c (Proc.devRef .tc main_arg18) := StableHlo.after_of_writes_sub hostOps2 _ hostOps2_writes (by decide)
    _ = W3 m ρ c (Proc.devRef .tc main_arg18) := W4_of_ne m ρ c main_arg18 (by decide)
    _ = W2 m ρ c (Proc.devRef .tc main_arg18) := StableHlo.after_of_writes_sub hostOps1 _ hostOps1_writes (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

theorem W8_main_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_writes_sub hostOps3 _ hostOps3_writes (by decide)
    _ = W5 m ρ c (Proc.devRef .tc main_arg19) := (W6_arr m ρ c 2).trans (((dat2 (V5 m ρ) c).arrAt_in 2 rfl _).trans (A_eq2 (V5 m ρ) c 2))
    _ = W4 m ρ c (Proc.devRef .tc main_arg19) := StableHlo.after_of_writes_sub hostOps2 _ hostOps2_writes (by decide)
    _ = W3 m ρ c (Proc.devRef .tc main_arg19) := W4_of_ne m ρ c main_arg19 (by decide)
    _ = W2 m ρ c (Proc.devRef .tc main_arg19) := StableHlo.after_of_writes_sub hostOps1 _ hostOps1_writes (by decide)
    _ = W1 m ρ c (Proc.devRef .tc main_arg19) := W2_of_ne m ρ c main_arg19 (by decide)
    _ = W0 m ρ c (Proc.devRef .tc main_arg19) := StableHlo.after_of_writes_sub hostOps0 _ hostOps0_writes (by decide)
    _ = m ((c : Thread nD τ).loc main_arg19) := rfl

theorem W8_main_arg20 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := StableHlo.after_of_writes_sub hostOps3 _ hostOps3_writes (by decide)
    _ = W5 m ρ c (Proc.devRef .tc main_arg20) := W6_of_ne m ρ c main_arg20 (by decide)
    _ = W4 m ρ c (Proc.devRef .tc main_arg20) := StableHlo.after_of_writes_sub hostOps2 _ hostOps2_writes (by decide)
    _ = W3 m ρ c (Proc.devRef .tc main_arg20) := W4_of_ne m ρ c main_arg20 (by decide)
    _ = W2 m ρ c (Proc.devRef .tc main_arg20) := StableHlo.after_of_writes_sub hostOps1 _ hostOps1_writes (by decide)
    _ = W1 m ρ c (Proc.devRef .tc main_arg20) := W2_of_ne m ρ c main_arg20 (by decide)
    _ = W0 m ρ c (Proc.devRef .tc main_arg20) := StableHlo.after_of_writes_sub hostOps0 _ hostOps0_writes (by decide)
    _ = m ((c : Thread nD τ).loc main_arg20) := rfl

theorem W8_main_arg21 (c : Dev nD) : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := StableHlo.after_of_writes_sub hostOps3 _ hostOps3_writes (by decide)
    _ = W5 m ρ c (Proc.devRef .tc main_arg21) := W6_of_ne m ρ c main_arg21 (by decide)
    _ = W4 m ρ c (Proc.devRef .tc main_arg21) := StableHlo.after_of_writes_sub hostOps2 _ hostOps2_writes (by decide)
    _ = W3 m ρ c (Proc.devRef .tc main_arg21) := W4_of_ne m ρ c main_arg21 (by decide)
    _ = W2 m ρ c (Proc.devRef .tc main_arg21) := StableHlo.after_of_writes_sub hostOps1 _ hostOps1_writes (by decide)
    _ = W1 m ρ c (Proc.devRef .tc main_arg21) := W2_of_ne m ρ c main_arg21 (by decide)
    _ = W0 m ρ c (Proc.devRef .tc main_arg21) := StableHlo.after_of_writes_sub hostOps0 _ hostOps0_writes (by decide)
    _ = m ((c : Thread nD τ).loc main_arg21) := rfl

theorem W8_main_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := StableHlo.after_of_writes_sub hostOps3 _ hostOps3_writes (by decide)
    _ = W5 m ρ c (Proc.devRef .tc main_arg22) := W6_of_ne m ρ c main_arg22 (by decide)
    _ = W4 m ρ c (Proc.devRef .tc main_arg22) := StableHlo.after_of_writes_sub hostOps2 _ hostOps2_writes (by decide)
    _ = W3 m ρ c (Proc.devRef .tc main_arg22) := W4_of_ne m ρ c main_arg22 (by decide)
    _ = W2 m ρ c (Proc.devRef .tc main_arg22) := StableHlo.after_of_writes_sub hostOps1 _ hostOps1_writes (by decide)
    _ = W1 m ρ c (Proc.devRef .tc main_arg22) := W2_of_ne m ρ c main_arg22 (by decide)
    _ = W0 m ρ c (Proc.devRef .tc main_arg22) := StableHlo.after_of_writes_sub hostOps0 _ hostOps0_writes (by decide)
    _ = m ((c : Thread nD τ).loc main_arg22) := rfl

theorem W8_main_arg23 (c : Dev nD) : W8 m ρ c (Proc.devRef .tc main_arg23) = m ((c : Thread nD τ).loc main_arg23) :=
  calc W8 m ρ c (Proc.devRef .tc main_arg23)
    _ = W7 m ρ c (Proc.devRef .tc main_arg23) := W8_of_ne m ρ c main_arg23 (by decide)
    _ = W6 m ρ c (Proc.devRef .tc main_arg23) := StableHlo.after_of_writes_sub hostOps3 _ hostOps3_writes (by decide)
    _ = W5 m ρ c (Proc.devRef .tc main_arg23) := W6_of_ne m ρ c main_arg23 (by decide)
    _ = W4 m ρ c (Proc.devRef .tc main_arg23) := StableHlo.after_of_writes_sub hostOps2 _ hostOps2_writes (by decide)
    _ = W3 m ρ c (Proc.devRef .tc main_arg23) := W4_of_ne m ρ c main_arg23 (by decide)
    _ = W2 m ρ c (Proc.devRef .tc main_arg23) := StableHlo.after_of_writes_sub hostOps1 _ hostOps1_writes (by decide)
    _ = W1 m ρ c (Proc.devRef .tc main_arg23) := W2_of_ne m ρ c main_arg23 (by decide)
    _ = W0 m ρ c (Proc.devRef .tc main_arg23) := StableHlo.after_of_writes_sub hostOps0 _ hostOps0_writes (by decide)
    _ = m ((c : Thread nD τ).loc main_arg23) := rfl

theorem W8_main_arg24 (c : Dev nD) : W8 m ρ c (Proc.devRef .tc main_arg24) = m ((c : Thread nD τ).loc main_arg24) :=
  calc W8 m ρ c (Proc.devRef .tc main_arg24)
    _ = W7 m ρ c (Proc.devRef .tc main_arg24) := W8_of_ne m ρ c main_arg24 (by decide)
    _ = W6 m ρ c (Proc.devRef .tc main_arg24) := StableHlo.after_of_writes_sub hostOps3 _ hostOps3_writes (by decide)
    _ = W5 m ρ c (Proc.devRef .tc main_arg24) := W6_of_ne m ρ c main_arg24 (by decide)
    _ = W4 m ρ c (Proc.devRef .tc main_arg24) := StableHlo.after_of_writes_sub hostOps2 _ hostOps2_writes (by decide)
    _ = W3 m ρ c (Proc.devRef .tc main_arg24) := W4_of_ne m ρ c main_arg24 (by decide)
    _ = W2 m ρ c (Proc.devRef .tc main_arg24) := StableHlo.after_of_writes_sub hostOps1 _ hostOps1_writes (by decide)
    _ = W1 m ρ c (Proc.devRef .tc main_arg24) := W2_of_ne m ρ c main_arg24 (by decide)
    _ = W0 m ρ c (Proc.devRef .tc main_arg24) := StableHlo.after_of_writes_sub hostOps0 _ hostOps0_writes (by decide)
    _ = m ((c : Thread nD τ).loc main_arg24) := rfl

theorem W8_main_arg25 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := StableHlo.after_of_writes_sub hostOps3 _ hostOps3_writes (by decide)
    _ = W5 m ρ c (Proc.devRef .tc main_arg25) := (W6_arr m ρ c 8).trans (((dat2 (V5 m ρ) c).arrAt_in 8 rfl _).trans (A_eq2 (V5 m ρ) c 8))
    _ = W4 m ρ c (Proc.devRef .tc main_arg25) := StableHlo.after_of_writes_sub hostOps2 _ hostOps2_writes (by decide)
    _ = W3 m ρ c (Proc.devRef .tc main_arg25) := W4_of_ne m ρ c main_arg25 (by decide)
    _ = W2 m ρ c (Proc.devRef .tc main_arg25) := StableHlo.after_of_writes_sub hostOps1 _ hostOps1_writes (by decide)
    _ = W1 m ρ c (Proc.devRef .tc main_arg25) := W2_of_ne m ρ c main_arg25 (by decide)
    _ = W0 m ρ c (Proc.devRef .tc main_arg25) := StableHlo.after_of_writes_sub hostOps0 _ hostOps0_writes (by decide)
    _ = m ((c : Thread nD τ).loc main_arg25) := rfl

theorem W8_main_arg26 (c : Dev nD) : W8 m ρ c (Proc.devRef .tc main_arg26) = m ((c : Thread nD τ).loc main_arg26) :=
  calc W8 m ρ c (Proc.devRef .tc main_arg26)
    _ = W7 m ρ c (Proc.devRef .tc main_arg26) := W8_of_ne m ρ c main_arg26 (by decide)
    _ = W6 m ρ c (Proc.devRef .tc main_arg26) := StableHlo.after_of_writes_sub hostOps3 _ hostOps3_writes (by decide)
    _ = W5 m ρ c (Proc.devRef .tc main_arg26) := W6_of_ne m ρ c main_arg26 (by decide)
    _ = W4 m ρ c (Proc.devRef .tc main_arg26) := StableHlo.after_of_writes_sub hostOps2 _ hostOps2_writes (by decide)
    _ = W3 m ρ c (Proc.devRef .tc main_arg26) := W4_of_ne m ρ c main_arg26 (by decide)
    _ = W2 m ρ c (Proc.devRef .tc main_arg26) := StableHlo.after_of_writes_sub hostOps1 _ hostOps1_writes (by decide)
    _ = W1 m ρ c (Proc.devRef .tc main_arg26) := W2_of_ne m ρ c main_arg26 (by decide)
    _ = W0 m ρ c (Proc.devRef .tc main_arg26) := StableHlo.after_of_writes_sub hostOps0 _ hostOps0_writes (by decide)
    _ = m ((c : Thread nD τ).loc main_arg26) := rfl

theorem W8_main_arg27 (c : Dev nD) : W8 m ρ c (Proc.devRef .tc main_arg27) = m ((c : Thread nD τ).loc main_arg27) :=
  calc W8 m ρ c (Proc.devRef .tc main_arg27)
    _ = W7 m ρ c (Proc.devRef .tc main_arg27) := (W8_arr m ρ c 1).trans (((dat3 (V7 m ρ) c).arrAt_in 1 rfl _).trans (A_eq3 (V7 m ρ) c 1))
    _ = W6 m ρ c (Proc.devRef .tc main_arg27) := StableHlo.after_of_writes_sub hostOps3 _ hostOps3_writes (by decide)
    _ = W5 m ρ c (Proc.devRef .tc main_arg27) := W6_of_ne m ρ c main_arg27 (by decide)
    _ = W4 m ρ c (Proc.devRef .tc main_arg27) := StableHlo.after_of_writes_sub hostOps2 _ hostOps2_writes (by decide)
    _ = W3 m ρ c (Proc.devRef .tc main_arg27) := W4_of_ne m ρ c main_arg27 (by decide)
    _ = W2 m ρ c (Proc.devRef .tc main_arg27) := StableHlo.after_of_writes_sub hostOps1 _ hostOps1_writes (by decide)
    _ = W1 m ρ c (Proc.devRef .tc main_arg27) := W2_of_ne m ρ c main_arg27 (by decide)
    _ = W0 m ρ c (Proc.devRef .tc main_arg27) := StableHlo.after_of_writes_sub hostOps0 _ hostOps0_writes (by decide)
    _ = m ((c : Thread nD τ).loc main_arg27) := rfl

theorem W8_main_arg28 (c : Dev nD) : W8 m ρ c (Proc.devRef .tc main_arg28) = m ((c : Thread nD τ).loc main_arg28) :=
  calc W8 m ρ c (Proc.devRef .tc main_arg28)
    _ = W7 m ρ c (Proc.devRef .tc main_arg28) := W8_of_ne m ρ c main_arg28 (by decide)
    _ = W6 m ρ c (Proc.devRef .tc main_arg28) := StableHlo.after_of_writes_sub hostOps3 _ hostOps3_writes (by decide)
    _ = W5 m ρ c (Proc.devRef .tc main_arg28) := W6_of_ne m ρ c main_arg28 (by decide)
    _ = W4 m ρ c (Proc.devRef .tc main_arg28) := StableHlo.after_of_writes_sub hostOps2 _ hostOps2_writes (by decide)
    _ = W3 m ρ c (Proc.devRef .tc main_arg28) := W4_of_ne m ρ c main_arg28 (by decide)
    _ = W2 m ρ c (Proc.devRef .tc main_arg28) := StableHlo.after_of_writes_sub hostOps1 _ hostOps1_writes (by decide)
    _ = W1 m ρ c (Proc.devRef .tc main_arg28) := W2_of_ne m ρ c main_arg28 (by decide)
    _ = W0 m ρ c (Proc.devRef .tc main_arg28) := StableHlo.after_of_writes_sub hostOps0 _ hostOps0_writes (by decide)
    _ = m ((c : Thread nD τ).loc main_arg28) := rfl

theorem W8_main_arg29 (c : Dev nD) : W8 m ρ c (Proc.devRef .tc main_arg29) = m ((c : Thread nD τ).loc main_arg29) :=
  calc W8 m ρ c (Proc.devRef .tc main_arg29)
    _ = W7 m ρ c (Proc.devRef .tc main_arg29) := (W8_arr m ρ c 3).trans (((dat3 (V7 m ρ) c).arrAt_in 3 rfl _).trans (A_eq3 (V7 m ρ) c 3))
    _ = W6 m ρ c (Proc.devRef .tc main_arg29) := StableHlo.after_of_writes_sub hostOps3 _ hostOps3_writes (by decide)
    _ = W5 m ρ c (Proc.devRef .tc main_arg29) := W6_of_ne m ρ c main_arg29 (by decide)
    _ = W4 m ρ c (Proc.devRef .tc main_arg29) := StableHlo.after_of_writes_sub hostOps2 _ hostOps2_writes (by decide)
    _ = W3 m ρ c (Proc.devRef .tc main_arg29) := W4_of_ne m ρ c main_arg29 (by decide)
    _ = W2 m ρ c (Proc.devRef .tc main_arg29) := StableHlo.after_of_writes_sub hostOps1 _ hostOps1_writes (by decide)
    _ = W1 m ρ c (Proc.devRef .tc main_arg29) := W2_of_ne m ρ c main_arg29 (by decide)
    _ = W0 m ρ c (Proc.devRef .tc main_arg29) := StableHlo.after_of_writes_sub hostOps0 _ hostOps0_writes (by decide)
    _ = m ((c : Thread nD τ).loc main_arg29) := rfl

theorem W8_main_arg30 (c : Dev nD) : W8 m ρ c (Proc.devRef .tc main_arg30) = m ((c : Thread nD τ).loc main_arg30) :=
  calc W8 m ρ c (Proc.devRef .tc main_arg30)
    _ = W7 m ρ c (Proc.devRef .tc main_arg30) := W8_of_ne m ρ c main_arg30 (by decide)
    _ = W6 m ρ c (Proc.devRef .tc main_arg30) := StableHlo.after_of_writes_sub hostOps3 _ hostOps3_writes (by decide)
    _ = W5 m ρ c (Proc.devRef .tc main_arg30) := W6_of_ne m ρ c main_arg30 (by decide)
    _ = W4 m ρ c (Proc.devRef .tc main_arg30) := StableHlo.after_of_writes_sub hostOps2 _ hostOps2_writes (by decide)
    _ = W3 m ρ c (Proc.devRef .tc main_arg30) := W4_of_ne m ρ c main_arg30 (by decide)
    _ = W2 m ρ c (Proc.devRef .tc main_arg30) := StableHlo.after_of_writes_sub hostOps1 _ hostOps1_writes (by decide)
    _ = W1 m ρ c (Proc.devRef .tc main_arg30) := W2_of_ne m ρ c main_arg30 (by decide)
    _ = W0 m ρ c (Proc.devRef .tc main_arg30) := StableHlo.after_of_writes_sub hostOps0 _ hostOps0_writes (by decide)
    _ = m ((c : Thread nD τ).loc main_arg30) := rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, at nothing. -/
abbrev R (c : Dev nD) : sProp 𝕄 := iprop((∃ r, prngReg c r) ∗ ∃ W, owes (c : Thread nD τ) (0 : CellTallies nD τ sig Unit) W)
/-- A host stretch as a segment: from the unscoped buffers at `W` to the same at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 as a segment over the thread state: entered with every unscoped buffer at `W1`, left with them at
    `W2`. At entry its arrays are split out of the unscoped buffers and at exit put back at what the pipeline
    leaves; the generator register goes into the pipeline's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at `W3`, left with them at
    `W4`. At entry its arrays are split out of the unscoped buffers and at exit put back at what the pipeline
    leaves; the generator register goes into the pipeline's invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state: entered with every unscoped buffer at `W5`, left with them at
    `W6`. At entry its arrays are split out of the unscoped buffers and at exit put back at what the pipeline
    leaves; the generator register goes into the pipeline's invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment over the thread state: entered with every unscoped buffer at `W7`, left with them at
    `W8`. At entry its arrays are split out of the unscoped buffers and at exit put back at what the pipeline
    leaves; the generator register goes into the pipeline's invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- The program is the run of its segments. -/
theorem main_run (c : Dev nD) : main (F := F) c = Pipeline.Seg.run (segs m ρ) := by
  rewrite [main_chain c, Pipeline.Seg.run_eq_chain]
  rfl

set_option backward.isDefEq.respectTransparency.types false in
/-- From any memory with zero counters every weakly fair execution of the program on the TensorCores terminates
    without fault, and every final state has every unscoped buffer at the last boundary's contents `W8`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: the program terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c => ⟨
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c),
    (h c _ (mem_uc main_arg14 (by decide))).trans (W8_main_arg14 m ρ c),
    (h c _ (mem_uc main_arg15 (by decide))).trans (W8_main_arg15 m ρ c),
    (h c _ (mem_uc main_arg16 (by decide))).trans (W8_main_arg16 m ρ c),
    (h c _ (mem_uc main_arg17 (by decide))).trans (W8_main_arg17 m ρ c),
    (h c _ (mem_uc main_arg18 (by decide))).trans (W8_main_arg18 m ρ c),
    (h c _ (mem_uc main_arg19 (by decide))).trans (W8_main_arg19 m ρ c),
    (h c _ (mem_uc main_arg20 (by decide))).trans (W8_main_arg20 m ρ c),
    (h c _ (mem_uc main_arg21 (by decide))).trans (W8_main_arg21 m ρ c),
    (h c _ (mem_uc main_arg22 (by decide))).trans (W8_main_arg22 m ρ c),
    (h c _ (mem_uc main_arg23 (by decide))).trans (W8_main_arg23 m ρ c),
    (h c _ (mem_uc main_arg24 (by decide))).trans (W8_main_arg24 m ρ c),
    (h c _ (mem_uc main_arg25 (by decide))).trans (W8_main_arg25 m ρ c),
    (h c _ (mem_uc main_arg26 (by decide))).trans (W8_main_arg26 m ρ c),
    (h c _ (mem_uc main_arg27 (by decide))).trans (W8_main_arg27 m ρ c),
    (h c _ (mem_uc main_arg28 (by decide))).trans (W8_main_arg28 m ρ c),
    (h c _ (mem_uc main_arg29 (by decide))).trans (W8_main_arg29 m ρ c),
    (h c _ (mem_uc main_arg30 (by decide))).trans (W8_main_arg30 m ρ c)⟩) (run m ρ)

/-- The same run read at the result buffer as well: it ends at the last boundary's contents. -/
theorem result : θ_run defs (onTc (τ := τ) (main (F := F))) ⟨m, fun _ => 0, ρ⟩ (fun r => ∀ c : Dev nD,
      r.2.mem ((c.tc : Thread nD τ).loc main_v75) = W8 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c => ⟨h c _ (mem_uc main_v75 (by decide)),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c),
    (h c _ (mem_uc main_arg14 (by decide))).trans (W8_main_arg14 m ρ c),
    (h c _ (mem_uc main_arg15 (by decide))).trans (W8_main_arg15 m ρ c),
    (h c _ (mem_uc main_arg16 (by decide))).trans (W8_main_arg16 m ρ c),
    (h c _ (mem_uc main_arg17 (by decide))).trans (W8_main_arg17 m ρ c),
    (h c _ (mem_uc main_arg18 (by decide))).trans (W8_main_arg18 m ρ c),
    (h c _ (mem_uc main_arg19 (by decide))).trans (W8_main_arg19 m ρ c),
    (h c _ (mem_uc main_arg20 (by decide))).trans (W8_main_arg20 m ρ c),
    (h c _ (mem_uc main_arg21 (by decide))).trans (W8_main_arg21 m ρ c),
    (h c _ (mem_uc main_arg22 (by decide))).trans (W8_main_arg22 m ρ c),
    (h c _ (mem_uc main_arg23 (by decide))).trans (W8_main_arg23 m ρ c),
    (h c _ (mem_uc main_arg24 (by decide))).trans (W8_main_arg24 m ρ c),
    (h c _ (mem_uc main_arg25 (by decide))).trans (W8_main_arg25 m ρ c),
    (h c _ (mem_uc main_arg26 (by decide))).trans (W8_main_arg26 m ρ c),
    (h c _ (mem_uc main_arg27 (by decide))).trans (W8_main_arg27 m ρ c),
    (h c _ (mem_uc main_arg28 (by decide))).trans (W8_main_arg28 m ρ c),
    (h c _ (mem_uc main_arg29 (by decide))).trans (W8_main_arg29 m ρ c),
    (h c _ (mem_uc main_arg30 (by decide))).trans (W8_main_arg30 m ρ c)⟩) (run m ρ)

end Cert.KernelIdeal.Hand

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Spec.lean ====
/-
  The network both programs compute, over the extended reals, as whole-array functions of their operands.

  A graph layer takes the node features `X` and the neighbour sums `A` (both `M × K`), and per row computes
    `h = relu (g · ((X + A) W₁ + b₁ − μ) · (σ² + ε)^(-1/2) + β)`, then `relu (h W₂ + b₂)`,
  where `b₁, g, β, μ, σ², b₂` are one-row matrices read at the entry's column. Every entry of the result depends on
  ONE row of `X` and `A` only (`layer_rows_eq`): computing the layer on a block of rows gives that block of the layer.

  The read-out head takes the pooled features `P` (`G × H`): `z = relu (P W₁ + b₁) W₂ + b₂`, then per row the
  logarithm of the softmax in its shifted form, `(z − m) − log Σₖ exp (zₖ − m)` with `m` the row's maximum, the maximum
  being the fold of `max` from the least extended real.
-/
import proofs.«178267_j2276332667486_1_alg».proof.Proof.LibMatProd
import Idealize.ShloMosaic.PureOps.Ideal
import Idealize.ShloMosaic.Lib.ValueIdx

noncomputable section

open scoped BigOperators

namespace Cert.Gin

open Idealize.ShloMosaic Idealize.ShloMosaic.ValueIdx Cert.MatProd

/-- A matrix of extended reals with `M` rows and `N` columns. -/
abbrev Mat (M N : Nat) : Type := (⟨2, ![M, N]⟩ : Shape).Idx → EReal

/-- The offset added to the variance, as the programs spell it. -/
abbrev eps : EReal := Ideal.ofBits .f32 0x3727C5AC#32

/-- The clamp of a rectifier: the zero word read as an extended real. -/
abbrev zero : EReal := Ideal.ofBits .f32 0x00000000#32

/-- The least extended real, as the programs spell it. -/
abbrev negInf : EReal := Ideal.ofBits .f32 0xFF800000#32

variable {M M' K H : Nat}

/-- The entrywise sum of two matrices. -/
def plus (X A : Mat M K) : Mat M K := fun j => X j + A j

/-- The first half of a layer: product with `W₁`, bias, normalisation by the running statistics, rectifier. -/
def normed (X A : Mat M K) (W1 : Mat K H) (B1 G Be Mn Vr : Mat 1 H) : Mat M H :=
  fun i => max (G (ix2 0 (i 1)) * (prod (plus X A) W1 i + B1 (ix2 0 (i 1)) - Mn (ix2 0 (i 1)))
      * Ideal.rsqrt (Vr (ix2 0 (i 1)) + eps) + Be (ix2 0 (i 1))) zero

/-- One graph layer. -/
def layer (X A : Mat M K) (W1 : Mat K H) (B1 G Be Mn Vr : Mat 1 H) (W2 : Mat H H) (B2 : Mat 1 H) : Mat M H :=
  denseRelu (normed X A W1 B1 G Be Mn Vr) W2 B2

/-- Row `p` of the first half on a block of rows is row `r` of the first half on the whole arrays, when row `p` of
    each block is row `r` of its array. -/
theorem normed_rows_eq (X A : Mat M K) (X' A' : Mat M' K) (W1 : Mat K H) (B1 G Be Mn Vr : Mat 1 H)
    (p : Fin M') (r : Fin M) (hX : ∀ k : Fin K, X' (ix2 p k) = X (ix2 r k)) (hA : ∀ k : Fin K, A' (ix2 p k) = A (ix2 r k))
    (q : Fin H) : normed X' A' W1 B1 G Be Mn Vr (ix2 p q) = normed X A W1 B1 G Be Mn Vr (ix2 r q) := by
  have hp : prod (plus X' A') W1 (ix2 p q) = prod (plus X A) W1 (ix2 r q) :=
    prod_block_eq (plus X A) W1 (plus X' A') W1 p q (ix2 r q)
      (fun k => by show X' (ix2 p k) + A' (ix2 p k) = X (ix2 r k) + A (ix2 r k); rw [hX k, hA k]) (fun _ => rfl)
  show max (G (ix2 0 q) * (prod (plus X' A') W1 (ix2 p q) + B1 (ix2 0 q) - Mn (ix2 0 q)) * _ + _) _
    = max (G (ix2 0 q) * (prod (plus X A) W1 (ix2 r q) + B1 (ix2 0 q) - Mn (ix2 0 q)) * _ + _) _
  rw [hp]
  rfl

/-- Row `p` of a layer on a block of rows is row `r` of the layer on the whole arrays. -/
theorem layer_rows_eq (X A : Mat M K) (X' A' : Mat M' K) (W1 : Mat K H) (B1 G Be Mn Vr : Mat 1 H) (W2 : Mat H H)
    (B2 : Mat 1 H) (p : Fin M') (r : Fin M) (hX : ∀ k : Fin K, X' (ix2 p k) = X (ix2 r k))
    (hA : ∀ k : Fin K, A' (ix2 p k) = A (ix2 r k)) (q : Fin H) :
    layer X' A' W1 B1 G Be Mn Vr W2 B2 (ix2 p q) = layer X A W1 B1 G Be Mn Vr W2 B2 (ix2 r q) :=
  denseRelu_block_eq (normed X A W1 B1 G Be Mn Vr) W2 B2 (normed X' A' W1 B1 G Be Mn Vr) W2 B2 p q (ix2 r q)
    (fun k => normed_rows_eq X A X' A' W1 B1 G Be Mn Vr p r hX hA k) (fun _ => rfl) rfl

variable {Gn C : Nat}

/-- The head's scores: a dense layer, then a product plus a bias row. -/
def logits (P : Mat Gn H) (W1 : Mat H H) (B1 : Mat 1 H) (W2 : Mat H C) (B2 : Mat 1 C) : Mat Gn C :=
  fun i => prod (denseRelu P W1 B1) W2 i + B2 (ix2 0 (i 1))

/-- The maximum of row `r`: the fold of `max` over the row from the least extended real. -/
def rowMax (Z : Mat Gn C) (r : Fin Gn) : EReal :=
  (Finset.univ : Finset (Fin C)).fold (max : EReal → EReal → EReal) negInf (fun k => Z (ix2 r k))

/-- The logarithm of the softmax along the rows, in its shifted form. -/
def logSoftmax (Z : Mat Gn C) : Mat Gn C :=
  fun i => (Z i - rowMax Z (i 0)) - Ideal.log (∑ k : Fin C, Ideal.exp (Z (ix2 (i 0) k) - rowMax Z (i 0)))

/-- The read-out head. -/
def classify (P : Mat Gn H) (W1 : Mat H H) (B1 : Mat 1 H) (W2 : Mat H C) (B2 : Mat 1 C) : Mat Gn C :=
  logSoftmax (logits P W1 B1 W2 B2)

/-- A vector of length `N` laid out as a one-row matrix. -/
def asRow {N : Nat} (b : (⟨1, ![N]⟩ : Shape).Idx → EReal) : Mat 1 N := fun i => b (ix1 (i 1))

end Cert.Gin

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibDenseLayer.lean ====
/-
  One dense layer of a perceptron — a matrix product with a weight matrix, plus a bias row, clamped below at zero — read
  over the extended reals as ONE function (`Cert.MatProd.denseRelu`) in the two spellings it is met in, general in the
  three extents and in the operands' float formats:

    * the kernel's: a matrix product into a zero accumulator, plus the bias ROW `[1, N]` broadcast down the rows, then a
      maximum with a splat zero (`kernel_layer`; without the clamp, entry by entry, `kernel_affine`);
    * the host's: a `dot_general`, plus the bias VECTOR `[N]` laid out as a row and broadcast down the rows (two
      `broadcast_in_dim`s), then a maximum with a broadcast zero constant (`host_layer`; without the clamp,
      `host_affine`).

  The product's dimension record is any record equal to the plain one (rows by contraction times contraction by
  columns); `asRow` lays a vector out as a one-row matrix. No finiteness is asked: both sides are the same sum, term by
  term. Imports LibMatProd, LibBroadcastTo and LibBroadcast, which must be copied with it.
-/
import proofs.«178267_j2276332667486_1_alg».proof.Proof.LibMatProd
import proofs.«178267_j2276332667486_1_alg».proof.Proof.LibBroadcastTo
import proofs.«178267_j2276332667486_1_alg».proof.Proof.LibBroadcast
import Idealize.ShloMosaic.PureOps.Contract
import Idealize.ShloMosaic.Lib.Pipeline.Value

noncomputable section

open scoped BigOperators

namespace Cert.DenseLayer

open Idealize.ShloMosaic Idealize.ShloMosaic.ValueIdx Cert.MatProd

/-- A matrix of extended reals with `M` rows and `N` columns. -/
abbrev Mat (M N : Nat) : Type := (⟨2, ![M, N]⟩ : Shape).Idx → EReal

/-- A vector of length `N` laid out as a one-row matrix. -/
def asRow {N : Nat} (b : (⟨1, ![N]⟩ : Shape).Idx → EReal) : Mat 1 N := fun i => b (ix1 (i 1))

/-- The kernel's product plus bias row: a matrix product into a zero accumulator, plus the bias row broadcast down the rows. -/
theorem kernel_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul d none a w (constant ⟨2, ![M, N]⟩ .f32 0x00000000#32)) (broadcastTo ⟨2, ![M, N]⟩ b hb) (ix2 p q)
      = prod a w (ix2 p q) + b (ix2 0 q) := by
  subst hd
  show FloatOps.matmul (DotDims.plain M K N) none a w (constant ⟨2, ![M, N]⟩ .f32 0x00000000#32) (ix2 p q)
      + broadcastTo ⟨2, ![M, N]⟩ b hb (ix2 p q) = _
  rw [matmul_plain_zero_apply, Cert.BroadcastTo.row_apply]
  rfl

/-- The kernel's dense layer is `denseRelu`. -/
theorem kernel_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    maximumf (addf (matmul d none a w (constant ⟨2, ![M, N]⟩ .f32 0x00000000#32)) (broadcastTo ⟨2, ![M, N]⟩ b hb))
        (broadcast ⟨2, ![M, N]⟩ (Scalar.ofBits (F := Ideal) .f32 0x00000000#32))
      = denseRelu a w b := by
  funext i
  obtain ⟨p, q, rfl⟩ : ∃ (p : Fin M) (q : Fin N), i = ix2 p q := ⟨i 0, i 1, eq_ix2 i⟩
  show max (addf (matmul d none a w (constant ⟨2, ![M, N]⟩ .f32 0x00000000#32)) (broadcastTo ⟨2, ![M, N]⟩ b hb) (ix2 p q)) _ = _
  rw [kernel_affine d hd a w b hb p q]
  rfl

/-- The host's product plus bias: a `dot_general`, plus the bias vector laid out as a row and broadcast down the rows. -/
theorem host_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none a w) (broadcastInDim ⟨2, ![M, N]⟩ ![0, 1] h2 (broadcastInDim ⟨2, ![1, N]⟩ ![1] h1 b)) (ix2 p q)
      = prod a w (ix2 p q) + asRow b (ix2 0 q) := by
  subst hd
  show FloatOps.dotGeneral (DotDims.plain M K N) none .single a w (ix2 p q)
      + broadcastInDim ⟨2, ![M, N]⟩ ![0, 1] h2 (broadcastInDim ⟨2, ![1, N]⟩ ![1] h1 b) (ix2 p q) = _
  rw [dotGeneral_plain_apply, Cert.Layout.rows_of_vec_apply]
  rfl

/-- The host's dense layer is `denseRelu`. -/
theorem host_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2)) :
    maximumf (addf (Host.dotGeneral d none a w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = denseRelu a w (asRow b) := by
  funext i
  obtain ⟨p, q, rfl⟩ : ∃ (p : Fin M) (q : Fin N), i = ix2 p q := ⟨i 0, i 1, eq_ix2 i⟩
  show max (addf (Host.dotGeneral d none a w) (broadcastInDim ⟨2, ![M, N]⟩ ![0, 1] h2 (broadcastInDim ⟨2, ![1, N]⟩ ![1] h1 b)) (ix2 p q))
      (broadcastInDim ⟨2, ![M, N]⟩ ![] h0 (constant (F := Ideal) ⟨0, ![]⟩ .f32 0x00000000#32) (ix2 p q)) = _
  rw [host_affine d hd a w b h1 h2 p q, Cert.Layout.splat_apply]
  rfl

end Cert.DenseLayer

end
-- ==== Proof.LibHostRead.lean ====
/-
  The host's whole-array operations read at one entry, general in the extents.

  * a vector laid out as a one-row matrix, a row repeated down the rows, a vector laid out as a one-column matrix, a
    column repeated across the columns, and a rank-zero array repeated everywhere: each reads ONE element of its operand;
  * the sum of a matrix over its column axis from an initial value: at row `p` the initial value plus
    `∑ k, x (p, k)`;
  * the fold of `max` over the column axis from the word `-inf`: at row `p` the fold over `k` of `x (p, k)`; the
    word `-inf` is the least extended real, so a further `max` with it changes nothing.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.HostRead

open Idealize.ShloMosaic Idealize.ShloMosaic.ValueIdx

variable {α : Type} {m n : Nat}

/-! ## Layouts -/

/-- A vector as a one-row matrix: entry `(u, k)` is the vector's entry `k`. -/
theorem vec_row_apply (b : (⟨1, ![n]⟩ : Shape).Idx → α) (h : (⟨1, ![n]⟩ : Shape).BroadcastsInDim ⟨2, ![1, n]⟩ ![1])
    (u : Fin 1) (k : Fin n) : broadcastInDim ⟨2, ![1, n]⟩ ![1] h b (ix2 u k) = b (ix1 k) :=
  broadcastInDim_apply _ h b (ix2 u k) (ix1 k) (fun a => match a with
    | ⟨0, _⟩ => by
      show k.val = if n = 1 then 0 else k.val
      split
      · have := k.isLt; omega
      · rfl)

/-- A one-row matrix repeated down the rows: entry `(p, k)` is the row's entry `(0, k)`. -/
theorem row_rows_apply (x : (⟨2, ![1, n]⟩ : Shape).Idx → α) (h : (⟨2, ![1, n]⟩ : Shape).BroadcastsInDim ⟨2, ![m, n]⟩ ![0, 1])
    (p : Fin m) (k : Fin n) : broadcastInDim ⟨2, ![m, n]⟩ ![0, 1] h x (ix2 p k) = x (ix2 0 k) :=
  broadcastInDim_apply _ h x (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A vector as a one-column matrix: entry `(p, u)` is the vector's entry `p`. -/
theorem vec_col_apply (x : (⟨1, ![m]⟩ : Shape).Idx → α) (h : (⟨1, ![m]⟩ : Shape).BroadcastsInDim ⟨2, ![m, 1]⟩ ![0])
    (p : Fin m) (u : Fin 1) : broadcastInDim ⟨2, ![m, 1]⟩ ![0] h x (ix2 p u) = x (ix1 p) :=
  broadcastInDim_apply _ h x (ix2 p u) (ix1 p) (fun a => match a with
    | ⟨0, _⟩ => by
      show p.val = if m = 1 then 0 else p.val
      split
      · have := p.isLt; omega
      · rfl)

/-- A one-column matrix repeated across the columns: entry `(p, k)` is the column's entry `(p, 0)`. -/
theorem col_cols_apply (x : (⟨2, ![m, 1]⟩ : Shape).Idx → α) (h : (⟨2, ![m, 1]⟩ : Shape).BroadcastsInDim ⟨2, ![m, n]⟩ ![0, 1])
    (p : Fin m) (k : Fin n) : broadcastInDim ⟨2, ![m, n]⟩ ![0, 1] h x (ix2 p k) = x (ix2 p 0) :=
  broadcastInDim_apply _ h x (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

/-- A rank-zero array repeated everywhere reads its one element. -/
theorem scalar_apply (t : Shape) (x : (⟨0, ![]⟩ : Shape).Idx → α) (h : (⟨0, ![]⟩ : Shape).BroadcastsInDim t ![]) (j : t.Idx) :
    broadcastInDim t ![] h x j = x (fun a => a.elim0) :=
  broadcastInDim_apply _ h x j (fun a => a.elim0) (fun a => a.elim0)

/-- A float word repeated everywhere, over the extended reals. -/
theorem word_apply (t : Shape) (w : BitVec 32) (h : (⟨0, ![]⟩ : Shape).BroadcastsInDim t ![]) (j : t.Idx) :
    broadcastInDim t ![] h (constant (F := Ideal) (⟨0, ![]⟩ : Shape) .f32 w) j = Ideal.ofBits .f32 w :=
  scalar_apply t _ h j

/-! ## Reductions over the column axis -/

/-- The row index `p` with column `k` put back is `(p, k)`. -/
theorem lift_row (h : (⟨2, ![m, n]⟩ : Shape).Reduces [1] (⟨1, ![m]⟩ : Shape)) (p : Fin m) (k : Fin n) :
    h.lift (ix1 p) k = ix2 p k := by
  funext c; apply Fin.ext
  fin_cases c <;> rfl

/-- The host's sum over the columns, at row `p`: the initial value plus the sum of the row. -/
theorem reduceAdd_row_apply (x : (⟨2, ![m, n]⟩ : Shape).Idx → EReal) (init : (⟨0, ![]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x init h' hu (ix1 p) = init (Shape.Idx.first hu) + ∑ k : Fin n, x (ix2 p k) := by
  have hr : (⟨2, ![m, n]⟩ : Shape).Reduces [1] (⟨1, ![m]⟩ : Shape) := ⟨h'.1, Nat.one_pos, h'.2⟩
  simp only [Host.reduceAdd, Ideal.hostReduceAdd_def]
  rw [Ideal.hostReduceAdd_single h' hr]
  refine congrArg (_ + ·) (Finset.sum_congr rfl fun k _ => ?_)
  exact congrArg x (lift_row hr p k)

/-- The host's sum over the columns from the zero word, at row `p`: the sum of the row. -/
theorem reduceAdd_row_zero_apply (x : (⟨2, ![m, n]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x (constant (F := Ideal) (⟨0, ![]⟩ : Shape) .f32 0x00000000#32) h' hu (ix1 p)
      = ∑ k : Fin n, x (ix2 p k) := by
  rw [reduceAdd_row_apply]
  show Ideal.ofBits .f32 0x00000000#32 + _ = _
  rw [Ideal.ofBits_zero_f32, zero_add]

/-- The word `-inf` is the least extended real. -/
theorem max_negInf (y : EReal) : max (Ideal.ofBits .f32 0xFF800000#32) y = y := by
  simp [Ideal.ofBits, Ideal.ieee]

/-- The host's fold of `max` over the columns from the word `-inf`, at row `p`: the fold over the row. -/
theorem reduceMax_row_apply (x : FVec Ideal ⟨2, ![m, n]⟩ .f32)
    (h' : (⟨2, ![m, n]⟩ : Shape).ReducesTo [1] (⟨1, ![m]⟩ : Shape)) (hu : 0 < (⟨0, ![]⟩ : Shape).numel) (p : Fin m) :
    Host.reduce (FloatOps.maximumf (F := Ideal) (φ := .f32)) x (constant (F := Ideal) (⟨0, ![]⟩ : Shape) .f32 0xFF800000#32) h' hu (ix1 p)
      = (Finset.univ : Finset (Fin n)).fold (max : EReal → EReal → EReal) (Ideal.ofBits .f32 0xFF800000#32 : EReal)
          (fun k => (x (ix2 p k) : EReal)) := by
  have hr : (⟨2, ![m, n]⟩ : Shape).Reduces [1] (⟨1, ![m]⟩ : Shape) := ⟨h'.1, Nat.one_pos, h'.2⟩
  refine (Host.reduce_eq_fold_single FloatOps.maximumf x _ h' hr hu (ix1 p)).trans ?_
  have hf : (x ∘ hr.lift (ix1 p)) = fun k : Fin n => x (ix2 p k) := funext fun k => congrArg x (lift_row hr p k)
  exact congrArg (fun f => Finset.fold max (Ideal.ofBits .f32 0xFF800000#32) f (Finset.univ : Finset (Fin n))) hf

/-- One more `max` with the word `-inf` repeated along a vector: at `p` the other operand's entry. -/
theorem maxWord_apply (r : FVec Ideal ⟨1, ![m]⟩ .f32) (h : (⟨0, ![]⟩ : Shape).BroadcastsInDim ⟨1, ![m]⟩ ![]) (p : Fin m) (v : EReal)
    (hr : r (ix1 p) = v) :
    maximumf (broadcastInDim ⟨1, ![m]⟩ ![] h (constant (F := Ideal) (⟨0, ![]⟩ : Shape) .f32 0xFF800000#32)) r (ix1 p) = v := by
  refine (congrArg₂ (max : EReal → EReal → EReal) (word_apply ⟨1, ![m]⟩ _ h (ix1 p)) hr).trans ?_
  exact max_negInf v

/-! ## Pointwise host operations -/

theorem hostLog_apply {s : Shape} (y : FVec Ideal s .f32) (i : s.Idx) : Host.log (F := Ideal) y i = Ideal.log (y i) := rfl
theorem hostExp_apply {s : Shape} (y : FVec Ideal s .f32) (i : s.Idx) : Host.exp (F := Ideal) y i = Ideal.exp (y i) := rfl
theorem hostRsqrt_apply {s : Shape} (y : FVec Ideal s .f32) (i : s.Idx) : Host.rsqrt (F := Ideal) y i = Ideal.rsqrt (y i) := rfl
theorem hostDivf_apply {s : Shape} (x y : FVec Ideal s .f32) (i : s.Idx) : Host.divf (F := Ideal) x y i = Ideal.div (x i) (y i) := rfl
theorem addf_apply {s : Shape} (x y : FVec Ideal s .f32) (i : s.Idx) : addf x y i = x i + y i := rfl
theorem subf_apply {s : Shape} (x y : FVec Ideal s .f32) (i : s.Idx) : subf x y i = x i - y i := rfl
theorem mulf_apply {s : Shape} (x y : FVec Ideal s .f32) (i : s.Idx) : mulf x y i = x i * y i := rfl
theorem maximumf_apply {s : Shape} (x y : FVec Ideal s .f32) (i : s.Idx) : maximumf x y i = max (x i) (y i) := rfl

end Cert.HostRead

end
-- ==== Proof.RefStages.lean ====
/-
  The reference program's composed result, cut into the pieces the proof reads one at a time, each the program's own
  term over VARIABLE operands:

    * `aggR x ei`   — the neighbour sums: the rows of `x` gathered at the edges' sources (a negative index wrapped once
      by the row count) and added into a zero array at the edges' targets;
    * `layerR …`    — one graph layer on the node features and the neighbour sums;
    * `poolR h bt`  — the per-graph sums of the rows of `h`;
    * `catR …`      — the three pooled blocks side by side;
    * `headR …`     — the read-out head: dense layer, product plus bias, logarithm of the softmax along the rows.

  `net` is the network as one function of the 31 arguments: the layers and the head as the specification writes them
  (`Cert.Gin.layer`, `Cert.Gin.classify`), the gather/scatter pieces and the concatenation as the program's own terms.
  `netR` is the same composition with the program's layer and head terms in place of the specification's;
  that the two agree is proved in the modules that import this one.
-/
import proofs.«178267_j2276332667486_1_alg».proof.ReferenceIdeal
import proofs.«178267_j2276332667486_1_alg».proof.Proof.Spec
import proofs.«178267_j2276332667486_1_alg».proof.Proof.LibDenseLayer
import proofs.«178267_j2276332667486_1_alg».proof.Proof.LibHostRead

noncomputable section

namespace Cert.ReferenceIdeal.Hand

open Idealize.ShloMosaic Idealize.ShloMosaic.ValueIdx Cert.ReferenceIdeal

variable [Facts]
open Facts₀ Facts

/-- The index arrays as the program's memory holds them. -/
abbrev Edges : Type := (⟨S2x1600000, .i32⟩ : BufTy).Contents (Elt Ideal)
abbrev Batch : Type := (⟨S100000, .i32⟩ : BufTy).Contents (Elt Ideal)

/-- The neighbour sums of `x` along the edges `ei` (row 0 the sources, row 1 the targets). -/
def aggR (x : FVec Ideal S100000x64 .f32) (ei : Edges) : FVec Ideal S100000x64 .f32 :=
  Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))

/-- One graph layer on the node features `x` and the neighbour sums `agg`. -/
def layerR (x agg : FVec Ideal S100000x64 .f32) (w1 : FVec Ideal S64x64 .f32) (b1 : FVec Ideal S64 .f32) (g : FVec Ideal S64 .f32) (be : FVec Ideal S64 .f32) (mn : FVec Ideal S64 .f32) (vr : FVec Ideal S64 .f32)
    (w2 : FVec Ideal S64x64 .f32) (b2 : FVec Ideal S64 .f32) : FVec Ideal S100000x64 .f32 :=
  maximumf (addf (Host.dotGeneral (F := Ideal) dot_S100000x64_S64x64_S100000x64_1_0_0_1_n_n none (maximumf (addf (mulf (mulf (broadcastInDim S100000x64 ![0, 1] bcast_S1x64_S100000x64_0_1 (broadcastInDim S1x64 ![1] bcast_S64_S1x64_1 g)) (subf (addf (Host.dotGeneral (F := Ideal) dot_S100000x64_S64x64_S100000x64_1_0_0_1_n_n none (addf x agg) w1) (broadcastInDim S100000x64 ![0, 1] bcast_S1x64_S100000x64_0_1 (broadcastInDim S1x64 ![1] bcast_S64_S1x64_1 b1))) (broadcastInDim S100000x64 ![0, 1] bcast_S1x64_S100000x64_0_1 (broadcastInDim S1x64 ![1] bcast_S64_S1x64_1 mn)))) (broadcastInDim S100000x64 ![0, 1] bcast_S1x64_S100000x64_0_1 (broadcastInDim S1x64 ![1] bcast_S64_S1x64_1 (Host.rsqrt (F := Ideal) (addf vr (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 be))) (broadcastInDim S100000x64 ![] bcast_S_S100000x64 (constant (F := Ideal) S_ .f32 0x00000000#32))) w2) (broadcastInDim S100000x64 ![0, 1] bcast_S1x64_S100000x64_0_1 (broadcastInDim S1x64 ![1] bcast_S64_S1x64_1 b2))) (broadcastInDim S100000x64 ![] bcast_S_S100000x64 (constant (F := Ideal) S_ .f32 0x00000000#32))

/-- The per-graph sums of the rows of `h`, by the graph index `bt` of each row. -/
def poolR (h : FVec Ideal S100000x64 .f32) (bt : Batch) : FVec Ideal S256x64 .f32 :=
  Host.scatterAdd (F := Ideal) scatter_S256x64_S100000x1_S100000x64_1_0_0_1 (broadcastInDim S256x64 ![] bcast_S_S256x64 (constant (F := Ideal) S_ .f32 0x00000000#32)) (broadcastInDim S100000x1 ![0] bcast_S100000_S100000x1_0 bt) h

/-- The three pooled blocks side by side. -/
def catR (p1 p2 p3 : FVec Ideal S256x64 .f32) : FVec Ideal S256x192 .f32 :=
  concatenate S256x192 1 [⟨S256x64, p1⟩, ⟨S256x64, p2⟩, ⟨S256x64, p3⟩] concatenates_S256x64_S256x64_S256x64_S256x192_d1

/-- The head's scores: a dense layer, then a product plus a bias. -/
def logitsR (p : FVec Ideal S256x192 .f32) (l1w : FVec Ideal S192x192 .f32) (l1b : FVec Ideal S192 .f32)
    (l2w : FVec Ideal S192x10 .f32) (l2b : FVec Ideal S10 .f32) : FVec Ideal S256x10 .f32 :=
  addf (Host.dotGeneral (F := Ideal) dot_S256x192_S192x10_S256x10_1_0_0_1_n_n none (maximumf (addf (Host.dotGeneral (F := Ideal) dot_S256x192_S192x192_S256x192_1_0_0_1_n_n none p l1w) (broadcastInDim S256x192 ![0, 1] bcast_S1x192_S256x192_0_1 (broadcastInDim S1x192 ![1] bcast_S192_S1x192_1 l1b))) (broadcastInDim S256x192 ![] bcast_S_S256x192 (constant (F := Ideal) S_ .f32 0x00000000#32))) l2w) (broadcastInDim S256x10 ![0, 1] bcast_S1x10_S256x10_0_1 (broadcastInDim S1x10 ![1] bcast_S10_S1x10_1 l2b))

/-- The logarithm of the softmax along the rows, as the program spells it. -/
def logSoftmaxR (z : FVec Ideal S256x10 .f32) : FVec Ideal S256x10 .f32 :=
  subf (subf z (broadcastInDim S256x10 ![0, 1] bcast_S256x1_S256x10_0_1 (broadcastInDim S256x1 ![0] bcast_S256_S256x1_0 (maximumf (broadcastInDim S256 ![] bcast_S_S256 (constant (F := Ideal) S_ .f32 0xFF800000#32)) (Host.reduce FloatOps.maximumf z (constant (F := Ideal) S_ .f32 0xFF800000#32) reducesTo_S256x10_S256_d1 h_S_))))) (broadcastInDim S256x10 ![0, 1] bcast_S256x1_S256x10_0_1 (Host.log (F := Ideal) (broadcastInDim S256x1 ![0] bcast_S256_S256x1_0 (Host.reduceAdd (F := Ideal) (Host.exp (F := Ideal) (subf z (broadcastInDim S256x10 ![0, 1] bcast_S256x1_S256x10_0_1 (broadcastInDim S256x1 ![0] bcast_S256_S256x1_0 (maximumf (broadcastInDim S256 ![] bcast_S_S256 (constant (F := Ideal) S_ .f32 0xFF800000#32)) (Host.reduce FloatOps.maximumf z (constant (F := Ideal) S_ .f32 0xFF800000#32) reducesTo_S256x10_S256_d1 h_S_)))))) (constant (F := Ideal) S_ .f32 0x00000000#32) reducesTo_S256x10_S256_d1 h_S_))))

/-- The read-out head. -/
def headR (p : FVec Ideal S256x192 .f32) (l1w : FVec Ideal S192x192 .f32) (l1b : FVec Ideal S192 .f32)
    (l2w : FVec Ideal S192x10 .f32) (l2b : FVec Ideal S10 .f32) : FVec Ideal S256x10 .f32 :=
  logSoftmaxR (logitsR p l1w l1b l2w l2b)

/-- The network as one function of the program's 31 arguments, layers and head as the specification writes them. -/
def net (x : FVec Ideal S100000x64 .f32) (ei : Edges) (bt : Batch)
    (w11 : FVec Ideal S64x64 .f32) (b11 : FVec Ideal S64 .f32) (g1 : FVec Ideal S64 .f32) (be1 : FVec Ideal S64 .f32) (mn1 : FVec Ideal S64 .f32) (vr1 : FVec Ideal S64 .f32) (w12 : FVec Ideal S64x64 .f32) (b12 : FVec Ideal S64 .f32)
    (w21 : FVec Ideal S64x64 .f32) (b21 : FVec Ideal S64 .f32) (g2 : FVec Ideal S64 .f32) (be2 : FVec Ideal S64 .f32) (mn2 : FVec Ideal S64 .f32) (vr2 : FVec Ideal S64 .f32) (w22 : FVec Ideal S64x64 .f32) (b22 : FVec Ideal S64 .f32)
    (w31 : FVec Ideal S64x64 .f32) (b31 : FVec Ideal S64 .f32) (g3 : FVec Ideal S64 .f32) (be3 : FVec Ideal S64 .f32) (mn3 : FVec Ideal S64 .f32) (vr3 : FVec Ideal S64 .f32) (w32 : FVec Ideal S64x64 .f32) (b32 : FVec Ideal S64 .f32)
    (l1w : FVec Ideal S192x192 .f32) (l1b : FVec Ideal S192 .f32) (l2w : FVec Ideal S192x10 .f32) (l2b : FVec Ideal S10 .f32) :
    FVec Ideal S256x10 .f32 :=
  let h1 : FVec Ideal S100000x64 .f32 := Cert.Gin.layer x (aggR x ei) w11 (Cert.Gin.asRow b11) (Cert.Gin.asRow g1) (Cert.Gin.asRow be1)
    (Cert.Gin.asRow mn1) (Cert.Gin.asRow vr1) w12 (Cert.Gin.asRow b12)
  let h2 : FVec Ideal S100000x64 .f32 := Cert.Gin.layer h1 (aggR h1 ei) w21 (Cert.Gin.asRow b21) (Cert.Gin.asRow g2) (Cert.Gin.asRow be2)
    (Cert.Gin.asRow mn2) (Cert.Gin.asRow vr2) w22 (Cert.Gin.asRow b22)
  let h3 : FVec Ideal S100000x64 .f32 := Cert.Gin.layer h2 (aggR h2 ei) w31 (Cert.Gin.asRow b31) (Cert.Gin.asRow g3) (Cert.Gin.asRow be3)
    (Cert.Gin.asRow mn3) (Cert.Gin.asRow vr3) w32 (Cert.Gin.asRow b32)
  Cert.Gin.classify (catR (poolR h1 bt) (poolR h2 bt) (poolR h3 bt)) l1w (Cert.Gin.asRow l1b) l2w (Cert.Gin.asRow l2b)

/-- The same composition with the program's own layer and head terms. -/
def netR (x : FVec Ideal S100000x64 .f32) (ei : Edges) (bt : Batch)
    (w11 : FVec Ideal S64x64 .f32) (b11 : FVec Ideal S64 .f32) (g1 : FVec Ideal S64 .f32) (be1 : FVec Ideal S64 .f32) (mn1 : FVec Ideal S64 .f32) (vr1 : FVec Ideal S64 .f32) (w12 : FVec Ideal S64x64 .f32) (b12 : FVec Ideal S64 .f32)
    (w21 : FVec Ideal S64x64 .f32) (b21 : FVec Ideal S64 .f32) (g2 : FVec Ideal S64 .f32) (be2 : FVec Ideal S64 .f32) (mn2 : FVec Ideal S64 .f32) (vr2 : FVec Ideal S64 .f32) (w22 : FVec Ideal S64x64 .f32) (b22 : FVec Ideal S64 .f32)
    (w31 : FVec Ideal S64x64 .f32) (b31 : FVec Ideal S64 .f32) (g3 : FVec Ideal S64 .f32) (be3 : FVec Ideal S64 .f32) (mn3 : FVec Ideal S64 .f32) (vr3 : FVec Ideal S64 .f32) (w32 : FVec Ideal S64x64 .f32) (b32 : FVec Ideal S64 .f32)
    (l1w : FVec Ideal S192x192 .f32) (l1b : FVec Ideal S192 .f32) (l2w : FVec Ideal S192x10 .f32) (l2b : FVec Ideal S10 .f32) :
    FVec Ideal S256x10 .f32 :=
  let h1 := layerR x (aggR x ei) w11 b11 g1 be1 mn1 vr1 w12 b12
  let h2 := layerR h1 (aggR h1 ei) w21 b21 g2 be2 mn2 vr2 w22 b22
  let h3 := layerR h2 (aggR h2 ei) w31 b31 g3 be3 mn3 vr3 w32 b32
  headR (catR (poolR h1 bt) (poolR h2 bt) (poolR h3 bt)) l1w l1b l2w l2b

end Cert.ReferenceIdeal.Hand

end
-- ==== Proof.RefLayer.lean ====
/-
  One graph layer of the reference program is the specification's layer.

  The program's term is two stretches. The first is, entry by entry at `(r, q)`,
    `max (g q · ((x + agg) W₁ (r, q) + b₁ q − μ q) · rsqrt (σ² q + ε) + β q) 0`,
  every `[64]` vector being laid out as a row and repeated down the rows, the offset `ε` and the clamp `0` float words
  repeated everywhere: that is the body of `Cert.Gin.normed`. The second is a dense layer on it.
-/
import proofs.«178267_j2276332667486_1_alg».proof.Proof.RefStages

noncomputable section

namespace Cert.ReferenceIdeal.Hand

open Idealize.ShloMosaic Idealize.ShloMosaic.ValueIdx Cert.ReferenceIdeal

variable [Facts]
open Facts₀ Facts

/-- The first stretch of a layer: product, bias, normalisation by the running statistics, rectifier. -/
def normedR (x agg : FVec Ideal S100000x64 .f32) (w1 : FVec Ideal S64x64 .f32) (b1 : FVec Ideal S64 .f32) (g : FVec Ideal S64 .f32) (be : FVec Ideal S64 .f32) (mn : FVec Ideal S64 .f32) (vr : FVec Ideal S64 .f32) :
    FVec Ideal S100000x64 .f32 :=
  maximumf (addf (mulf (mulf (broadcastInDim S100000x64 ![0, 1] bcast_S1x64_S100000x64_0_1 (broadcastInDim S1x64 ![1] bcast_S64_S1x64_1 g)) (subf (addf (Host.dotGeneral (F := Ideal) dot_S100000x64_S64x64_S100000x64_1_0_0_1_n_n none (addf x agg) w1) (broadcastInDim S100000x64 ![0, 1] bcast_S1x64_S100000x64_0_1 (broadcastInDim S1x64 ![1] bcast_S64_S1x64_1 b1))) (broadcastInDim S100000x64 ![0, 1] bcast_S1x64_S100000x64_0_1 (broadcastInDim S1x64 ![1] bcast_S64_S1x64_1 mn)))) (broadcastInDim S100000x64 ![0, 1] bcast_S1x64_S100000x64_0_1 (broadcastInDim S1x64 ![1] bcast_S64_S1x64_1 (Host.rsqrt (F := Ideal) (addf vr (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 be))) (broadcastInDim S100000x64 ![] bcast_S_S100000x64 (constant (F := Ideal) S_ .f32 0x00000000#32))

/-- The product's dimension record is the plain one. -/
theorem dot64_plain : dot_S100000x64_S64x64_S100000x64_1_0_0_1_n_n = DotDims.plain 100000 64 64 := rfl

/-- The layer's term is a dense layer on its first stretch. -/
theorem layerR_unfold (x agg : FVec Ideal S100000x64 .f32) (w1 : FVec Ideal S64x64 .f32) (b1 : FVec Ideal S64 .f32) (g : FVec Ideal S64 .f32) (be : FVec Ideal S64 .f32) (mn : FVec Ideal S64 .f32) (vr : FVec Ideal S64 .f32)
    (w2 : FVec Ideal S64x64 .f32) (b2 : FVec Ideal S64 .f32) :
    layerR x agg w1 b1 g be mn vr w2 b2
      = maximumf (addf (Host.dotGeneral (F := Ideal) dot_S100000x64_S64x64_S100000x64_1_0_0_1_n_n none (normedR x agg w1 b1 g be mn vr) w2) (broadcastInDim S100000x64 ![0, 1] bcast_S1x64_S100000x64_0_1 (broadcastInDim S1x64 ![1] bcast_S64_S1x64_1 b2))) (broadcastInDim S100000x64 ![] bcast_S_S100000x64 (constant (F := Ideal) S_ .f32 0x00000000#32)) := rfl

/-- A `[64]` vector laid out as a row and repeated down the rows reads, at `(r, q)`, its entry `q`. -/
theorem rowOf_apply (b : FVec Ideal S64 .f32) (r : Fin 100000) (q : Fin 64) :
    (broadcastInDim S100000x64 ![0, 1] bcast_S1x64_S100000x64_0_1 (broadcastInDim S1x64 ![1] bcast_S64_S1x64_1 b)) (ix2 r q) = b (ix1 q) :=
  (Cert.HostRead.row_rows_apply _ bcast_S1x64_S100000x64_0_1 r q).trans (Cert.HostRead.vec_row_apply b bcast_S64_S1x64_1 0 q)

/-- The first stretch is the specification's. -/
theorem normedR_eq (x agg : FVec Ideal S100000x64 .f32) (w1 : FVec Ideal S64x64 .f32) (b1 : FVec Ideal S64 .f32) (g : FVec Ideal S64 .f32) (be : FVec Ideal S64 .f32) (mn : FVec Ideal S64 .f32) (vr : FVec Ideal S64 .f32) :
    normedR x agg w1 b1 g be mn vr
      = Cert.Gin.normed x agg w1 (Cert.Gin.asRow b1) (Cert.Gin.asRow g) (Cert.Gin.asRow be) (Cert.Gin.asRow mn) (Cert.Gin.asRow vr) := by
  funext i
  obtain ⟨r, q, rfl⟩ : ∃ (r : Fin 100000) (q : Fin 64), i = ix2 r q := ⟨i 0, i 1, eq_ix2 i⟩
  have haff := Cert.DenseLayer.host_affine dot_S100000x64_S64x64_S100000x64_1_0_0_1_n_n dot64_plain (addf x agg) w1 b1
    bcast_S64_S1x64_1 bcast_S1x64_S100000x64_0_1 r q
  have hz : (broadcastInDim S100000x64 ![] bcast_S_S100000x64 (constant (F := Ideal) S_ .f32 0x00000000#32)) (ix2 r q) = Ideal.ofBits .f32 0x00000000#32 :=
    Cert.HostRead.word_apply S100000x64 _ bcast_S_S100000x64 (ix2 r q)
  have hrs : (Host.rsqrt (F := Ideal) (addf vr (broadcastInDim S64 ![] bcast_S_S64 (constant (F := Ideal) S_ .f32 0x3727C5AC#32)))) (ix1 q) = Ideal.rsqrt (vr (ix1 q) + Ideal.ofBits .f32 0x3727C5AC#32) :=
    congrArg (fun e : EReal => Ideal.rsqrt (vr (ix1 q) + e)) (Cert.HostRead.word_apply S64 _ bcast_S_S64 (ix1 q))
  show max ((broadcastInDim S100000x64 ![0, 1] bcast_S1x64_S100000x64_0_1 (broadcastInDim S1x64 ![1] bcast_S64_S1x64_1 g)) (ix2 r q)
        * (addf (Host.dotGeneral (F := Ideal) dot_S100000x64_S64x64_S100000x64_1_0_0_1_n_n none (addf x agg) w1) (broadcastInDim S100000x64 ![0, 1] bcast_S1x64_S100000x64_0_1 (broadcastInDim S1x64 ![1] bcast_S64_S1x64_1 b1)) (ix2 r q) - (broadcastInDim S100000x64 ![0, 1] bcast_S1x64_S100000x64_0_1 (broadcastInDim S1x64 ![1] bcast_S64_S1x64_1 mn)) (ix2 r q))
        * (broadcastInDim S100000x64 ![0, 1] bcast_S1x64_S100000x64_0_1 (broadcastInDim S1x64 ![1] bcast_S64_S1x64_1 (Host.rsqrt (F := Ideal) (addf vr (broadcastInDim S64 ![] bcast_S_S64 (constant (F := Ideal) S_ .f32 0x3727C5AC#32)))))) (ix2 r q) + (broadcastInDim S100000x64 ![0, 1] bcast_S1x64_S100000x64_0_1 (broadcastInDim S1x64 ![1] bcast_S64_S1x64_1 be)) (ix2 r q))
      ((broadcastInDim S100000x64 ![] bcast_S_S100000x64 (constant (F := Ideal) S_ .f32 0x00000000#32)) (ix2 r q)) = _
  rw [rowOf_apply g, rowOf_apply mn, rowOf_apply be, rowOf_apply (Host.rsqrt (F := Ideal) (addf vr (broadcastInDim S64 ![] bcast_S_S64 (constant (F := Ideal) S_ .f32 0x3727C5AC#32)))), haff, hz, hrs]
  rfl

/-- THE LAYER: the program's term is the specification's layer. -/
theorem layerR_eq (x agg : FVec Ideal S100000x64 .f32) (w1 : FVec Ideal S64x64 .f32) (b1 : FVec Ideal S64 .f32) (g : FVec Ideal S64 .f32) (be : FVec Ideal S64 .f32) (mn : FVec Ideal S64 .f32) (vr : FVec Ideal S64 .f32)
    (w2 : FVec Ideal S64x64 .f32) (b2 : FVec Ideal S64 .f32) :
    layerR x agg w1 b1 g be mn vr w2 b2
      = Cert.Gin.layer x agg w1 (Cert.Gin.asRow b1) (Cert.Gin.asRow g) (Cert.Gin.asRow be) (Cert.Gin.asRow mn) (Cert.Gin.asRow vr)
          w2 (Cert.Gin.asRow b2) := by
  refine (layerR_unfold x agg w1 b1 g be mn vr w2 b2).trans ?_
  refine (Cert.DenseLayer.host_layer dot_S100000x64_S64x64_S100000x64_1_0_0_1_n_n dot64_plain (normedR x agg w1 b1 g be mn vr) w2 b2
    bcast_S64_S1x64_1 bcast_S1x64_S100000x64_0_1 bcast_S_S100000x64).trans ?_
  rw [normedR_eq]
  rfl

end Cert.ReferenceIdeal.Hand

end
-- ==== Proof.RefHead.lean ====
/-
  The read-out head of the reference program is the specification's.

  The scores are a dense layer followed by a product plus a bias. The logarithm of the softmax is computed per row `r`
  in its shifted form: the row's maximum `m r` (the fold of `max` from the least extended real, one more `max` with
  that word changing nothing), laid out as a column and repeated across the columns; `s = z − m`; the row sums of
  `exp s`, laid out as a column, their logarithm taken on the column and repeated across the columns; `s − log Σ exp s`.
-/
import proofs.«178267_j2276332667486_1_alg».proof.Proof.RefStages

noncomputable section

open scoped BigOperators

namespace Cert.ReferenceIdeal.Hand

open Idealize.ShloMosaic Idealize.ShloMosaic.ValueIdx Cert.ReferenceIdeal

variable [Facts]
open Facts₀ Facts

/-! ## The scores -/

theorem dot192_plain : dot_S256x192_S192x192_S256x192_1_0_0_1_n_n = DotDims.plain 256 192 192 := rfl
theorem dot10_plain : dot_S256x192_S192x10_S256x10_1_0_0_1_n_n = DotDims.plain 256 192 10 := rfl

/-- The scores' term is a product plus bias on a dense layer. -/
theorem logitsR_unfold (p : FVec Ideal S256x192 .f32) (l1w : FVec Ideal S192x192 .f32) (l1b : FVec Ideal S192 .f32)
    (l2w : FVec Ideal S192x10 .f32) (l2b : FVec Ideal S10 .f32) :
    logitsR p l1w l1b l2w l2b = addf (Host.dotGeneral (F := Ideal) dot_S256x192_S192x10_S256x10_1_0_0_1_n_n none (maximumf (addf (Host.dotGeneral (F := Ideal) dot_S256x192_S192x192_S256x192_1_0_0_1_n_n none p l1w) (broadcastInDim S256x192 ![0, 1] bcast_S1x192_S256x192_0_1 (broadcastInDim S1x192 ![1] bcast_S192_S1x192_1 l1b))) (broadcastInDim S256x192 ![] bcast_S_S256x192 (constant (F := Ideal) S_ .f32 0x00000000#32))) l2w) (broadcastInDim S256x10 ![0, 1] bcast_S1x10_S256x10_0_1 (broadcastInDim S1x10 ![1] bcast_S10_S1x10_1 l2b)) := rfl

/-- The program's scores are the specification's. -/
theorem logitsR_eq (p : FVec Ideal S256x192 .f32) (l1w : FVec Ideal S192x192 .f32) (l1b : FVec Ideal S192 .f32)
    (l2w : FVec Ideal S192x10 .f32) (l2b : FVec Ideal S10 .f32) :
    logitsR p l1w l1b l2w l2b = Cert.Gin.logits p l1w (Cert.Gin.asRow l1b) l2w (Cert.Gin.asRow l2b) := by
  funext i
  obtain ⟨r, q, rfl⟩ : ∃ (r : Fin 256) (q : Fin 10), i = ix2 r q := ⟨i 0, i 1, eq_ix2 i⟩
  have hl := Cert.DenseLayer.host_layer dot_S256x192_S192x192_S256x192_1_0_0_1_n_n dot192_plain p l1w l1b
    bcast_S192_S1x192_1 bcast_S1x192_S256x192_0_1 bcast_S_S256x192
  have haff := Cert.DenseLayer.host_affine dot_S256x192_S192x10_S256x10_1_0_0_1_n_n dot10_plain (maximumf (addf (Host.dotGeneral (F := Ideal) dot_S256x192_S192x192_S256x192_1_0_0_1_n_n none p l1w) (broadcastInDim S256x192 ![0, 1] bcast_S1x192_S256x192_0_1 (broadcastInDim S1x192 ![1] bcast_S192_S1x192_1 l1b))) (broadcastInDim S256x192 ![] bcast_S_S256x192 (constant (F := Ideal) S_ .f32 0x00000000#32))) l2w l2b
    bcast_S10_S1x10_1 bcast_S1x10_S256x10_0_1 r q
  rw [logitsR_unfold]
  refine haff.trans ?_
  rw [hl]
  rfl

/-! ## The logarithm of the softmax -/

/-- The rows' maxima, as the program computes them. -/
def rowMaxR (z : FVec Ideal S256x10 .f32) : FVec Ideal S256 .f32 :=
  maximumf (broadcastInDim S256 ![] bcast_S_S256 (constant (F := Ideal) S_ .f32 0xFF800000#32)) (Host.reduce FloatOps.maximumf z (constant (F := Ideal) S_ .f32 0xFF800000#32) reducesTo_S256x10_S256_d1 h_S_)

/-- The scores less their row's maximum. -/
def shiftedR (z : FVec Ideal S256x10 .f32) : FVec Ideal S256x10 .f32 :=
  subf z (broadcastInDim S256x10 ![0, 1] bcast_S256x1_S256x10_0_1 (broadcastInDim S256x1 ![0] bcast_S256_S256x1_0 (rowMaxR z)))

/-- The rows' sums of the exponentials of the shifted scores. -/
def expSumR (z : FVec Ideal S256x10 .f32) : FVec Ideal S256 .f32 :=
  Host.reduceAdd (F := Ideal) (Host.exp (F := Ideal) (shiftedR z)) (constant (F := Ideal) S_ .f32 0x00000000#32) reducesTo_S256x10_S256_d1 h_S_

theorem logSoftmaxR_unfold (z : FVec Ideal S256x10 .f32) :
    logSoftmaxR z = subf (shiftedR z) (broadcastInDim S256x10 ![0, 1] bcast_S256x1_S256x10_0_1 (Host.log (F := Ideal) (broadcastInDim S256x1 ![0] bcast_S256_S256x1_0 (expSumR z)))) := rfl

/-- A `[256]` vector laid out as a column and repeated across the columns reads, at `(r, q)`, its entry `r`. -/
theorem colOf_apply (v : FVec Ideal S256 .f32) (r : Fin 256) (q : Fin 10) :
    (broadcastInDim S256x10 ![0, 1] bcast_S256x1_S256x10_0_1 (broadcastInDim S256x1 ![0] bcast_S256_S256x1_0 v)) (ix2 r q) = v (ix1 r) :=
  (Cert.HostRead.col_cols_apply _ bcast_S256x1_S256x10_0_1 r q).trans (Cert.HostRead.vec_col_apply v bcast_S256_S256x1_0 r 0)

/-- The program's maximum of row `r` is the fold of `max` over the row. -/
theorem rowMaxR_apply (z : FVec Ideal S256x10 .f32) (r : Fin 256) : rowMaxR z (ix1 r) = Cert.Gin.rowMax z r :=
  Cert.HostRead.maxWord_apply (Host.reduce FloatOps.maximumf z (constant (F := Ideal) S_ .f32 0xFF800000#32) reducesTo_S256x10_S256_d1 h_S_) bcast_S_S256 r _ (Cert.HostRead.reduceMax_row_apply z reducesTo_S256x10_S256_d1 h_S_ r)

theorem shiftedR_apply (z : FVec Ideal S256x10 .f32) (r : Fin 256) (q : Fin 10) :
    shiftedR z (ix2 r q) = z (ix2 r q) - Cert.Gin.rowMax z r := by
  show z (ix2 r q) - (broadcastInDim S256x10 ![0, 1] bcast_S256x1_S256x10_0_1 (broadcastInDim S256x1 ![0] bcast_S256_S256x1_0 (rowMaxR z))) (ix2 r q) = _
  rw [colOf_apply, rowMaxR_apply]

theorem expSumR_apply (z : FVec Ideal S256x10 .f32) (r : Fin 256) :
    expSumR z (ix1 r) = ∑ k : Fin 10, Ideal.exp (z (ix2 r k) - Cert.Gin.rowMax z r) := by
  refine (Cert.HostRead.reduceAdd_row_zero_apply (Host.exp (F := Ideal) (shiftedR z)) reducesTo_S256x10_S256_d1 h_S_ r).trans ?_
  refine Finset.sum_congr rfl fun k _ => ?_
  show Ideal.exp (shiftedR z (ix2 r k)) = _
  rw [shiftedR_apply]

/-- The program's logarithm of the softmax is the specification's. -/
theorem logSoftmaxR_eq (z : FVec Ideal S256x10 .f32) : logSoftmaxR z = Cert.Gin.logSoftmax z := by
  funext i
  obtain ⟨r, q, rfl⟩ : ∃ (r : Fin 256) (q : Fin 10), i = ix2 r q := ⟨i 0, i 1, eq_ix2 i⟩
  have hlog : (broadcastInDim S256x10 ![0, 1] bcast_S256x1_S256x10_0_1 (Host.log (F := Ideal) (broadcastInDim S256x1 ![0] bcast_S256_S256x1_0 (expSumR z)))) (ix2 r q)
      = Ideal.log (∑ k : Fin 10, Ideal.exp (z (ix2 r k) - Cert.Gin.rowMax z r)) := by
    refine (Cert.HostRead.col_cols_apply _ bcast_S256x1_S256x10_0_1 r q).trans ?_
    show Ideal.log ((broadcastInDim S256x1 ![0] bcast_S256_S256x1_0 (expSumR z)) (ix2 r 0)) = _
    rw [Cert.HostRead.vec_col_apply (expSumR z) bcast_S256_S256x1_0 r 0, expSumR_apply]
  rw [logSoftmaxR_unfold]
  show shiftedR z (ix2 r q) - (broadcastInDim S256x10 ![0, 1] bcast_S256x1_S256x10_0_1 (Host.log (F := Ideal) (broadcastInDim S256x1 ![0] bcast_S256_S256x1_0 (expSumR z)))) (ix2 r q) = _
  rw [shiftedR_apply, hlog]
  rfl

/-- THE HEAD: the program's term is the specification's read-out head. -/
theorem headR_eq (p : FVec Ideal S256x192 .f32) (l1w : FVec Ideal S192x192 .f32) (l1b : FVec Ideal S192 .f32)
    (l2w : FVec Ideal S192x10 .f32) (l2b : FVec Ideal S10 .f32) :
    headR p l1w l1b l2w l2b = Cert.Gin.classify p l1w (Cert.Gin.asRow l1b) l2w (Cert.Gin.asRow l2b) := by
  show logSoftmaxR (logitsR p l1w l1b l2w l2b) = _
  rw [logitsR_eq, logSoftmaxR_eq]
  rfl

end Cert.ReferenceIdeal.Hand

end
-- ==== Proof.RefNet.lean ====
/-
  The reference program's composition of its own layer and head terms is the network: each layer's term is the
  specification's layer (`layerR_eq`), the head's term the specification's head (`headR_eq`), and the pieces between them
  (neighbour sums, pooling, concatenation) are the same terms on both sides.
-/
import proofs.«178267_j2276332667486_1_alg».proof.Proof.RefLayer
import proofs.«178267_j2276332667486_1_alg».proof.Proof.RefHead

noncomputable section

namespace Cert.ReferenceIdeal.Hand

open Idealize.ShloMosaic Idealize.ShloMosaic.ValueIdx Cert.ReferenceIdeal

variable [Facts]
open Facts₀ Facts

theorem netR_eq (x : FVec Ideal S100000x64 .f32) (ei : Edges) (bt : Batch)
    (w11 : FVec Ideal S64x64 .f32) (b11 : FVec Ideal S64 .f32) (g1 : FVec Ideal S64 .f32) (be1 : FVec Ideal S64 .f32) (mn1 : FVec Ideal S64 .f32) (vr1 : FVec Ideal S64 .f32) (w12 : FVec Ideal S64x64 .f32) (b12 : FVec Ideal S64 .f32)
    (w21 : FVec Ideal S64x64 .f32) (b21 : FVec Ideal S64 .f32) (g2 : FVec Ideal S64 .f32) (be2 : FVec Ideal S64 .f32) (mn2 : FVec Ideal S64 .f32) (vr2 : FVec Ideal S64 .f32) (w22 : FVec Ideal S64x64 .f32) (b22 : FVec Ideal S64 .f32)
    (w31 : FVec Ideal S64x64 .f32) (b31 : FVec Ideal S64 .f32) (g3 : FVec Ideal S64 .f32) (be3 : FVec Ideal S64 .f32) (mn3 : FVec Ideal S64 .f32) (vr3 : FVec Ideal S64 .f32) (w32 : FVec Ideal S64x64 .f32) (b32 : FVec Ideal S64 .f32)
    (l1w : FVec Ideal S192x192 .f32) (l1b : FVec Ideal S192 .f32) (l2w : FVec Ideal S192x10 .f32) (l2b : FVec Ideal S10 .f32) :
    netR x ei bt w11 b11 g1 be1 mn1 vr1 w12 b12 w21 b21 g2 be2 mn2 vr2 w22 b22 w31 b31 g3 be3 mn3 vr3 w32 b32 l1w l1b l2w l2b = net x ei bt w11 b11 g1 be1 mn1 vr1 w12 b12 w21 b21 g2 be2 mn2 vr2 w22 b22 w31 b31 g3 be3 mn3 vr3 w32 b32 l1w l1b l2w l2b := by
  unfold netR net
  simp only [layerR_eq, headR_eq]

end Cert.ReferenceIdeal.Hand

end
-- ==== Proof.RefRun.lean ====
/-
  What the reference program computes, as the network of its 31 arguments.

  The program's run ends with its result buffer at the operations' composed term of the arguments. That term is the
  composition `netR` of the pieces of RefStages — three times (neighbour sums, layer), three poolings, the concatenation,
  the head — read off by unfolding those definitions only: no operation over the arrays is opened. `netR` is `net`
  (`netR_eq`). So every execution ends with the result at `net` of the arguments and the arguments unchanged.
-/
import proofs.«178267_j2276332667486_1_alg».proof.Defs
import proofs.«178267_j2276332667486_1_alg».proof.Proof.Gen.ReferenceIdeal.Run
import proofs.«178267_j2276332667486_1_alg».proof.Proof.Gen.Pre_finite_inputs
import proofs.«178267_j2276332667486_1_alg».proof.Proof.RefNet

noncomputable section

namespace Cert.ReferenceIdeal.Hand

open Cert.ReferenceIdeal Cert.ReferenceIdeal.Gen Idealize.ShloMosaic Idealize.ShloMosaic.TcCoe Idealize.SL.Sem Idealize.ShloMosaic.StableHlo

section
-- the operations over whole arrays stay closed: the two sides differ only by the definitions of RefStages
attribute [local irreducible] Host.gather Host.scatterAdd Host.reduce Host.reduceAdd concatenate broadcastInDim shapeCast extractStridedSlice

set_option maxRecDepth 8192 in
/-- The run's result term is the composition of the program's pieces. -/
theorem res_netR (m : (ℓ : Loc nD τ sig) → Buf (Elt Ideal) ℓ) (c : Dev nD) :
    Cert.ReferenceIdeal.Value.res_out0 (F := Ideal) m c = netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) := by
  unfold Cert.ReferenceIdeal.Value.res_out0 Cert.ReferenceIdeal.Value.res_main_v139 netR headR logSoftmaxR logitsR catR poolR layerR aggR
  rfl
end

/-- The run's result term is the network of the arguments. -/
theorem res_eq (m : (ℓ : Loc nD τ sig) → Buf (Elt Ideal) ℓ) (c : Dev nD) :
    Cert.ReferenceIdeal.Value.res_out0 (F := Ideal) m c = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) :=
  (res_netR m c).trans (netR_eq ..)

/-- The reference runs and its arguments end unchanged. -/
theorem frame : Cert.frame_ReferenceIdeal := fun m ρ _ =>
  (θ_run Cert.ReferenceIdeal.defs _ _).mono (fun _ h c => (h c).2) (Cert.ReferenceIdeal.Value.run (F := Ideal) m ρ)

/-- Every execution of the reference ends with its result at the network of the arguments, the arguments unchanged. -/
theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v139) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  (θ_run defs _ _).mono (fun _ h c => ⟨(h c).1.trans (res_eq m c), (h c).2⟩) (Cert.ReferenceIdeal.Value.run (F := Ideal) m ρ)

end Cert.ReferenceIdeal.Hand

end
-- ==== Proof.LibNary3.lean ====
/-
  A host operation with a LITERAL family of three operand references (a concatenation of three pieces): its result
  with each operand's contents at its own reference, so that reading a line of host operations goes on through the
  three operands. Stated for three references exactly as the library states it for four; with the general statement
  the operands stay under a binder, where their references are no literals and nothing more can be read.
  Also the one-pass reading of a line of host operations with this statement in the general one's place.
-/
import Idealize.ShloMosaic.Lib.StableHlo.Run

noncomputable section

namespace Cert.Nary3

open Idealize.ShloMosaic Idealize.ShloMosaic.StableHlo Idealize.ShloMosaic.TcCoe

variable {τ : Topo} {sig : RefSig} {Val : EltTy → Type}
variable {x a b y : Ref sig .tc}

/-- The result of an operation over the three literal references `x`, `a`, `b`: its function at the three
    operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, the result reference un-indexed for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- What one buffer holds after a literal line of host operations, as ONE simp pass: each operation's result at its
    own result buffer is its function's value, at any other reference what was there; a three-operand operation by
    `nary3_result'`. -/
macro "after_results_simp3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Cert.Nary3

end
-- ==== Proof.KiHost.lean ====
/-
  What the host lines between the regions leave in the buffers the regions read, over any contents `W` the line starts
  from: the neighbour sums (the rows gathered at the edges' sources, a negative index wrapped once, added into a zero
  array at the edges' targets), each parameter vector laid out as a one-row matrix, and before the head the three
  pooled blocks (per-graph sums of a layer's rows) side by side. A one-row layout of a vector is the specification's
  `asRow`. A buffer no operation of a line writes keeps its contents.
-/
import proofs.«178267_j2276332667486_1_alg».proof.Proof.Gen.KernelIdeal.Launch
import proofs.«178267_j2276332667486_1_alg».proof.Proof.Gen.KernelIdeal.Regions
import proofs.«178267_j2276332667486_1_alg».proof.Proof.Spec
import proofs.«178267_j2276332667486_1_alg».proof.Proof.LibBroadcast
import proofs.«178267_j2276332667486_1_alg».proof.Proof.LibNary3
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx Idealize.ShloMosaic.TcCoe
open Idealize.ShloMosaic.StableHlo Cert.Nary3

/-- The index arrays as the program's memory holds them. -/
abbrev Edges : Type := (⟨S2x1600000, .i32⟩ : BufTy).Contents (Elt Ideal)
abbrev Batch : Type := (⟨S100000, .i32⟩ : BufTy).Contents (Elt Ideal)

/-- The neighbour sums of `x` along the edges `ei` (row 0 the sources, row 1 the targets). -/
def aggK (x : FVec Ideal S100000x64 .f32) (ei : Edges) : FVec Ideal S100000x64 .f32 :=
  Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))

/-- The per-graph sums of the rows of `h`, by the graph index `bt` of each row. -/
def poolK (h : FVec Ideal S100000x64 .f32) (bt : Batch) : FVec Ideal S256x64 .f32 :=
  Host.scatterAdd (F := Ideal) scatter_S256x64_S100000x1_S100000x64_1_0_0_1 (broadcastInDim S256x64 ![] bcast_S_S256x64 (constant (F := Ideal) S_ .f32 0x00000000#32)) (broadcastInDim S100000x1 ![0] bcast_S100000_S100000x1_0 bt) h

/-- The three pooled blocks side by side. -/
def catK (p1 p2 p3 : FVec Ideal S256x64 .f32) : FVec Ideal S256x192 .f32 :=
  concatenate S256x192 1 [⟨S256x64, p1⟩, ⟨S256x64, p2⟩, ⟨S256x64, p3⟩] concatenates_S256x64_S256x64_S256x64_S256x192_d1

variable (W : Valuation τ sig (Elt Ideal))

/-! ## The line before region 0 -/

theorem agg0 : StableHlo.after hostOps0 W (Proc.devRef .tc main_v13)
    = aggK (W (Proc.devRef .tc main_arg0)) (W (Proc.devRef .tc main_arg1)) := by
  after_results_simp <;> rfl
theorem row0_0 : StableHlo.after hostOps0 W (Proc.devRef .tc main_v14)
    = shapeCast S1x64 (W (Proc.devRef .tc main_arg4)) shapeCasts_S64_S1x64 := by
  after_results_simp <;> rfl
theorem row0_1 : StableHlo.after hostOps0 W (Proc.devRef .tc main_v15)
    = shapeCast S1x64 (W (Proc.devRef .tc main_arg5)) shapeCasts_S64_S1x64 := by
  after_results_simp <;> rfl
theorem row0_2 : StableHlo.after hostOps0 W (Proc.devRef .tc main_v16)
    = shapeCast S1x64 (W (Proc.devRef .tc main_arg6)) shapeCasts_S64_S1x64 := by
  after_results_simp <;> rfl
theorem row0_3 : StableHlo.after hostOps0 W (Proc.devRef .tc main_v17)
    = shapeCast S1x64 (W (Proc.devRef .tc main_arg7)) shapeCasts_S64_S1x64 := by
  after_results_simp <;> rfl
theorem row0_4 : StableHlo.after hostOps0 W (Proc.devRef .tc main_v18)
    = shapeCast S1x64 (W (Proc.devRef .tc main_arg8)) shapeCasts_S64_S1x64 := by
  after_results_simp <;> rfl
theorem row0_5 : StableHlo.after hostOps0 W (Proc.devRef .tc main_v19)
    = shapeCast S1x64 (W (Proc.devRef .tc main_arg10)) shapeCasts_S64_S1x64 := by
  after_results_simp <;> rfl
theorem keep0 (r : Ref sig .tc) (h : r ∉ hostOps0_W) :
    StableHlo.after hostOps0 W (Proc.devRef .tc r) = W (Proc.devRef .tc r) :=
  StableHlo.after_of_writes_sub hostOps0 _ hostOps0_writes h

/-! ## The line before region 1 -/

theorem agg1 : StableHlo.after hostOps1 W (Proc.devRef .tc main_v34)
    = aggK (W (Proc.devRef .tc main_v20)) (W (Proc.devRef .tc main_arg1)) := by
  after_results_simp <;> rfl
theorem row1_0 : StableHlo.after hostOps1 W (Proc.devRef .tc main_v35)
    = shapeCast S1x64 (W (Proc.devRef .tc main_arg12)) shapeCasts_S64_S1x64 := by
  after_results_simp <;> rfl
theorem row1_1 : StableHlo.after hostOps1 W (Proc.devRef .tc main_v36)
    = shapeCast S1x64 (W (Proc.devRef .tc main_arg13)) shapeCasts_S64_S1x64 := by
  after_results_simp <;> rfl
theorem row1_2 : StableHlo.after hostOps1 W (Proc.devRef .tc main_v37)
    = shapeCast S1x64 (W (Proc.devRef .tc main_arg14)) shapeCasts_S64_S1x64 := by
  after_results_simp <;> rfl
theorem row1_3 : StableHlo.after hostOps1 W (Proc.devRef .tc main_v38)
    = shapeCast S1x64 (W (Proc.devRef .tc main_arg15)) shapeCasts_S64_S1x64 := by
  after_results_simp <;> rfl
theorem row1_4 : StableHlo.after hostOps1 W (Proc.devRef .tc main_v39)
    = shapeCast S1x64 (W (Proc.devRef .tc main_arg16)) shapeCasts_S64_S1x64 := by
  after_results_simp <;> rfl
theorem row1_5 : StableHlo.after hostOps1 W (Proc.devRef .tc main_v40)
    = shapeCast S1x64 (W (Proc.devRef .tc main_arg18)) shapeCasts_S64_S1x64 := by
  after_results_simp <;> rfl
theorem keep1 (r : Ref sig .tc) (h : r ∉ hostOps1_W) :
    StableHlo.after hostOps1 W (Proc.devRef .tc r) = W (Proc.devRef .tc r) :=
  StableHlo.after_of_writes_sub hostOps1 _ hostOps1_writes h

/-! ## The line before region 2 -/

theorem agg2 : StableHlo.after hostOps2 W (Proc.devRef .tc main_v55)
    = aggK (W (Proc.devRef .tc main_v41)) (W (Proc.devRef .tc main_arg1)) := by
  after_results_simp <;> rfl
theorem row2_0 : StableHlo.after hostOps2 W (Proc.devRef .tc main_v56)
    = shapeCast S1x64 (W (Proc.devRef .tc main_arg20)) shapeCasts_S64_S1x64 := by
  after_results_simp <;> rfl
theorem row2_1 : StableHlo.after hostOps2 W (Proc.devRef .tc main_v57)
    = shapeCast S1x64 (W (Proc.devRef .tc main_arg21)) shapeCasts_S64_S1x64 := by
  after_results_simp <;> rfl
theorem row2_2 : StableHlo.after hostOps2 W (Proc.devRef .tc main_v58)
    = shapeCast S1x64 (W (Proc.devRef .tc main_arg22)) shapeCasts_S64_S1x64 := by
  after_results_simp <;> rfl
theorem row2_3 : StableHlo.after hostOps2 W (Proc.devRef .tc main_v59)
    = shapeCast S1x64 (W (Proc.devRef .tc main_arg23)) shapeCasts_S64_S1x64 := by
  after_results_simp <;> rfl
theorem row2_4 : StableHlo.after hostOps2 W (Proc.devRef .tc main_v60)
    = shapeCast S1x64 (W (Proc.devRef .tc main_arg24)) shapeCasts_S64_S1x64 := by
  after_results_simp <;> rfl
theorem row2_5 : StableHlo.after hostOps2 W (Proc.devRef .tc main_v61)
    = shapeCast S1x64 (W (Proc.devRef .tc main_arg26)) shapeCasts_S64_S1x64 := by
  after_results_simp <;> rfl
theorem keep2 (r : Ref sig .tc) (h : r ∉ hostOps2_W) :
    StableHlo.after hostOps2 W (Proc.devRef .tc r) = W (Proc.devRef .tc r) :=
  StableHlo.after_of_writes_sub hostOps2 _ hostOps2_writes h

/-! ## The line before the head -/

theorem cat3 : StableHlo.after hostOps3 W (Proc.devRef .tc main_v72)
    = catK (poolK (W (Proc.devRef .tc main_v20)) (W (Proc.devRef .tc main_arg2)))
        (poolK (W (Proc.devRef .tc main_v41)) (W (Proc.devRef .tc main_arg2)))
        (poolK (W (Proc.devRef .tc main_v62)) (W (Proc.devRef .tc main_arg2))) := by
  after_results_simp3 <;> rfl
theorem row3_0 : StableHlo.after hostOps3 W (Proc.devRef .tc main_v73)
    = shapeCast S1x192 (W (Proc.devRef .tc main_arg28)) shapeCasts_S192_S1x192 := by
  after_results_simp3 <;> rfl
theorem row3_1 : StableHlo.after hostOps3 W (Proc.devRef .tc main_v74)
    = shapeCast S1x10 (W (Proc.devRef .tc main_arg30)) shapeCasts_S10_S1x10 := by
  after_results_simp3 <;> rfl
theorem keep3 (r : Ref sig .tc) (h : r ∉ hostOps3_W) :
    StableHlo.after hostOps3 W (Proc.devRef .tc r) = W (Proc.devRef .tc r) :=
  StableHlo.after_of_writes_sub hostOps3 _ hostOps3_writes h

/-! ## A vector laid out as a one-row matrix -/

theorem row64_eq (b : FVec Ideal S64 .f32) : shapeCast S1x64 b shapeCasts_S64_S1x64 = Cert.Gin.asRow b := by
  funext i
  obtain ⟨u, k, rfl⟩ : ∃ (u : Fin 1) (k : Fin 64), i = ix2 u k := ⟨i 0, i 1, eq_ix2 i⟩
  have hu : u = 0 := Subsingleton.elim _ _
  subst hu
  exact Cert.Layout.row_of_vec_apply (n := 64) b shapeCasts_S64_S1x64 k
theorem row192_eq (b : FVec Ideal S192 .f32) : shapeCast S1x192 b shapeCasts_S192_S1x192 = Cert.Gin.asRow b := by
  funext i
  obtain ⟨u, k, rfl⟩ : ∃ (u : Fin 1) (k : Fin 192), i = ix2 u k := ⟨i 0, i 1, eq_ix2 i⟩
  have hu : u = 0 := Subsingleton.elim _ _
  subst hu
  exact Cert.Layout.row_of_vec_apply (n := 192) b shapeCasts_S192_S1x192 k
theorem row10_eq (b : FVec Ideal S10 .f32) : shapeCast S1x10 b shapeCasts_S10_S1x10 = Cert.Gin.asRow b := by
  funext i
  obtain ⟨u, k, rfl⟩ : ∃ (u : Fin 1) (k : Fin 10), i = ix2 u k := ⟨i 0, i 1, eq_ix2 i⟩
  have hu : u = 0 := Subsingleton.elim _ _
  subst hu
  exact Cert.Layout.row_of_vec_apply (n := 10) b shapeCasts_S10_S1x10 k

end Cert.KernelIdeal.Hand

end
-- ==== Proof.KiLayerBody.lean ====
/-
  What a layer's body computes on one block of rows, over the extended reals: the body's stored value — a product
  into a zero accumulator with `W₁` of the block of `X + A`, plus the bias row, normalised by the running statistics,
  clamped at zero, then a second product with `W₂` plus its bias row, clamped at zero — is the specification's `layer`
  of the blocks. A change of float format is the identity on the extended reals, so the roundings on the way into
  the two products disappear. The three layers' bodies are the same function (the second and third split the same
  operations differently between their two parts).
-/
import proofs.«178267_j2276332667486_1_alg».proof.Proof.Gen.KernelIdeal.Skeleton
import proofs.«178267_j2276332667486_1_alg».proof.Proof.Spec
import proofs.«178267_j2276332667486_1_alg».proof.Proof.LibDenseLayer
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx Cert.MatProd Cert.Gin

/-- The product's dimension record is the plain one: rows by contraction times contraction by columns. -/
theorem dims_layer : dot_S5000x64_S64x64_S5000x64_1_0_0_1_n_n = DotDims.plain 5000 64 64 := rfl

/-- The first half of the body on a block: product with `W₁`, bias, normalisation, clamp. -/
def bodyHalf (x0 x1 : FVec Ideal S5000x64 .f32) (w1 : FVec Ideal S64x64 .f32) (b1 g be mn vr : FVec Ideal S1x64 .f32) :
    FVec Ideal S5000x64 .f32 :=
  maximumf
    (addf
      (mulf
        (mulf (broadcastTo S5000x64 g broadcasts_S1x64_S5000x64)
          (subf
            (addf
              (matmul dot_S5000x64_S64x64_S5000x64_1_0_0_1_n_n none (truncf .bf16 (addf x0 x1) bitsLt_bf16_f32)
                (truncf .bf16 w1 bitsLt_bf16_f32) (constant S5000x64 .f32 0x00000000#32))
              (broadcastTo S5000x64 b1 broadcasts_S1x64_S5000x64))
            (broadcastTo S5000x64 mn broadcasts_S1x64_S5000x64)))
        (broadcastTo S5000x64 (rsqrt (addf vr (broadcast S1x64 (Scalar.ofBits (F := Ideal) .f32 0x3727C5AC#32))))
          broadcasts_S1x64_S5000x64))
      (broadcastTo S5000x64 be broadcasts_S1x64_S5000x64))
    (broadcast S5000x64 (Scalar.ofBits (F := Ideal) .f32 0x00000000#32))

/-- Entry by entry the first half is the specification's: the product read as a sum over the contraction, each one-row
    matrix read at the entry's column. -/
theorem bodyHalf_eq (x0 x1 : FVec Ideal S5000x64 .f32) (w1 : FVec Ideal S64x64 .f32) (b1 g be mn vr : FVec Ideal S1x64 .f32) :
    bodyHalf x0 x1 w1 b1 g be mn vr = normed x0 x1 w1 b1 g be mn vr := by
  funext i
  obtain ⟨p, q, rfl⟩ : ∃ (p : Fin 5000) (q : Fin 64), i = ix2 p q := ⟨i 0, i 1, eq_ix2 i⟩
  have e1 := Cert.DenseLayer.kernel_affine dot_S5000x64_S64x64_S5000x64_1_0_0_1_n_n dims_layer
    (truncf .bf16 (addf x0 x1) bitsLt_bf16_f32) (truncf .bf16 w1 bitsLt_bf16_f32) b1 broadcasts_S1x64_S5000x64 p q
  have eg := Cert.BroadcastTo.row_apply (m := 5000) g broadcasts_S1x64_S5000x64 p q
  have em := Cert.BroadcastTo.row_apply (m := 5000) mn broadcasts_S1x64_S5000x64 p q
  have er := Cert.BroadcastTo.row_apply (m := 5000)
    (rsqrt (addf vr (broadcast S1x64 (Scalar.ofBits (F := Ideal) .f32 0x3727C5AC#32)))) broadcasts_S1x64_S5000x64 p q
  have eb := Cert.BroadcastTo.row_apply (m := 5000) be broadcasts_S1x64_S5000x64 p q
  refine (congrArg₂ (max : EReal → EReal → EReal)
    (congrArg₂ (· + ·) (congrArg₂ (· * ·) (congrArg₂ (· * ·) eg (congrArg₂ (· - ·) e1 em)) er) eb)
    (rfl : (Ideal.ofBits .f32 0x00000000#32 : EReal) = _)).trans ?_
  rfl

/-- THE FIRST LAYER'S BODY on a block is the specification's layer of the blocks. -/
theorem pay0_eq (x0 x1 : Vec Ideal S5000x64 .f32) (w1 : Vec Ideal S64x64 .f32) (b1 g be mn vr : Vec Ideal S1x64 .f32)
    (w2 : Vec Ideal S64x64 .f32) (b2 : Vec Ideal S1x64 .f32) :
    k0_pay1 (k0_pay2 x0 x1 w1 b1 g be mn vr w2) b2 = layer x0 x1 w1 b1 g be mn vr w2 b2 := by
  unfold k0_pay1 k0_pay2
  simp only [shapeCast_self]
  refine (Cert.DenseLayer.kernel_layer dot_S5000x64_S64x64_S5000x64_1_0_0_1_n_n dims_layer
    (truncf .bf16 (bodyHalf x0 x1 w1 b1 g be mn vr) bitsLt_bf16_f32) (truncf .bf16 w2 bitsLt_bf16_f32) b2
    broadcasts_S1x64_S5000x64).trans ?_
  exact congrArg (fun a => denseRelu a w2 b2) (bodyHalf_eq x0 x1 w1 b1 g be mn vr)

/-- THE SECOND LAYER'S BODY, the same function. -/
theorem pay1_eq (x0 x1 : Vec Ideal S5000x64 .f32) (w1 : Vec Ideal S64x64 .f32) (b1 g be mn vr : Vec Ideal S1x64 .f32)
    (w2 : Vec Ideal S64x64 .f32) (b2 : Vec Ideal S1x64 .f32) :
    k1_pay1 (k1_pay2 x0 x1 w1 b1 g be mn vr) (k1_pay3 w2) (constant S5000x64 .f32 0x00000000#32) b2
      = layer x0 x1 w1 b1 g be mn vr w2 b2 := by
  unfold k1_pay1 k1_pay2 k1_pay3
  simp only [shapeCast_self]
  refine (Cert.DenseLayer.kernel_layer dot_S5000x64_S64x64_S5000x64_1_0_0_1_n_n dims_layer
    (truncf .bf16 (bodyHalf x0 x1 w1 b1 g be mn vr) bitsLt_bf16_f32) (truncf .bf16 w2 bitsLt_bf16_f32) b2
    broadcasts_S1x64_S5000x64).trans ?_
  exact congrArg (fun a => denseRelu a w2 b2) (bodyHalf_eq x0 x1 w1 b1 g be mn vr)

/-- THE THIRD LAYER'S BODY, the same function. -/
theorem pay2_eq (x0 x1 : Vec Ideal S5000x64 .f32) (w1 : Vec Ideal S64x64 .f32) (b1 g be mn vr : Vec Ideal S1x64 .f32)
    (w2 : Vec Ideal S64x64 .f32) (b2 : Vec Ideal S1x64 .f32) :
    k2_pay1 (k2_pay2 x0 x1 w1 b1 g be mn vr) (k2_pay3 w2) (constant S5000x64 .f32 0x00000000#32) b2
      = layer x0 x1 w1 b1 g be mn vr w2 b2 := by
  unfold k2_pay1 k2_pay2 k2_pay3
  simp only [shapeCast_self]
  refine (Cert.DenseLayer.kernel_layer dot_S5000x64_S64x64_S5000x64_1_0_0_1_n_n dims_layer
    (truncf .bf16 (bodyHalf x0 x1 w1 b1 g be mn vr) bitsLt_bf16_f32) (truncf .bf16 w2 bitsLt_bf16_f32) b2
    broadcasts_S1x64_S5000x64).trans ?_
  exact congrArg (fun a => denseRelu a w2 b2) (bodyHalf_eq x0 x1 w1 b1 g be mn vr)

end Cert.KernelIdeal.Hand

end
-- ==== Proof.KiLayerArray0.lean ====
/-
  The first layer's result array after its region, as one function of the arrays the region finds: the grid's
  twenty points each write back one block of 5000 rows; at point `t` the blocks of the features and of the
  neighbour sums are rows `5000 t … 5000 t + 4999` of their arrays, the weights and the one-row matrices are whole,
  and the body leaves the specification's layer of those blocks — which is rows `5000 t …` of the layer of the whole
  arrays, a layer's row depending on that one row only. The twenty blocks tile the array, so it ends holding the layer.
-/
import proofs.«178267_j2276332667486_1_alg».proof.Proof.Gen.KernelIdeal.Skeleton
import proofs.«178267_j2276332667486_1_alg».proof.Proof.Spec
import proofs.«178267_j2276332667486_1_alg».proof.Proof.LibDenseLayer
import proofs.«178267_j2276332667486_1_alg».proof.Proof.KiData
import proofs.«178267_j2276332667486_1_alg».proof.Proof.KiLayerBody
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic.TcCoe Idealize.SL.Sem Idealize.ShloMosaic Idealize.ShloMosaic.ValueIdx Cert.MatProd Cert.Gin

variable (V : (c : Dev nD) → (b : Ref sig .tc) → Buf (Elt Ideal) ((c : Thread nD τ).loc b))

theorem hz0 : (![0, 0] : Fin 2 → Nat) = fun _ => 0 := funext fun a => by fin_cases a <;> rfl

theorem t_lt0 (t : Fin cfg0.N) : t.val < 20 := by have h : cfg0.N = 20 := N_0; have := t.isLt; omega

/-- Row `p` of point `t`'s block is row `5000 t + p` of the array. -/
def rowOf0 (t : Fin cfg0.N) (p : Fin 5000) : Fin 100000 := ⟨t.val * 5000 + p.val, by have := t_lt0 t; have := p.isLt; omega⟩

/-! The printed index maps, decided over the grid: the row windows sit at block `(t, 0)`, the others at `(0, 0)`. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_10 : ∀ t : Fin cfg0.N, win0_10.index t (0 : Fin 2) = t.val ∧ win0_10.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)

/-! A window whose block is its whole array reads that array. -/
theorem whole0_2 (c : Dev nD) (t : Fin cfg0.N) : iblk0 V c 2 t = V c main_arg3 := by
  unfold iblk0
  funext y
  show V c main_arg3 (((cfg0.win 2).blk t).view.emb y) = V c main_arg3 y
  refine congrArg _ (funext fun ax => Fin.ext ?_)
  obtain ⟨e0, e1⟩ := idx0_2 t
  match ax with
  | ⟨0, _⟩ => show win0_2.index t (0 : Fin 2) * 64 + 1 * (y 0).val = (y 0).val; omega
  | ⟨1, _⟩ => show win0_2.index t (1 : Fin 2) * 64 + 1 * (y 1).val = (y 1).val; omega
theorem whole0_3 (c : Dev nD) (t : Fin cfg0.N) : iblk0 V c 3 t = V c main_v14 := by
  unfold iblk0
  funext y
  show V c main_v14 (((cfg0.win 3).blk t).view.emb y) = V c main_v14 y
  refine congrArg _ (funext fun ax => Fin.ext ?_)
  obtain ⟨e0, e1⟩ := idx0_3 t
  match ax with
  | ⟨0, _⟩ => show win0_3.index t (0 : Fin 2) * 1 + 1 * (y 0).val = (y 0).val; omega
  | ⟨1, _⟩ => show win0_3.index t (1 : Fin 2) * 64 + 1 * (y 1).val = (y 1).val; omega
theorem whole0_4 (c : Dev nD) (t : Fin cfg0.N) : iblk0 V c 4 t = V c main_v15 := by
  unfold iblk0
  funext y
  show V c main_v15 (((cfg0.win 4).blk t).view.emb y) = V c main_v15 y
  refine congrArg _ (funext fun ax => Fin.ext ?_)
  obtain ⟨e0, e1⟩ := idx0_4 t
  match ax with
  | ⟨0, _⟩ => show win0_4.index t (0 : Fin 2) * 1 + 1 * (y 0).val = (y 0).val; omega
  | ⟨1, _⟩ => show win0_4.index t (1 : Fin 2) * 64 + 1 * (y 1).val = (y 1).val; omega
theorem whole0_5 (c : Dev nD) (t : Fin cfg0.N) : iblk0 V c 5 t = V c main_v16 := by
  unfold iblk0
  funext y
  show V c main_v16 (((cfg0.win 5).blk t).view.emb y) = V c main_v16 y
  refine congrArg _ (funext fun ax => Fin.ext ?_)
  obtain ⟨e0, e1⟩ := idx0_5 t
  match ax with
  | ⟨0, _⟩ => show win0_5.index t (0 : Fin 2) * 1 + 1 * (y 0).val = (y 0).val; omega
  | ⟨1, _⟩ => show win0_5.index t (1 : Fin 2) * 64 + 1 * (y 1).val = (y 1).val; omega
theorem whole0_6 (c : Dev nD) (t : Fin cfg0.N) : iblk0 V c 6 t = V c main_v17 := by
  unfold iblk0
  funext y
  show V c main_v17 (((cfg0.win 6).blk t).view.emb y) = V c main_v17 y
  refine congrArg _ (funext fun ax => Fin.ext ?_)
  obtain ⟨e0, e1⟩ := idx0_6 t
  match ax with
  | ⟨0, _⟩ => show win0_6.index t (0 : Fin 2) * 1 + 1 * (y 0).val = (y 0).val; omega
  | ⟨1, _⟩ => show win0_6.index t (1 : Fin 2) * 64 + 1 * (y 1).val = (y 1).val; omega
theorem whole0_7 (c : Dev nD) (t : Fin cfg0.N) : iblk0 V c 7 t = V c main_v18 := by
  unfold iblk0
  funext y
  show V c main_v18 (((cfg0.win 7).blk t).view.emb y) = V c main_v18 y
  refine congrArg _ (funext fun ax => Fin.ext ?_)
  obtain ⟨e0, e1⟩ := idx0_7 t
  match ax with
  | ⟨0, _⟩ => show win0_7.index t (0 : Fin 2) * 1 + 1 * (y 0).val = (y 0).val; omega
  | ⟨1, _⟩ => show win0_7.index t (1 : Fin 2) * 64 + 1 * (y 1).val = (y 1).val; omega
theorem whole0_8 (c : Dev nD) (t : Fin cfg0.N) : iblk0 V c 8 t = V c main_arg9 := by
  unfold iblk0
  funext y
  show V c main_arg9 (((cfg0.win 8).blk t).view.emb y) = V c main_arg9 y
  refine congrArg _ (funext fun ax => Fin.ext ?_)
  obtain ⟨e0, e1⟩ := idx0_8 t
  match ax with
  | ⟨0, _⟩ => show win0_8.index t (0 : Fin 2) * 64 + 1 * (y 0).val = (y 0).val; omega
  | ⟨1, _⟩ => show win0_8.index t (1 : Fin 2) * 64 + 1 * (y 1).val = (y 1).val; omega
theorem whole0_9 (c : Dev nD) (t : Fin cfg0.N) : iblk0 V c 9 t = V c main_v19 := by
  unfold iblk0
  funext y
  show V c main_v19 (((cfg0.win 9).blk t).view.emb y) = V c main_v19 y
  refine congrArg _ (funext fun ax => Fin.ext ?_)
  obtain ⟨e0, e1⟩ := idx0_9 t
  match ax with
  | ⟨0, _⟩ => show win0_9.index t (0 : Fin 2) * 1 + 1 * (y 0).val = (y 0).val; omega
  | ⟨1, _⟩ => show win0_9.index t (1 : Fin 2) * 64 + 1 * (y 1).val = (y 1).val; omega

/-! A row window's block reads rows `5000 t …` of its array. -/
theorem rows0_0 (c : Dev nD) (t : Fin cfg0.N) (p : Fin 5000) (k : Fin 64) :
    iblk0 V c 0 t (ix2 p k) = V c main_arg0 (ix2 (rowOf0 t p) k) := by
  unfold iblk0
  show V c main_arg0 (((cfg0.win 0).blk t).view.emb (ix2 p k)) = _
  refine congrArg _ (funext fun ax => Fin.ext ?_)
  obtain ⟨e0, e1⟩ := idx0_0 t
  match ax with
  | ⟨0, _⟩ => show win0_0.index t (0 : Fin 2) * 5000 + 1 * p.val = t.val * 5000 + p.val; omega
  | ⟨1, _⟩ => show win0_0.index t (1 : Fin 2) * 64 + 1 * k.val = k.val; omega
theorem rows0_1 (c : Dev nD) (t : Fin cfg0.N) (p : Fin 5000) (k : Fin 64) :
    iblk0 V c 1 t (ix2 p k) = V c main_v13 (ix2 (rowOf0 t p) k) := by
  unfold iblk0
  show V c main_v13 (((cfg0.win 1).blk t).view.emb (ix2 p k)) = _
  refine congrArg _ (funext fun ax => Fin.ext ?_)
  obtain ⟨e0, e1⟩ := idx0_1 t
  match ax with
  | ⟨0, _⟩ => show win0_1.index t (0 : Fin 2) * 5000 + 1 * p.val = t.val * 5000 + p.val; omega
  | ⟨1, _⟩ => show win0_1.index t (1 : Fin 2) * 64 + 1 * k.val = k.val; omega

/-- WHAT POINT `t` WRITES BACK is block `t` of the layer of the arrays as the region finds them. -/
theorem flushed0_eq (c : Dev nD) (t : Fin cfg0.N) :
    (dat0 V c).flushed 10 t = ((cfg0.win 10).blk t).view.read (Elt Ideal)
      (layer (V c main_arg0) (V c main_v13) (V c main_arg3) (V c main_v14) (V c main_v15) (V c main_v16) (V c main_v17) (V c main_v18) (V c main_arg9) (V c main_v19)) := by
  show (cfg0.win 10).cut (grid0.coords t) ((dat0 V c).after 10 t) = _
  rw [after0_10]
  unfold out0_10
  rw [View.canon_unit_zero hz0]
  simp only [View.ld_unit_zero (S := S5000x64) hz0, View.ld_unit_zero (S := S64x64) hz0, View.ld_unit_zero (S := S1x64) hz0]
  rw [pay0_eq, whole0_2 V c t, whole0_3 V c t, whole0_4 V c t, whole0_5 V c t, whole0_6 V c t, whole0_7 V c t, whole0_8 V c t, whole0_9 V c t]
  funext j
  have he : ((cfg0.win 10).blk t).view.emb j = ix2 (rowOf0 t (j 0)) (j 1) := funext fun ax => Fin.ext (by
    obtain ⟨e0, e1⟩ := idx0_10 t
    match ax with
    | ⟨0, _⟩ => show win0_10.index t (0 : Fin 2) * 5000 + 1 * (j 0).val = t.val * 5000 + (j 0).val; omega
    | ⟨1, _⟩ => show win0_10.index t (1 : Fin 2) * 64 + 1 * (j 1).val = (j 1).val; omega)
  show layer (iblk0 V c 0 t) (iblk0 V c 1 t) (V c main_arg3) (V c main_v14) (V c main_v15) (V c main_v16) (V c main_v17) (V c main_v18) (V c main_arg9) (V c main_v19) (ix2 (j 0) (j 1))
    = layer (V c main_arg0) (V c main_v13) (V c main_arg3) (V c main_v14) (V c main_v15) (V c main_v16) (V c main_v17) (V c main_v18) (V c main_arg9) (V c main_v19) (((cfg0.win 10).blk t).view.emb j)
  rw [he]
  exact layer_rows_eq _ _ _ _ _ _ _ _ _ _ _ _ (j 0) (rowOf0 t (j 0)) (fun k => rows0_0 V c t (j 0) k)
    (fun k => rows0_1 V c t (j 0) k) (j 1)

/-- Every row of the array is in some point's block: row `r` in point `r / 5000`'s. -/
theorem cover0 (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by have h : cfg0.N = 20 := N_0; omega⟩, rfl⟩
  refine ⟨t, flush0_10 t, ?_⟩
  show i ∈ ((View.whole main_v20).slice (win0_10.rect t)).set
  rw [View.set_slice_whole, Rect.mem_set_unit]
  intro ax
  obtain ⟨e0, e1⟩ := idx0_10 t
  match ax with
  | ⟨0, _⟩ =>
    show win0_10.index t (0 : Fin 2) * 5000 ≤ (i 0).val ∧ (i 0).val < win0_10.index t (0 : Fin 2) * 5000 + 5000
    omega
  | ⟨1, _⟩ =>
    show win0_10.index t (1 : Fin 2) * 64 ≤ (i 1).val ∧ (i 1).val < win0_10.index t (1 : Fin 2) * 64 + 64
    omega

/-- THE ARRAY after the region: the layer of the arrays the region finds. -/
theorem layer0_final (c : Dev nD) :
    (dat0 V c).arrAt 10 cfg0.N = layer (V c main_arg0) (V c main_v13) (V c main_arg3) (V c main_v14) (V c main_v15) (V c main_v16) (V c main_v17) (V c main_v18) (V c main_arg9) (V c main_v19) :=
  (dat0 V c).arrAt_eq_of_cover 10 _ (fun t _ => flushed0_eq V c t) (cover0)

end Cert.KernelIdeal.Hand

end
-- ==== Proof.KiLayerArray1.lean ====
/-
  The second layer's result array after its region, as one function of the arrays the region finds: the grid's
  twenty points each write back one block of 5000 rows; at point `t` the blocks of the features and of the
  neighbour sums are rows `5000 t … 5000 t + 4999` of their arrays, the weights and the one-row matrices are whole,
  and the body leaves the specification's layer of those blocks — which is rows `5000 t …` of the layer of the whole
  arrays, a layer's row depending on that one row only. The twenty blocks tile the array, so it ends holding the layer.
-/
import proofs.«178267_j2276332667486_1_alg».proof.Proof.Gen.KernelIdeal.Skeleton
import proofs.«178267_j2276332667486_1_alg».proof.Proof.Spec
import proofs.«178267_j2276332667486_1_alg».proof.Proof.LibDenseLayer
import proofs.«178267_j2276332667486_1_alg».proof.Proof.KiData
import proofs.«178267_j2276332667486_1_alg».proof.Proof.KiLayerBody
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic.TcCoe Idealize.SL.Sem Idealize.ShloMosaic Idealize.ShloMosaic.ValueIdx Cert.MatProd Cert.Gin

variable (V : (c : Dev nD) → (b : Ref sig .tc) → Buf (Elt Ideal) ((c : Thread nD τ).loc b))

theorem hz1 : (![0, 0] : Fin 2 → Nat) = fun _ => 0 := funext fun a => by fin_cases a <;> rfl

theorem t_lt1 (t : Fin cfg1.N) : t.val < 20 := by have h : cfg1.N = 20 := N_1; have := t.isLt; omega

/-- Row `p` of point `t`'s block is row `5000 t + p` of the array. -/
def rowOf1 (t : Fin cfg1.N) (p : Fin 5000) : Fin 100000 := ⟨t.val * 5000 + p.val, by have := t_lt1 t; have := p.isLt; omega⟩

/-! The printed index maps, decided over the grid: the row windows sit at block `(t, 0)`, the others at `(0, 0)`. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)

/-! A window whose block is its whole array reads that array. -/
theorem whole1_2 (c : Dev nD) (t : Fin cfg1.N) : iblk1 V c 2 t = V c main_arg11 := by
  unfold iblk1
  funext y
  show V c main_arg11 (((cfg1.win 2).blk t).view.emb y) = V c main_arg11 y
  refine congrArg _ (funext fun ax => Fin.ext ?_)
  obtain ⟨e0, e1⟩ := idx1_2 t
  match ax with
  | ⟨0, _⟩ => show win1_2.index t (0 : Fin 2) * 64 + 1 * (y 0).val = (y 0).val; omega
  | ⟨1, _⟩ => show win1_2.index t (1 : Fin 2) * 64 + 1 * (y 1).val = (y 1).val; omega
theorem whole1_3 (c : Dev nD) (t : Fin cfg1.N) : iblk1 V c 3 t = V c main_v35 := by
  unfold iblk1
  funext y
  show V c main_v35 (((cfg1.win 3).blk t).view.emb y) = V c main_v35 y
  refine congrArg _ (funext fun ax => Fin.ext ?_)
  obtain ⟨e0, e1⟩ := idx1_3 t
  match ax with
  | ⟨0, _⟩ => show win1_3.index t (0 : Fin 2) * 1 + 1 * (y 0).val = (y 0).val; omega
  | ⟨1, _⟩ => show win1_3.index t (1 : Fin 2) * 64 + 1 * (y 1).val = (y 1).val; omega
theorem whole1_4 (c : Dev nD) (t : Fin cfg1.N) : iblk1 V c 4 t = V c main_v36 := by
  unfold iblk1
  funext y
  show V c main_v36 (((cfg1.win 4).blk t).view.emb y) = V c main_v36 y
  refine congrArg _ (funext fun ax => Fin.ext ?_)
  obtain ⟨e0, e1⟩ := idx1_4 t
  match ax with
  | ⟨0, _⟩ => show win1_4.index t (0 : Fin 2) * 1 + 1 * (y 0).val = (y 0).val; omega
  | ⟨1, _⟩ => show win1_4.index t (1 : Fin 2) * 64 + 1 * (y 1).val = (y 1).val; omega
theorem whole1_5 (c : Dev nD) (t : Fin cfg1.N) : iblk1 V c 5 t = V c main_v37 := by
  unfold iblk1
  funext y
  show V c main_v37 (((cfg1.win 5).blk t).view.emb y) = V c main_v37 y
  refine congrArg _ (funext fun ax => Fin.ext ?_)
  obtain ⟨e0, e1⟩ := idx1_5 t
  match ax with
  | ⟨0, _⟩ => show win1_5.index t (0 : Fin 2) * 1 + 1 * (y 0).val = (y 0).val; omega
  | ⟨1, _⟩ => show win1_5.index t (1 : Fin 2) * 64 + 1 * (y 1).val = (y 1).val; omega
theorem whole1_6 (c : Dev nD) (t : Fin cfg1.N) : iblk1 V c 6 t = V c main_v38 := by
  unfold iblk1
  funext y
  show V c main_v38 (((cfg1.win 6).blk t).view.emb y) = V c main_v38 y
  refine congrArg _ (funext fun ax => Fin.ext ?_)
  obtain ⟨e0, e1⟩ := idx1_6 t
  match ax with
  | ⟨0, _⟩ => show win1_6.index t (0 : Fin 2) * 1 + 1 * (y 0).val = (y 0).val; omega
  | ⟨1, _⟩ => show win1_6.index t (1 : Fin 2) * 64 + 1 * (y 1).val = (y 1).val; omega
theorem whole1_7 (c : Dev nD) (t : Fin cfg1.N) : iblk1 V c 7 t = V c main_v39 := by
  unfold iblk1
  funext y
  show V c main_v39 (((cfg1.win 7).blk t).view.emb y) = V c main_v39 y
  refine congrArg _ (funext fun ax => Fin.ext ?_)
  obtain ⟨e0, e1⟩ := idx1_7 t
  match ax with
  | ⟨0, _⟩ => show win1_7.index t (0 : Fin 2) * 1 + 1 * (y 0).val = (y 0).val; omega
  | ⟨1, _⟩ => show win1_7.index t (1 : Fin 2) * 64 + 1 * (y 1).val = (y 1).val; omega
theorem whole1_8 (c : Dev nD) (t : Fin cfg1.N) : iblk1 V c 8 t = V c main_arg17 := by
  unfold iblk1
  funext y
  show V c main_arg17 (((cfg1.win 8).blk t).view.emb y) = V c main_arg17 y
  refine congrArg _ (funext fun ax => Fin.ext ?_)
  obtain ⟨e0, e1⟩ := idx1_8 t
  match ax with
  | ⟨0, _⟩ => show win1_8.index t (0 : Fin 2) * 64 + 1 * (y 0).val = (y 0).val; omega
  | ⟨1, _⟩ => show win1_8.index t (1 : Fin 2) * 64 + 1 * (y 1).val = (y 1).val; omega
theorem whole1_9 (c : Dev nD) (t : Fin cfg1.N) : iblk1 V c 9 t = V c main_v40 := by
  unfold iblk1
  funext y
  show V c main_v40 (((cfg1.win 9).blk t).view.emb y) = V c main_v40 y
  refine congrArg _ (funext fun ax => Fin.ext ?_)
  obtain ⟨e0, e1⟩ := idx1_9 t
  match ax with
  | ⟨0, _⟩ => show win1_9.index t (0 : Fin 2) * 1 + 1 * (y 0).val = (y 0).val; omega
  | ⟨1, _⟩ => show win1_9.index t (1 : Fin 2) * 64 + 1 * (y 1).val = (y 1).val; omega

/-! A row window's block reads rows `5000 t …` of its array. -/
theorem rows1_0 (c : Dev nD) (t : Fin cfg1.N) (p : Fin 5000) (k : Fin 64) :
    iblk1 V c 0 t (ix2 p k) = V c main_v20 (ix2 (rowOf1 t p) k) := by
  unfold iblk1
  show V c main_v20 (((cfg1.win 0).blk t).view.emb (ix2 p k)) = _
  refine congrArg _ (funext fun ax => Fin.ext ?_)
  obtain ⟨e0, e1⟩ := idx1_0 t
  match ax with
  | ⟨0, _⟩ => show win1_0.index t (0 : Fin 2) * 5000 + 1 * p.val = t.val * 5000 + p.val; omega
  | ⟨1, _⟩ => show win1_0.index t (1 : Fin 2) * 64 + 1 * k.val = k.val; omega
theorem rows1_1 (c : Dev nD) (t : Fin cfg1.N) (p : Fin 5000) (k : Fin 64) :
    iblk1 V c 1 t (ix2 p k) = V c main_v34 (ix2 (rowOf1 t p) k) := by
  unfold iblk1
  show V c main_v34 (((cfg1.win 1).blk t).view.emb (ix2 p k)) = _
  refine congrArg _ (funext fun ax => Fin.ext ?_)
  obtain ⟨e0, e1⟩ := idx1_1 t
  match ax with
  | ⟨0, _⟩ => show win1_1.index t (0 : Fin 2) * 5000 + 1 * p.val = t.val * 5000 + p.val; omega
  | ⟨1, _⟩ => show win1_1.index t (1 : Fin 2) * 64 + 1 * k.val = k.val; omega

set_option maxHeartbeats 1600000 in
/-- WHAT POINT `t` WRITES BACK is block `t` of the layer of the arrays as the region finds them. -/
theorem flushed1_eq (c : Dev nD) (t : Fin cfg1.N) :
    (dat1 V c).flushed 10 t = ((cfg1.win 10).blk t).view.read (Elt Ideal)
      (layer (V c main_v20) (V c main_v34) (V c main_arg11) (V c main_v35) (V c main_v36) (V c main_v37) (V c main_v38) (V c main_v39) (V c main_arg17) (V c main_v40)) := by
  show (cfg1.win 10).cut (grid1.coords t) ((dat1 V c).after 10 t) = _
  rw [after1_10]
  unfold out1_10
  rw [View.canon_unit_zero hz1]
  simp only [View.ld_unit_zero (S := S5000x64) hz1, View.ld_unit_zero (S := S64x64) hz1, View.ld_unit_zero (S := S1x64) hz1]
  rw [pay1_eq, whole1_2 V c t, whole1_3 V c t, whole1_4 V c t, whole1_5 V c t, whole1_6 V c t, whole1_7 V c t, whole1_8 V c t, whole1_9 V c t]
  funext j
  have he : ((cfg1.win 10).blk t).view.emb j = ix2 (rowOf1 t (j 0)) (j 1) := funext fun ax => Fin.ext (by
    obtain ⟨e0, e1⟩ := idx1_10 t
    match ax with
    | ⟨0, _⟩ => show win1_10.index t (0 : Fin 2) * 5000 + 1 * (j 0).val = t.val * 5000 + (j 0).val; omega
    | ⟨1, _⟩ => show win1_10.index t (1 : Fin 2) * 64 + 1 * (j 1).val = (j 1).val; omega)
  show layer (iblk1 V c 0 t) (iblk1 V c 1 t) (V c main_arg11) (V c main_v35) (V c main_v36) (V c main_v37) (V c main_v38) (V c main_v39) (V c main_arg17) (V c main_v40) (ix2 (j 0) (j 1))
    = layer (V c main_v20) (V c main_v34) (V c main_arg11) (V c main_v35) (V c main_v36) (V c main_v37) (V c main_v38) (V c main_v39) (V c main_arg17) (V c main_v40) (((cfg1.win 10).blk t).view.emb j)
  rw [he]
  exact layer_rows_eq _ _ _ _ _ _ _ _ _ _ _ _ (j 0) (rowOf1 t (j 0)) (fun k => rows1_0 V c t (j 0) k)
    (fun k => rows1_1 V c t (j 0) k) (j 1)

/-- Every row of the array is in some point's block: row `r` in point `r / 5000`'s. -/
theorem cover1 (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by have h : cfg1.N = 20 := N_1; omega⟩, rfl⟩
  refine ⟨t, flush1_10 t, ?_⟩
  show i ∈ ((View.whole main_v41).slice (win1_10.rect t)).set
  rw [View.set_slice_whole, Rect.mem_set_unit]
  intro ax
  obtain ⟨e0, e1⟩ := idx1_10 t
  match ax with
  | ⟨0, _⟩ =>
    show win1_10.index t (0 : Fin 2) * 5000 ≤ (i 0).val ∧ (i 0).val < win1_10.index t (0 : Fin 2) * 5000 + 5000
    omega
  | ⟨1, _⟩ =>
    show win1_10.index t (1 : Fin 2) * 64 ≤ (i 1).val ∧ (i 1).val < win1_10.index t (1 : Fin 2) * 64 + 64
    omega

/-- THE ARRAY after the region: the layer of the arrays the region finds. -/
theorem layer1_final (c : Dev nD) :
    (dat1 V c).arrAt 10 cfg1.N = layer (V c main_v20) (V c main_v34) (V c main_arg11) (V c main_v35) (V c main_v36) (V c main_v37) (V c main_v38) (V c main_v39) (V c main_arg17) (V c main_v40) :=
  (dat1 V c).arrAt_eq_of_cover 10 _ (fun t _ => flushed1_eq V c t) (cover1)

end Cert.KernelIdeal.Hand

end
-- ==== Proof.KiLayerArray2.lean ====
/-
  The third layer's result array after its region, as one function of the arrays the region finds: the grid's
  twenty points each write back one block of 5000 rows; at point `t` the blocks of the features and of the
  neighbour sums are rows `5000 t … 5000 t + 4999` of their arrays, the weights and the one-row matrices are whole,
  and the body leaves the specification's layer of those blocks — which is rows `5000 t …` of the layer of the whole
  arrays, a layer's row depending on that one row only. The twenty blocks tile the array, so it ends holding the layer.
-/
import proofs.«178267_j2276332667486_1_alg».proof.Proof.Gen.KernelIdeal.Skeleton
import proofs.«178267_j2276332667486_1_alg».proof.Proof.Spec
import proofs.«178267_j2276332667486_1_alg».proof.Proof.LibDenseLayer
import proofs.«178267_j2276332667486_1_alg».proof.Proof.KiData
import proofs.«178267_j2276332667486_1_alg».proof.Proof.KiLayerBody
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic.TcCoe Idealize.SL.Sem Idealize.ShloMosaic Idealize.ShloMosaic.ValueIdx Cert.MatProd Cert.Gin

variable (V : (c : Dev nD) → (b : Ref sig .tc) → Buf (Elt Ideal) ((c : Thread nD τ).loc b))

theorem hz2 : (![0, 0] : Fin 2 → Nat) = fun _ => 0 := funext fun a => by fin_cases a <;> rfl

theorem t_lt2 (t : Fin cfg2.N) : t.val < 20 := by have h : cfg2.N = 20 := N_2; have := t.isLt; omega

/-- Row `p` of point `t`'s block is row `5000 t + p` of the array. -/
def rowOf2 (t : Fin cfg2.N) (p : Fin 5000) : Fin 100000 := ⟨t.val * 5000 + p.val, by have := t_lt2 t; have := p.isLt; omega⟩

/-! The printed index maps, decided over the grid: the row windows sit at block `(t, 0)`, the others at `(0, 0)`. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_10 : ∀ t : Fin cfg2.N, win2_10.index t (0 : Fin 2) = t.val ∧ win2_10.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)

/-! A window whose block is its whole array reads that array. -/
theorem whole2_2 (c : Dev nD) (t : Fin cfg2.N) : iblk2 V c 2 t = V c main_arg19 := by
  unfold iblk2
  funext y
  show V c main_arg19 (((cfg2.win 2).blk t).view.emb y) = V c main_arg19 y
  refine congrArg _ (funext fun ax => Fin.ext ?_)
  obtain ⟨e0, e1⟩ := idx2_2 t
  match ax with
  | ⟨0, _⟩ => show win2_2.index t (0 : Fin 2) * 64 + 1 * (y 0).val = (y 0).val; omega
  | ⟨1, _⟩ => show win2_2.index t (1 : Fin 2) * 64 + 1 * (y 1).val = (y 1).val; omega
theorem whole2_3 (c : Dev nD) (t : Fin cfg2.N) : iblk2 V c 3 t = V c main_v56 := by
  unfold iblk2
  funext y
  show V c main_v56 (((cfg2.win 3).blk t).view.emb y) = V c main_v56 y
  refine congrArg _ (funext fun ax => Fin.ext ?_)
  obtain ⟨e0, e1⟩ := idx2_3 t
  match ax with
  | ⟨0, _⟩ => show win2_3.index t (0 : Fin 2) * 1 + 1 * (y 0).val = (y 0).val; omega
  | ⟨1, _⟩ => show win2_3.index t (1 : Fin 2) * 64 + 1 * (y 1).val = (y 1).val; omega
theorem whole2_4 (c : Dev nD) (t : Fin cfg2.N) : iblk2 V c 4 t = V c main_v57 := by
  unfold iblk2
  funext y
  show V c main_v57 (((cfg2.win 4).blk t).view.emb y) = V c main_v57 y
  refine congrArg _ (funext fun ax => Fin.ext ?_)
  obtain ⟨e0, e1⟩ := idx2_4 t
  match ax with
  | ⟨0, _⟩ => show win2_4.index t (0 : Fin 2) * 1 + 1 * (y 0).val = (y 0).val; omega
  | ⟨1, _⟩ => show win2_4.index t (1 : Fin 2) * 64 + 1 * (y 1).val = (y 1).val; omega
theorem whole2_5 (c : Dev nD) (t : Fin cfg2.N) : iblk2 V c 5 t = V c main_v58 := by
  unfold iblk2
  funext y
  show V c main_v58 (((cfg2.win 5).blk t).view.emb y) = V c main_v58 y
  refine congrArg _ (funext fun ax => Fin.ext ?_)
  obtain ⟨e0, e1⟩ := idx2_5 t
  match ax with
  | ⟨0, _⟩ => show win2_5.index t (0 : Fin 2) * 1 + 1 * (y 0).val = (y 0).val; omega
  | ⟨1, _⟩ => show win2_5.index t (1 : Fin 2) * 64 + 1 * (y 1).val = (y 1).val; omega
theorem whole2_6 (c : Dev nD) (t : Fin cfg2.N) : iblk2 V c 6 t = V c main_v59 := by
  unfold iblk2
  funext y
  show V c main_v59 (((cfg2.win 6).blk t).view.emb y) = V c main_v59 y
  refine congrArg _ (funext fun ax => Fin.ext ?_)
  obtain ⟨e0, e1⟩ := idx2_6 t
  match ax with
  | ⟨0, _⟩ => show win2_6.index t (0 : Fin 2) * 1 + 1 * (y 0).val = (y 0).val; omega
  | ⟨1, _⟩ => show win2_6.index t (1 : Fin 2) * 64 + 1 * (y 1).val = (y 1).val; omega
theorem whole2_7 (c : Dev nD) (t : Fin cfg2.N) : iblk2 V c 7 t = V c main_v60 := by
  unfold iblk2
  funext y
  show V c main_v60 (((cfg2.win 7).blk t).view.emb y) = V c main_v60 y
  refine congrArg _ (funext fun ax => Fin.ext ?_)
  obtain ⟨e0, e1⟩ := idx2_7 t
  match ax with
  | ⟨0, _⟩ => show win2_7.index t (0 : Fin 2) * 1 + 1 * (y 0).val = (y 0).val; omega
  | ⟨1, _⟩ => show win2_7.index t (1 : Fin 2) * 64 + 1 * (y 1).val = (y 1).val; omega
theorem whole2_8 (c : Dev nD) (t : Fin cfg2.N) : iblk2 V c 8 t = V c main_arg25 := by
  unfold iblk2
  funext y
  show V c main_arg25 (((cfg2.win 8).blk t).view.emb y) = V c main_arg25 y
  refine congrArg _ (funext fun ax => Fin.ext ?_)
  obtain ⟨e0, e1⟩ := idx2_8 t
  match ax with
  | ⟨0, _⟩ => show win2_8.index t (0 : Fin 2) * 64 + 1 * (y 0).val = (y 0).val; omega
  | ⟨1, _⟩ => show win2_8.index t (1 : Fin 2) * 64 + 1 * (y 1).val = (y 1).val; omega
theorem whole2_9 (c : Dev nD) (t : Fin cfg2.N) : iblk2 V c 9 t = V c main_v61 := by
  unfold iblk2
  funext y
  show V c main_v61 (((cfg2.win 9).blk t).view.emb y) = V c main_v61 y
  refine congrArg _ (funext fun ax => Fin.ext ?_)
  obtain ⟨e0, e1⟩ := idx2_9 t
  match ax with
  | ⟨0, _⟩ => show win2_9.index t (0 : Fin 2) * 1 + 1 * (y 0).val = (y 0).val; omega
  | ⟨1, _⟩ => show win2_9.index t (1 : Fin 2) * 64 + 1 * (y 1).val = (y 1).val; omega

/-! A row window's block reads rows `5000 t …` of its array. -/
theorem rows2_0 (c : Dev nD) (t : Fin cfg2.N) (p : Fin 5000) (k : Fin 64) :
    iblk2 V c 0 t (ix2 p k) = V c main_v41 (ix2 (rowOf2 t p) k) := by
  unfold iblk2
  show V c main_v41 (((cfg2.win 0).blk t).view.emb (ix2 p k)) = _
  refine congrArg _ (funext fun ax => Fin.ext ?_)
  obtain ⟨e0, e1⟩ := idx2_0 t
  match ax with
  | ⟨0, _⟩ => show win2_0.index t (0 : Fin 2) * 5000 + 1 * p.val = t.val * 5000 + p.val; omega
  | ⟨1, _⟩ => show win2_0.index t (1 : Fin 2) * 64 + 1 * k.val = k.val; omega
theorem rows2_1 (c : Dev nD) (t : Fin cfg2.N) (p : Fin 5000) (k : Fin 64) :
    iblk2 V c 1 t (ix2 p k) = V c main_v55 (ix2 (rowOf2 t p) k) := by
  unfold iblk2
  show V c main_v55 (((cfg2.win 1).blk t).view.emb (ix2 p k)) = _
  refine congrArg _ (funext fun ax => Fin.ext ?_)
  obtain ⟨e0, e1⟩ := idx2_1 t
  match ax with
  | ⟨0, _⟩ => show win2_1.index t (0 : Fin 2) * 5000 + 1 * p.val = t.val * 5000 + p.val; omega
  | ⟨1, _⟩ => show win2_1.index t (1 : Fin 2) * 64 + 1 * k.val = k.val; omega

set_option maxHeartbeats 1600000 in
/-- WHAT POINT `t` WRITES BACK is block `t` of the layer of the arrays as the region finds them. -/
theorem flushed2_eq (c : Dev nD) (t : Fin cfg2.N) :
    (dat2 V c).flushed 10 t = ((cfg2.win 10).blk t).view.read (Elt Ideal)
      (layer (V c main_v41) (V c main_v55) (V c main_arg19) (V c main_v56) (V c main_v57) (V c main_v58) (V c main_v59) (V c main_v60) (V c main_arg25) (V c main_v61)) := by
  show (cfg2.win 10).cut (grid2.coords t) ((dat2 V c).after 10 t) = _
  rw [after2_10]
  unfold out2_10
  rw [View.canon_unit_zero hz2]
  simp only [View.ld_unit_zero (S := S5000x64) hz2, View.ld_unit_zero (S := S64x64) hz2, View.ld_unit_zero (S := S1x64) hz2]
  rw [pay2_eq, whole2_2 V c t, whole2_3 V c t, whole2_4 V c t, whole2_5 V c t, whole2_6 V c t, whole2_7 V c t, whole2_8 V c t, whole2_9 V c t]
  funext j
  have he : ((cfg2.win 10).blk t).view.emb j = ix2 (rowOf2 t (j 0)) (j 1) := funext fun ax => Fin.ext (by
    obtain ⟨e0, e1⟩ := idx2_10 t
    match ax with
    | ⟨0, _⟩ => show win2_10.index t (0 : Fin 2) * 5000 + 1 * (j 0).val = t.val * 5000 + (j 0).val; omega
    | ⟨1, _⟩ => show win2_10.index t (1 : Fin 2) * 64 + 1 * (j 1).val = (j 1).val; omega)
  show layer (iblk2 V c 0 t) (iblk2 V c 1 t) (V c main_arg19) (V c main_v56) (V c main_v57) (V c main_v58) (V c main_v59) (V c main_v60) (V c main_arg25) (V c main_v61) (ix2 (j 0) (j 1))
    = layer (V c main_v41) (V c main_v55) (V c main_arg19) (V c main_v56) (V c main_v57) (V c main_v58) (V c main_v59) (V c main_v60) (V c main_arg25) (V c main_v61) (((cfg2.win 10).blk t).view.emb j)
  rw [he]
  exact layer_rows_eq _ _ _ _ _ _ _ _ _ _ _ _ (j 0) (rowOf2 t (j 0)) (fun k => rows2_0 V c t (j 0) k)
    (fun k => rows2_1 V c t (j 0) k) (j 1)

/-- Every row of the array is in some point's block: row `r` in point `r / 5000`'s. -/
theorem cover2 (i : S100000x64.Idx) :
    ∃ t : Fin cfg2.N, (cfg2.win 10).flush t = true ∧ i ∈ ((cfg2.win 10).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by have h : cfg2.N = 20 := N_2; omega⟩, rfl⟩
  refine ⟨t, flush2_10 t, ?_⟩
  show i ∈ ((View.whole main_v62).slice (win2_10.rect t)).set
  rw [View.set_slice_whole, Rect.mem_set_unit]
  intro ax
  obtain ⟨e0, e1⟩ := idx2_10 t
  match ax with
  | ⟨0, _⟩ =>
    show win2_10.index t (0 : Fin 2) * 5000 ≤ (i 0).val ∧ (i 0).val < win2_10.index t (0 : Fin 2) * 5000 + 5000
    omega
  | ⟨1, _⟩ =>
    show win2_10.index t (1 : Fin 2) * 64 ≤ (i 1).val ∧ (i 1).val < win2_10.index t (1 : Fin 2) * 64 + 64
    omega

/-- THE ARRAY after the region: the layer of the arrays the region finds. -/
theorem layer2_final (c : Dev nD) :
    (dat2 V c).arrAt 10 cfg2.N = layer (V c main_v41) (V c main_v55) (V c main_arg19) (V c main_v56) (V c main_v57) (V c main_v58) (V c main_v59) (V c main_v60) (V c main_arg25) (V c main_v61) :=
  (dat2 V c).arrAt_eq_of_cover 10 _ (fun t _ => flushed2_eq V c t) (cover2)

end Cert.KernelIdeal.Hand

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.KiHeadBody.lean ====
/-
  What the read-out head's body computes, over the extended reals: a dense layer of the pooled features, a second
  product plus its bias row (the scores), then along each row the shifted logarithm of the softmax — the row's
  maximum is the fold of `max` from the least extended real, the normaliser the logarithm of the sum over the row of
  the exponentials of the shifted scores. The body keeps the row's maximum and the normaliser as one-column matrices
  repeated across the columns; read at an entry they are the row's numbers. This is the specification's `classify`.
-/
import proofs.«178267_j2276332667486_1_alg».proof.Proof.Gen.KernelIdeal.Skeleton
import proofs.«178267_j2276332667486_1_alg».proof.Proof.Spec
import proofs.«178267_j2276332667486_1_alg».proof.Proof.LibDenseLayer
import proofs.«178267_j2276332667486_1_alg».proof.Proof.LibKeepdims
import proofs.«178267_j2276332667486_1_alg».proof.Proof.LibHostRead
import Idealize.ShloMosaic.PureOps.Ideal.Laws
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx Cert.MatProd Cert.Gin

theorem dims_head1 : dot_S256x192_S192x192_S256x192_1_0_0_1_n_n = DotDims.plain 256 192 192 := rfl
theorem dims_head2 : dot_S256x192_S192x10_S256x10_1_0_0_1_n_n = DotDims.plain 256 192 10 := rfl

/-- The head's scores as the body spells them. -/
def headScores (p : FVec Ideal S256x192 .f32) (l1w : FVec Ideal S192x192 .f32) (l1b : FVec Ideal S1x192 .f32)
    (l2w : FVec Ideal S192x10 .f32) (l2b : FVec Ideal S1x10 .f32) : FVec Ideal S256x10 .f32 :=
  addf
    (matmul dot_S256x192_S192x10_S256x10_1_0_0_1_n_n none
      (truncf .bf16
        (maximumf
          (addf
            (matmul dot_S256x192_S192x192_S256x192_1_0_0_1_n_n none (truncf .bf16 p bitsLt_bf16_f32)
              (truncf .bf16 l1w bitsLt_bf16_f32) (constant S256x192 .f32 0x00000000#32))
            (broadcastTo S256x192 l1b broadcasts_S1x192_S256x192))
          (broadcast S256x192 (Scalar.ofBits (F := Ideal) .f32 0x00000000#32)))
        bitsLt_bf16_f32)
      (truncf .bf16 l2w bitsLt_bf16_f32) (constant S256x10 .f32 0x00000000#32))
    (broadcastTo S256x10 l2b broadcasts_S1x10_S256x10)

/-- The scores are the specification's: a dense layer, then a product plus a bias row. -/
theorem headScores_eq (p : FVec Ideal S256x192 .f32) (l1w : FVec Ideal S192x192 .f32) (l1b : FVec Ideal S1x192 .f32)
    (l2w : FVec Ideal S192x10 .f32) (l2b : FVec Ideal S1x10 .f32) :
    headScores p l1w l1b l2w l2b = logits p l1w l1b l2w l2b := by
  funext i
  obtain ⟨r, j, rfl⟩ : ∃ (r : Fin 256) (j : Fin 10), i = ix2 r j := ⟨i 0, i 1, eq_ix2 i⟩
  have hl := Cert.DenseLayer.kernel_layer dot_S256x192_S192x192_S256x192_1_0_0_1_n_n dims_head1
    (truncf .bf16 p bitsLt_bf16_f32) (truncf .bf16 l1w bitsLt_bf16_f32) l1b broadcasts_S1x192_S256x192
  refine (Cert.DenseLayer.kernel_affine dot_S256x192_S192x10_S256x10_1_0_0_1_n_n dims_head2 _
    (truncf .bf16 l2w bitsLt_bf16_f32) l2b broadcasts_S1x10_S256x10 r j).trans ?_
  exact congrArg (fun a => prod a l2w (ix2 r j) + l2b (ix2 0 j)) hl

/-- The row-wise shifted logarithm of the softmax as the body spells it. -/
def softmaxBody (z : FVec Ideal S256x10 .f32) : FVec Ideal S256x10 .f32 :=
  subf
    (subf z
      (broadcastTo S256x10
        (shapeCast S256x1 (multiReduction .maximumf [1] S256 z 0xFF800000#32 reduces_S256x10_S256 (.inl rfl) rfl)
          shapeCasts_S256_S256x1)
        broadcasts_S256x1_S256x10))
    (broadcastTo S256x10
      (log
        (shapeCast S256x1
          (multiReduction .add [1] S256
            (exp
              (subf z
                (broadcastTo S256x10
                  (shapeCast S256x1 (multiReduction .maximumf [1] S256 z 0xFF800000#32 reduces_S256x10_S256 (.inl rfl) rfl)
                    shapeCasts_S256_S256x1)
                  broadcasts_S256x1_S256x10)))
            0x00000000#32 reduces_S256x10_S256 (.inl rfl) rfl)
          shapeCasts_S256_S256x1))
      broadcasts_S256x1_S256x10)

/-- A vector of row numbers kept as a one-column matrix and repeated across the columns reads, at `(r, j)`, row
    `r`'s number. -/
theorem keptColumn_apply (v : FVec Ideal S256 .f32) (r : Fin 256) (j : Fin 10) :
    broadcastTo S256x10 (shapeCast S256x1 v shapeCasts_S256_S256x1) broadcasts_S256x1_S256x10 (ix2 r j) = v (ix1 r) :=
  (Cert.Keepdims.broadcastTo_a1_ab_apply (a := 256) (b := 10) _ broadcasts_S256x1_S256x10 r j).trans
    (Cert.Keepdims.shapeCast_a_a1_apply (a := 256) v shapeCasts_S256_S256x1 r 0)

/-- The maximum-reduction along the rows from the least extended real is the specification's row maximum. -/
theorem rowMax_eq (z : FVec Ideal S256x10 .f32) (r : Fin 256) :
    multiReduction .maximumf [1] S256 z 0xFF800000#32 reduces_S256x10_S256 (.inl rfl) rfl (ix1 r) = rowMax z r := by
  refine (Ideal.multiReduction_maximumf_single z 0xFF800000#32 reduces_S256x10_S256 (.inl rfl) rfl (ix1 r)).trans ?_
  show (Finset.univ : Finset (Fin 10)).fold max _ (fun k => z (reduces_S256x10_S256.lift (ix1 r) k)) = _
  unfold rowMax
  refine congrArg (fun f => (Finset.univ : Finset (Fin 10)).fold (max : EReal → EReal → EReal) negInf f) ?_
  funext k
  exact congrArg z (Cert.HostRead.lift_row reduces_S256x10_S256 r k)

/-- The sum-reduction along the rows from zero is the sum over the row. -/
theorem rowSum_eq (y : FVec Ideal S256x10 .f32) (r : Fin 256) :
    multiReduction .add [1] S256 y 0x00000000#32 reduces_S256x10_S256 (.inl rfl) rfl (ix1 r) = ∑ k : Fin 10, y (ix2 r k) := by
  refine (Ideal.multiReduction_add_single y 0x00000000#32 reduces_S256x10_S256 (.inl rfl) rfl (ix1 r)).trans ?_
  show ∑ k : Fin 10, y (reduces_S256x10_S256.lift (ix1 r) k) = _
  exact Finset.sum_congr rfl fun k _ => congrArg y (Cert.HostRead.lift_row reduces_S256x10_S256 r k)

/-- Entry by entry the body's spelling is the specification's shifted logarithm of the softmax. -/
theorem softmaxBody_eq (z : FVec Ideal S256x10 .f32) : softmaxBody z = logSoftmax z := by
  funext i
  obtain ⟨r, j, rfl⟩ : ∃ (r : Fin 256) (j : Fin 10), i = ix2 r j := ⟨i 0, i 1, eq_ix2 i⟩
  have hm : ∀ k : Fin 10, broadcastTo S256x10
      (shapeCast S256x1 (multiReduction .maximumf [1] S256 z 0xFF800000#32 reduces_S256x10_S256 (.inl rfl) rfl)
        shapeCasts_S256_S256x1) broadcasts_S256x1_S256x10 (ix2 r k) = rowMax z r :=
    fun k => (keptColumn_apply _ r k).trans (rowMax_eq z r)
  have hs : broadcastTo S256x10
      (log
        (shapeCast S256x1
          (multiReduction .add [1] S256
            (exp
              (subf z
                (broadcastTo S256x10
                  (shapeCast S256x1 (multiReduction .maximumf [1] S256 z 0xFF800000#32 reduces_S256x10_S256 (.inl rfl) rfl)
                    shapeCasts_S256_S256x1)
                  broadcasts_S256x1_S256x10)))
            0x00000000#32 reduces_S256x10_S256 (.inl rfl) rfl)
          shapeCasts_S256_S256x1))
      broadcasts_S256x1_S256x10 (ix2 r j)
      = Ideal.log (∑ k : Fin 10, Ideal.exp (z (ix2 r k) - rowMax z r)) := by
    refine (Cert.Keepdims.broadcastTo_a1_ab_apply (a := 256) (b := 10) _ broadcasts_S256x1_S256x10 r j).trans ?_
    show Ideal.log (shapeCast S256x1 _ shapeCasts_S256_S256x1 (ix2 r 0)) = _
    refine congrArg Ideal.log ?_
    refine (Cert.Keepdims.shapeCast_a_a1_apply (a := 256) _ shapeCasts_S256_S256x1 r 0).trans ?_
    refine (rowSum_eq _ r).trans ?_
    refine Finset.sum_congr rfl fun k _ => ?_
    show Ideal.exp (z (ix2 r k) - _) = _
    rw [hm k]
  show (z (ix2 r j) - _) - _ = (z (ix2 r j) - rowMax z r) - Ideal.log (∑ k : Fin 10, Ideal.exp (z (ix2 r k) - rowMax z r))
  rw [hm j, hs]

/-- THE HEAD'S BODY is the specification's read-out head. -/
theorem pay3_eq (p : Vec Ideal S256x192 .f32) (l1w : Vec Ideal S192x192 .f32) (l1b : Vec Ideal S1x192 .f32)
    (l2w : Vec Ideal S192x10 .f32) (l2b : Vec Ideal S1x10 .f32) :
    k3_pay1 p l1w l1b l2w l2b = classify p l1w l1b l2w l2b := by
  unfold k3_pay1
  simp only [shapeCast_self]
  show softmaxBody (headScores p l1w l1b l2w l2b) = _
  rw [headScores_eq, softmaxBody_eq]
  rfl

end Cert.KernelIdeal.Hand

end
-- ==== Proof.KiHeadArray.lean ====
/-
  The result array after the head's region, as one function of the arrays the region finds: the grid has one point,
  every window's block is its whole array, the body leaves the specification's read-out head of what it loaded, and
  that one block is the whole result array.
-/
import proofs.«178267_j2276332667486_1_alg».proof.Proof.Gen.KernelIdeal.Skeleton
import proofs.«178267_j2276332667486_1_alg».proof.Proof.Spec
import proofs.«178267_j2276332667486_1_alg».proof.Proof.LibDenseLayer
import proofs.«178267_j2276332667486_1_alg».proof.Proof.KiData
import proofs.«178267_j2276332667486_1_alg».proof.Proof.KiHeadBody
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic.TcCoe Idealize.SL.Sem Idealize.ShloMosaic Idealize.ShloMosaic.ValueIdx Cert.MatProd Cert.Gin

variable (V : (c : Dev nD) → (b : Ref sig .tc) → Buf (Elt Ideal) ((c : Thread nD τ).loc b))

theorem hz3 : (![0, 0] : Fin 2 → Nat) = fun _ => 0 := funext fun a => by fin_cases a <;> rfl

/-! The printed index maps at the grid's one point: every window sits at block `(0, 0)`. -/
theorem idx3_0 : ∀ t : Fin cfg3.N, win3_0.index t (0 : Fin 2) = 0 ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)

/-! A window whose block is its whole array reads that array. -/
theorem whole3_0 (c : Dev nD) (t : Fin cfg3.N) : iblk3 V c 0 t = V c main_v72 := by
  unfold iblk3
  funext y
  show V c main_v72 (((cfg3.win 0).blk t).view.emb y) = V c main_v72 y
  refine congrArg _ (funext fun ax => Fin.ext ?_)
  obtain ⟨e0, e1⟩ := idx3_0 t
  match ax with
  | ⟨0, _⟩ => show win3_0.index t (0 : Fin 2) * 256 + 1 * (y 0).val = (y 0).val; omega
  | ⟨1, _⟩ => show win3_0.index t (1 : Fin 2) * 192 + 1 * (y 1).val = (y 1).val; omega
theorem whole3_1 (c : Dev nD) (t : Fin cfg3.N) : iblk3 V c 1 t = V c main_arg27 := by
  unfold iblk3
  funext y
  show V c main_arg27 (((cfg3.win 1).blk t).view.emb y) = V c main_arg27 y
  refine congrArg _ (funext fun ax => Fin.ext ?_)
  obtain ⟨e0, e1⟩ := idx3_1 t
  match ax with
  | ⟨0, _⟩ => show win3_1.index t (0 : Fin 2) * 192 + 1 * (y 0).val = (y 0).val; omega
  | ⟨1, _⟩ => show win3_1.index t (1 : Fin 2) * 192 + 1 * (y 1).val = (y 1).val; omega
theorem whole3_2 (c : Dev nD) (t : Fin cfg3.N) : iblk3 V c 2 t = V c main_v73 := by
  unfold iblk3
  funext y
  show V c main_v73 (((cfg3.win 2).blk t).view.emb y) = V c main_v73 y
  refine congrArg _ (funext fun ax => Fin.ext ?_)
  obtain ⟨e0, e1⟩ := idx3_2 t
  match ax with
  | ⟨0, _⟩ => show win3_2.index t (0 : Fin 2) * 1 + 1 * (y 0).val = (y 0).val; omega
  | ⟨1, _⟩ => show win3_2.index t (1 : Fin 2) * 192 + 1 * (y 1).val = (y 1).val; omega
theorem whole3_3 (c : Dev nD) (t : Fin cfg3.N) : iblk3 V c 3 t = V c main_arg29 := by
  unfold iblk3
  funext y
  show V c main_arg29 (((cfg3.win 3).blk t).view.emb y) = V c main_arg29 y
  refine congrArg _ (funext fun ax => Fin.ext ?_)
  obtain ⟨e0, e1⟩ := idx3_3 t
  match ax with
  | ⟨0, _⟩ => show win3_3.index t (0 : Fin 2) * 192 + 1 * (y 0).val = (y 0).val; omega
  | ⟨1, _⟩ => show win3_3.index t (1 : Fin 2) * 10 + 1 * (y 1).val = (y 1).val; omega
theorem whole3_4 (c : Dev nD) (t : Fin cfg3.N) : iblk3 V c 4 t = V c main_v74 := by
  unfold iblk3
  funext y
  show V c main_v74 (((cfg3.win 4).blk t).view.emb y) = V c main_v74 y
  refine congrArg _ (funext fun ax => Fin.ext ?_)
  obtain ⟨e0, e1⟩ := idx3_4 t
  match ax with
  | ⟨0, _⟩ => show win3_4.index t (0 : Fin 2) * 1 + 1 * (y 0).val = (y 0).val; omega
  | ⟨1, _⟩ => show win3_4.index t (1 : Fin 2) * 10 + 1 * (y 1).val = (y 1).val; omega

/-- WHAT THE ONE POINT WRITES BACK is the head of the arrays as the region finds them, whole. -/
theorem flushed3_eq (c : Dev nD) (t : Fin cfg3.N) :
    (dat3 V c).flushed 5 t = ((cfg3.win 5).blk t).view.read (Elt Ideal)
      (classify (V c main_v72) (V c main_arg27) (V c main_v73) (V c main_arg29) (V c main_v74)) := by
  show (cfg3.win 5).cut (grid3.coords t) ((dat3 V c).after 5 t) = _
  rw [after3_5]
  unfold out3_5
  rw [View.canon_unit_zero hz3]
  simp only [View.ld_unit_zero (S := S256x192) hz3, View.ld_unit_zero (S := S192x192) hz3, View.ld_unit_zero (S := S1x192) hz3, View.ld_unit_zero (S := S192x10) hz3, View.ld_unit_zero (S := S1x10) hz3]
  rw [pay3_eq, whole3_0 V c t, whole3_1 V c t, whole3_2 V c t, whole3_3 V c t, whole3_4 V c t]
  funext j
  have he : ((cfg3.win 5).blk t).view.emb j = j := funext fun ax => Fin.ext (by
    obtain ⟨e0, e1⟩ := idx3_5 t
    match ax with
    | ⟨0, _⟩ => show win3_5.index t (0 : Fin 2) * 256 + 1 * (j 0).val = (j 0).val; omega
    | ⟨1, _⟩ => show win3_5.index t (1 : Fin 2) * 10 + 1 * (j 1).val = (j 1).val; omega)
  show classify (V c main_v72) (V c main_arg27) (V c main_v73) (V c main_arg29) (V c main_v74) j = classify (V c main_v72) (V c main_arg27) (V c main_v73) (V c main_arg29) (V c main_v74) (((cfg3.win 5).blk t).view.emb j)
  rw [he]

/-- The one block is the whole result array. -/
theorem cover3 (i : S256x10.Idx) :
    ∃ t : Fin cfg3.N, (cfg3.win 5).flush t = true ∧ i ∈ ((cfg3.win 5).blk t).view.set := by
  have hi0 : (i 0).val < 256 := (i 0).isLt
  have hi1 : (i 1).val < 10 := (i 1).isLt
  refine ⟨t3_0, flush3_5 t3_0, ?_⟩
  show i ∈ ((View.whole main_v75).slice (win3_5.rect t3_0)).set
  rw [View.set_slice_whole, Rect.mem_set_unit]
  intro ax
  obtain ⟨e0, e1⟩ := idx3_5 t3_0
  match ax with
  | ⟨0, _⟩ =>
    show win3_5.index t3_0 (0 : Fin 2) * 256 ≤ (i 0).val ∧ (i 0).val < win3_5.index t3_0 (0 : Fin 2) * 256 + 256
    omega
  | ⟨1, _⟩ =>
    show win3_5.index t3_0 (1 : Fin 2) * 10 ≤ (i 1).val ∧ (i 1).val < win3_5.index t3_0 (1 : Fin 2) * 10 + 10
    omega

/-- THE RESULT ARRAY after the region: the read-out head of the arrays the region finds. -/
theorem head_final (c : Dev nD) :
    (dat3 V c).arrAt 5 cfg3.N = classify (V c main_v72) (V c main_arg27) (V c main_v73) (V c main_arg29) (V c main_v74) :=
  (dat3 V c).arrAt_eq_of_cover 5 _ (fun t _ => flushed3_eq V c t) (cover3)

end Cert.KernelIdeal.Hand

end
-- ==== Proof.KiNet.lean ====
/-
  The kernel program's result as one function of its launch arguments, read off the buffers' contents from the launch to
  the return: a host line leaves in the buffers it writes the neighbour sums and the one-row layouts of what it finds and
  nothing else changes; a layer's region leaves the specification's layer of the arrays it finds in its result array
  and keeps the others; the head's region leaves the read-out head of the pooled, concatenated features. Composing
  the eight steps, the result buffer ends holding the network `netK` of the arguments' launch contents.
-/
import proofs.«178267_j2276332667486_1_alg».proof.Proof.KiData
import proofs.«178267_j2276332667486_1_alg».proof.Proof.KiHost
import proofs.«178267_j2276332667486_1_alg».proof.Proof.KiLayerArray0
import proofs.«178267_j2276332667486_1_alg».proof.Proof.KiLayerArray1
import proofs.«178267_j2276332667486_1_alg».proof.Proof.KiLayerArray2
import proofs.«178267_j2276332667486_1_alg».proof.Proof.KiHeadArray

noncomputable section

namespace Cert.KernelIdeal.Hand

open Cert.KernelIdeal Cert.KernelIdeal.Gen Idealize.ShloMosaic Idealize.ShloMosaic.ValueIdx Idealize.ShloMosaic.TcCoe
open Idealize.SL.Sem Cert.Gin

/-- The network as one function of the program's 31 arguments: the layers and the head as the specification writes
    them, the gather/scatter pieces and the concatenation as the program's own terms. -/
def netK (x : FVec Ideal S100000x64 .f32) (ei : Edges) (bt : Batch)
    (w11 : FVec Ideal S64x64 .f32) (b11 : FVec Ideal S64 .f32) (g1 : FVec Ideal S64 .f32) (be1 : FVec Ideal S64 .f32) (mn1 : FVec Ideal S64 .f32) (vr1 : FVec Ideal S64 .f32) (w12 : FVec Ideal S64x64 .f32) (b12 : FVec Ideal S64 .f32)
    (w21 : FVec Ideal S64x64 .f32) (b21 : FVec Ideal S64 .f32) (g2 : FVec Ideal S64 .f32) (be2 : FVec Ideal S64 .f32) (mn2 : FVec Ideal S64 .f32) (vr2 : FVec Ideal S64 .f32) (w22 : FVec Ideal S64x64 .f32) (b22 : FVec Ideal S64 .f32)
    (w31 : FVec Ideal S64x64 .f32) (b31 : FVec Ideal S64 .f32) (g3 : FVec Ideal S64 .f32) (be3 : FVec Ideal S64 .f32) (mn3 : FVec Ideal S64 .f32) (vr3 : FVec Ideal S64 .f32) (w32 : FVec Ideal S64x64 .f32) (b32 : FVec Ideal S64 .f32)
    (l1w : FVec Ideal S192x192 .f32) (l1b : FVec Ideal S192 .f32) (l2w : FVec Ideal S192x10 .f32) (l2b : FVec Ideal S10 .f32) :
    FVec Ideal S256x10 .f32 :=
  let h1 : FVec Ideal S100000x64 .f32 := Cert.Gin.layer x (aggK x ei) w11 (Cert.Gin.asRow b11) (Cert.Gin.asRow g1) (Cert.Gin.asRow be1)
    (Cert.Gin.asRow mn1) (Cert.Gin.asRow vr1) w12 (Cert.Gin.asRow b12)
  let h2 : FVec Ideal S100000x64 .f32 := Cert.Gin.layer h1 (aggK h1 ei) w21 (Cert.Gin.asRow b21) (Cert.Gin.asRow g2) (Cert.Gin.asRow be2)
    (Cert.Gin.asRow mn2) (Cert.Gin.asRow vr2) w22 (Cert.Gin.asRow b22)
  let h3 : FVec Ideal S100000x64 .f32 := Cert.Gin.layer h2 (aggK h2 ei) w31 (Cert.Gin.asRow b31) (Cert.Gin.asRow g3) (Cert.Gin.asRow be3)
    (Cert.Gin.asRow mn3) (Cert.Gin.asRow vr3) w32 (Cert.Gin.asRow b32)
  Cert.Gin.classify (catK (poolK h1 bt) (poolK h2 bt) (poolK h3 bt)) l1w (Cert.Gin.asRow l1b) l2w (Cert.Gin.asRow l2b)

variable (m : (ℓ : Loc nD τ sig) → Buf (Elt Ideal) ℓ) (ρ : Dev nD → PrngReg) (c : Dev nD)

/-- The node features after the first, second and third layer, as functions of the launch arguments. -/
def feat1 : FVec Ideal S100000x64 .f32 :=
  layer (m ((c.tc : Thread nD τ).loc main_arg0)) (aggK (m ((c.tc : Thread nD τ).loc main_arg0)) (m ((c.tc : Thread nD τ).loc main_arg1))) (m ((c.tc : Thread nD τ).loc main_arg3)) (Cert.Gin.asRow (m ((c.tc : Thread nD τ).loc main_arg4))) (Cert.Gin.asRow (m ((c.tc : Thread nD τ).loc main_arg5))) (Cert.Gin.asRow (m ((c.tc : Thread nD τ).loc main_arg6))) (Cert.Gin.asRow (m ((c.tc : Thread nD τ).loc main_arg7))) (Cert.Gin.asRow (m ((c.tc : Thread nD τ).loc main_arg8))) (m ((c.tc : Thread nD τ).loc main_arg9)) (Cert.Gin.asRow (m ((c.tc : Thread nD τ).loc main_arg10)))
def feat2 : FVec Ideal S100000x64 .f32 :=
  layer (feat1 m c) (aggK (feat1 m c) (m ((c.tc : Thread nD τ).loc main_arg1))) (m ((c.tc : Thread nD τ).loc main_arg11)) (Cert.Gin.asRow (m ((c.tc : Thread nD τ).loc main_arg12))) (Cert.Gin.asRow (m ((c.tc : Thread nD τ).loc main_arg13))) (Cert.Gin.asRow (m ((c.tc : Thread nD τ).loc main_arg14))) (Cert.Gin.asRow (m ((c.tc : Thread nD τ).loc main_arg15))) (Cert.Gin.asRow (m ((c.tc : Thread nD τ).loc main_arg16))) (m ((c.tc : Thread nD τ).loc main_arg17)) (Cert.Gin.asRow (m ((c.tc : Thread nD τ).loc main_arg18)))
def feat3 : FVec Ideal S100000x64 .f32 :=
  layer (feat2 m c) (aggK (feat2 m c) (m ((c.tc : Thread nD τ).loc main_arg1))) (m ((c.tc : Thread nD τ).loc main_arg19)) (Cert.Gin.asRow (m ((c.tc : Thread nD τ).loc main_arg20))) (Cert.Gin.asRow (m ((c.tc : Thread nD τ).loc main_arg21))) (Cert.Gin.asRow (m ((c.tc : Thread nD τ).loc main_arg22))) (Cert.Gin.asRow (m ((c.tc : Thread nD τ).loc main_arg23))) (Cert.Gin.asRow (m ((c.tc : Thread nD τ).loc main_arg24))) (m ((c.tc : Thread nD τ).loc main_arg25)) (Cert.Gin.asRow (m ((c.tc : Thread nD τ).loc main_arg26)))

/-! ## A buffer that no line writes and no region may change keeps its launch contents -/

theorem lvl1 (r : Ref sig .tc) (h0 : r ∉ hostOps0_W) :
    W1 m ρ c (Proc.devRef .tc r) = m ((c.tc : Thread nD τ).loc r) :=
  keep0 (W0 m ρ c) r h0
theorem lvl2 (r : Ref sig .tc) (h0 : r ∉ hostOps0_W) (n0 : ∀ w, Pipeline.arrRef spec0 w ≠ r) :
    W2 m ρ c (Proc.devRef .tc r) = m ((c.tc : Thread nD τ).loc r) :=
  (W2_of_ne m ρ c r n0).trans (lvl1 m ρ c r h0)
theorem lvl3 (r : Ref sig .tc) (h0 : r ∉ hostOps0_W) (n0 : ∀ w, Pipeline.arrRef spec0 w ≠ r) (h1 : r ∉ hostOps1_W) :
    W3 m ρ c (Proc.devRef .tc r) = m ((c.tc : Thread nD τ).loc r) :=
  (keep1 (W2 m ρ c) r h1).trans (lvl2 m ρ c r h0 n0)
theorem lvl4 (r : Ref sig .tc) (h0 : r ∉ hostOps0_W) (n0 : ∀ w, Pipeline.arrRef spec0 w ≠ r) (h1 : r ∉ hostOps1_W)
    (n1 : ∀ w, Pipeline.arrRef spec1 w ≠ r) : W4 m ρ c (Proc.devRef .tc r) = m ((c.tc : Thread nD τ).loc r) :=
  (W4_of_ne m ρ c r n1).trans (lvl3 m ρ c r h0 n0 h1)
theorem lvl5 (r : Ref sig .tc) (h0 : r ∉ hostOps0_W) (n0 : ∀ w, Pipeline.arrRef spec0 w ≠ r) (h1 : r ∉ hostOps1_W)
    (n1 : ∀ w, Pipeline.arrRef spec1 w ≠ r) (h2 : r ∉ hostOps2_W) :
    W5 m ρ c (Proc.devRef .tc r) = m ((c.tc : Thread nD τ).loc r) :=
  (keep2 (W4 m ρ c) r h2).trans (lvl4 m ρ c r h0 n0 h1 n1)
theorem lvl6 (r : Ref sig .tc) (h0 : r ∉ hostOps0_W) (n0 : ∀ w, Pipeline.arrRef spec0 w ≠ r) (h1 : r ∉ hostOps1_W)
    (n1 : ∀ w, Pipeline.arrRef spec1 w ≠ r) (h2 : r ∉ hostOps2_W) (n2 : ∀ w, Pipeline.arrRef spec2 w ≠ r) :
    W6 m ρ c (Proc.devRef .tc r) = m ((c.tc : Thread nD τ).loc r) :=
  (W6_of_ne m ρ c r n2).trans (lvl5 m ρ c r h0 n0 h1 n1 h2)
theorem lvl7 (r : Ref sig .tc) (h0 : r ∉ hostOps0_W) (n0 : ∀ w, Pipeline.arrRef spec0 w ≠ r) (h1 : r ∉ hostOps1_W)
    (n1 : ∀ w, Pipeline.arrRef spec1 w ≠ r) (h2 : r ∉ hostOps2_W) (n2 : ∀ w, Pipeline.arrRef spec2 w ≠ r)
    (h3 : r ∉ hostOps3_W) : W7 m ρ c (Proc.devRef .tc r) = m ((c.tc : Thread nD τ).loc r) :=
  (keep3 (W6 m ρ c) r h3).trans (lvl6 m ρ c r h0 n0 h1 n1 h2 n2)

/-! ## The first layer -/

set_option maxHeartbeats 1600000 in
/-- After the first region its result array holds the first layer's features. -/
theorem W2_feat : W2 m ρ c (Proc.devRef .tc main_v20) = feat1 m c := by
  refine (W2_arr m ρ c 10).trans ((layer0_final (V1 m ρ) c).trans ?_)
  have e0 : V1 m ρ c main_arg0 = (m ((c.tc : Thread nD τ).loc main_arg0)) := lvl1 m ρ c main_arg0 (by decide)
  have e1 : V1 m ρ c main_v13 = aggK (m ((c.tc : Thread nD τ).loc main_arg0)) (m ((c.tc : Thread nD τ).loc main_arg1)) := agg0 (W0 m ρ c)
  have e2 : V1 m ρ c main_arg3 = (m ((c.tc : Thread nD τ).loc main_arg3)) := lvl1 m ρ c main_arg3 (by decide)
  have e3 : V1 m ρ c main_v14 = (Cert.Gin.asRow (m ((c.tc : Thread nD τ).loc main_arg4))) := (row0_0 (W0 m ρ c)).trans (row64_eq _)
  have e4 : V1 m ρ c main_v15 = (Cert.Gin.asRow (m ((c.tc : Thread nD τ).loc main_arg5))) := (row0_1 (W0 m ρ c)).trans (row64_eq _)
  have e5 : V1 m ρ c main_v16 = (Cert.Gin.asRow (m ((c.tc : Thread nD τ).loc main_arg6))) := (row0_2 (W0 m ρ c)).trans (row64_eq _)
  have e6 : V1 m ρ c main_v17 = (Cert.Gin.asRow (m ((c.tc : Thread nD τ).loc main_arg7))) := (row0_3 (W0 m ρ c)).trans (row64_eq _)
  have e7 : V1 m ρ c main_v18 = (Cert.Gin.asRow (m ((c.tc : Thread nD τ).loc main_arg8))) := (row0_4 (W0 m ρ c)).trans (row64_eq _)
  have e8 : V1 m ρ c main_arg9 = (m ((c.tc : Thread nD τ).loc main_arg9)) := lvl1 m ρ c main_arg9 (by decide)
  have e9 : V1 m ρ c main_v19 = (Cert.Gin.asRow (m ((c.tc : Thread nD τ).loc main_arg10))) := (row0_5 (W0 m ρ c)).trans (row64_eq _)
  rw [e0, e1, e2, e3, e4, e5, e6, e7, e8, e9]
  rfl

/-! ## The second layer -/

/-- An input array of a region is left as the region found it. -/
theorem W4_feat1 : W4 m ρ c (Proc.devRef .tc main_v20) = feat1 m c :=
  (W4_arr m ρ c 0).trans (((dat1 (V3 m ρ) c).arrAt_in 0 rfl _).trans ((A_eq1 (V3 m ρ) c 0).trans
    ((keep1 (W2 m ρ c) main_v20 (by decide)).trans (W2_feat m ρ c))))

set_option maxHeartbeats 1600000 in
/-- After the second region its result array holds the second layer's features. -/
theorem W4_feat : W4 m ρ c (Proc.devRef .tc main_v41) = feat2 m c := by
  refine (W4_arr m ρ c 10).trans ((layer1_final (V3 m ρ) c).trans ?_)
  have a1 : W2 m ρ c (Proc.devRef .tc main_arg1) = (m ((c.tc : Thread nD τ).loc main_arg1)) := lvl2 m ρ c main_arg1 (by decide) (by decide)
  have e0 : V3 m ρ c main_v20 = feat1 m c := (keep1 (W2 m ρ c) main_v20 (by decide)).trans (W2_feat m ρ c)
  have e1 : V3 m ρ c main_v34 = aggK (feat1 m c) (m ((c.tc : Thread nD τ).loc main_arg1)) := by
    refine (agg1 (W2 m ρ c)).trans ?_
    rw [W2_feat m ρ c, a1]
  have e2 : V3 m ρ c main_arg11 = (m ((c.tc : Thread nD τ).loc main_arg11)) := lvl3 m ρ c main_arg11 (by decide) (by decide) (by decide)
  have e3 : V3 m ρ c main_v35 = (Cert.Gin.asRow (m ((c.tc : Thread nD τ).loc main_arg12))) := by
    refine (row1_0 (W2 m ρ c)).trans ?_; rw [lvl2 m ρ c main_arg12 (by decide) (by decide)]; exact row64_eq _
  have e4 : V3 m ρ c main_v36 = (Cert.Gin.asRow (m ((c.tc : Thread nD τ).loc main_arg13))) := by
    refine (row1_1 (W2 m ρ c)).trans ?_; rw [lvl2 m ρ c main_arg13 (by decide) (by decide)]; exact row64_eq _
  have e5 : V3 m ρ c main_v37 = (Cert.Gin.asRow (m ((c.tc : Thread nD τ).loc main_arg14))) := by
    refine (row1_2 (W2 m ρ c)).trans ?_; rw [lvl2 m ρ c main_arg14 (by decide) (by decide)]; exact row64_eq _
  have e6 : V3 m ρ c main_v38 = (Cert.Gin.asRow (m ((c.tc : Thread nD τ).loc main_arg15))) := by
    refine (row1_3 (W2 m ρ c)).trans ?_; rw [lvl2 m ρ c main_arg15 (by decide) (by decide)]; exact row64_eq _
  have e7 : V3 m ρ c main_v39 = (Cert.Gin.asRow (m ((c.tc : Thread nD τ).loc main_arg16))) := by
    refine (row1_4 (W2 m ρ c)).trans ?_; rw [lvl2 m ρ c main_arg16 (by decide) (by decide)]; exact row64_eq _
  have e8 : V3 m ρ c main_arg17 = (m ((c.tc : Thread nD τ).loc main_arg17)) := lvl3 m ρ c main_arg17 (by decide) (by decide) (by decide)
  have e9 : V3 m ρ c main_v40 = (Cert.Gin.asRow (m ((c.tc : Thread nD τ).loc main_arg18))) := by
    refine (row1_5 (W2 m ρ c)).trans ?_; rw [lvl2 m ρ c main_arg18 (by decide) (by decide)]; exact row64_eq _
  rw [e0, e1, e2, e3, e4, e5, e6, e7, e8, e9]
  rfl

/-! ## The third layer -/

theorem W6_feat1 : W6 m ρ c (Proc.devRef .tc main_v20) = feat1 m c :=
  (W6_of_ne m ρ c main_v20 (by decide)).trans ((keep2 (W4 m ρ c) main_v20 (by decide)).trans (W4_feat1 m ρ c))

theorem W6_feat2 : W6 m ρ c (Proc.devRef .tc main_v41) = feat2 m c :=
  (W6_arr m ρ c 0).trans (((dat2 (V5 m ρ) c).arrAt_in 0 rfl _).trans ((A_eq2 (V5 m ρ) c 0).trans
    ((keep2 (W4 m ρ c) main_v41 (by decide)).trans (W4_feat m ρ c))))

set_option maxHeartbeats 1600000 in
/-- After the third region its result array holds the third layer's features. -/
theorem W6_feat : W6 m ρ c (Proc.devRef .tc main_v62) = feat3 m c := by
  refine (W6_arr m ρ c 10).trans ((layer2_final (V5 m ρ) c).trans ?_)
  have a1 : W4 m ρ c (Proc.devRef .tc main_arg1) = (m ((c.tc : Thread nD τ).loc main_arg1)) :=
    lvl4 m ρ c main_arg1 (by decide) (by decide) (by decide) (by decide)
  have e0 : V5 m ρ c main_v41 = feat2 m c := (keep2 (W4 m ρ c) main_v41 (by decide)).trans (W4_feat m ρ c)
  have e1 : V5 m ρ c main_v55 = aggK (feat2 m c) (m ((c.tc : Thread nD τ).loc main_arg1)) := by
    refine (agg2 (W4 m ρ c)).trans ?_
    rw [W4_feat m ρ c, a1]
  have e2 : V5 m ρ c main_arg19 = (m ((c.tc : Thread nD τ).loc main_arg19)) := lvl5 m ρ c main_arg19 (by decide) (by decide) (by decide) (by decide) (by decide)
  have e3 : V5 m ρ c main_v56 = (Cert.Gin.asRow (m ((c.tc : Thread nD τ).loc main_arg20))) := by
    refine (row2_0 (W4 m ρ c)).trans ?_; rw [lvl4 m ρ c main_arg20 (by decide) (by decide) (by decide) (by decide)]; exact row64_eq _
  have e4 : V5 m ρ c main_v57 = (Cert.Gin.asRow (m ((c.tc : Thread nD τ).loc main_arg21))) := by
    refine (row2_1 (W4 m ρ c)).trans ?_; rw [lvl4 m ρ c main_arg21 (by decide) (by decide) (by decide) (by decide)]; exact row64_eq _
  have e5 : V5 m ρ c main_v58 = (Cert.Gin.asRow (m ((c.tc : Thread nD τ).loc main_arg22))) := by
    refine (row2_2 (W4 m ρ c)).trans ?_; rw [lvl4 m ρ c main_arg22 (by decide) (by decide) (by decide) (by decide)]; exact row64_eq _
  have e6 : V5 m ρ c main_v59 = (Cert.Gin.asRow (m ((c.tc : Thread nD τ).loc main_arg23))) := by
    refine (row2_3 (W4 m ρ c)).trans ?_; rw [lvl4 m ρ c main_arg23 (by decide) (by decide) (by decide) (by decide)]; exact row64_eq _
  have e7 : V5 m ρ c main_v60 = (Cert.Gin.asRow (m ((c.tc : Thread nD τ).loc main_arg24))) := by
    refine (row2_4 (W4 m ρ c)).trans ?_; rw [lvl4 m ρ c main_arg24 (by decide) (by decide) (by decide) (by decide)]; exact row64_eq _
  have e8 : V5 m ρ c main_arg25 = (m ((c.tc : Thread nD τ).loc main_arg25)) := lvl5 m ρ c main_arg25 (by decide) (by decide) (by decide) (by decide) (by decide)
  have e9 : V5 m ρ c main_v61 = (Cert.Gin.asRow (m ((c.tc : Thread nD τ).loc main_arg26))) := by
    refine (row2_5 (W4 m ρ c)).trans ?_; rw [lvl4 m ρ c main_arg26 (by decide) (by decide) (by decide) (by decide)]; exact row64_eq _
  rw [e0, e1, e2, e3, e4, e5, e6, e7, e8, e9]
  rfl

/-! ## The head -/

set_option maxHeartbeats 1600000 in
/-- THE RESULT: after the last region the result buffer holds the network of the launch arguments. -/
theorem W8_result : W8 m ρ c (Proc.devRef .tc main_v75)
    = netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) := by
  refine (W8_arr m ρ c 5).trans ((head_final (V7 m ρ) c).trans ?_)
  have a2 : W6 m ρ c (Proc.devRef .tc main_arg2) = (m ((c.tc : Thread nD τ).loc main_arg2)) :=
    lvl6 m ρ c main_arg2 (by decide) (by decide) (by decide) (by decide) (by decide) (by decide)
  have e0 : V7 m ρ c main_v72 = catK (poolK (feat1 m c) (m ((c.tc : Thread nD τ).loc main_arg2))) (poolK (feat2 m c) (m ((c.tc : Thread nD τ).loc main_arg2))) (poolK (feat3 m c) (m ((c.tc : Thread nD τ).loc main_arg2))) := by
    refine (cat3 (W6 m ρ c)).trans ?_
    rw [W6_feat1 m ρ c, W6_feat2 m ρ c, W6_feat m ρ c, a2]
  have e1 : V7 m ρ c main_arg27 = (m ((c.tc : Thread nD τ).loc main_arg27)) :=
    lvl7 m ρ c main_arg27 (by decide) (by decide) (by decide) (by decide) (by decide) (by decide) (by decide)
  have e2 : V7 m ρ c main_v73 = (Cert.Gin.asRow (m ((c.tc : Thread nD τ).loc main_arg28))) := by
    refine (row3_0 (W6 m ρ c)).trans ?_
    rw [lvl6 m ρ c main_arg28 (by decide) (by decide) (by decide) (by decide) (by decide) (by decide)]; exact row192_eq _
  have e3 : V7 m ρ c main_arg29 = (m ((c.tc : Thread nD τ).loc main_arg29)) :=
    lvl7 m ρ c main_arg29 (by decide) (by decide) (by decide) (by decide) (by decide) (by decide) (by decide)
  have e4 : V7 m ρ c main_v74 = (Cert.Gin.asRow (m ((c.tc : Thread nD τ).loc main_arg30))) := by
    refine (row3_1 (W6 m ρ c)).trans ?_
    rw [lvl6 m ρ c main_arg30 (by decide) (by decide) (by decide) (by decide) (by decide) (by decide)]; exact row10_eq _
  rw [e0, e1, e2, e3, e4]
  rfl

end Cert.KernelIdeal.Hand

end
-- ==== Proof.Bridge.lean ====
/-
  The two programs' results are one function of the arguments. Both are brought to the same composition — three
  layers and the read-out head as the specification writes them, around the gather/scatter pieces and the
  concatenation, which the two programs spell with the same operations over the same dimension records — so the
  networks agree as functions of the 31 arguments (`net_cross`), and from memories that agree on the arguments the
  two runs end with equal results.
-/
import proofs.«178267_j2276332667486_1_alg».proof.Defs
import proofs.«178267_j2276332667486_1_alg».proof.Proof.KiNet
import proofs.«178267_j2276332667486_1_alg».proof.Proof.KiRun
import proofs.«178267_j2276332667486_1_alg».proof.Proof.RefRun

noncomputable section

namespace Cert.Proof.Bridge

open Idealize.ShloMosaic Idealize.ShloMosaic.TcCoe Idealize.SL.Sem

-- the comparison below is between the two programs' spellings of one term; it must stop at the gather and the
-- scatter, whose operands are compared, and never open them
attribute [local irreducible] Host.gather Host.scatterAdd

/-- The neighbour sums are spelt alike in the two programs. -/
theorem agg_cross (x : FVec Ideal Cert.ReferenceIdeal.S100000x64 .f32) (ei : Cert.ReferenceIdeal.Hand.Edges) :
    Cert.ReferenceIdeal.Hand.aggR x ei = Cert.KernelIdeal.Hand.aggK x ei := rfl

/-- So are the per-graph sums, -/
theorem pool_cross (h : FVec Ideal Cert.ReferenceIdeal.S100000x64 .f32) (bt : Cert.ReferenceIdeal.Hand.Batch) :
    Cert.ReferenceIdeal.Hand.poolR h bt = Cert.KernelIdeal.Hand.poolK h bt := rfl

/-- and the three blocks side by side. -/
theorem cat_cross (p1 p2 p3 : FVec Ideal Cert.ReferenceIdeal.S256x64 .f32) :
    Cert.ReferenceIdeal.Hand.catR p1 p2 p3 = Cert.KernelIdeal.Hand.catK p1 p2 p3 := rfl

set_option maxHeartbeats 800000 in
/-- The reference's network and the kernel program's are the same function: the same layers and head around pieces
    spelt alike. -/
theorem net_cross (a0 : FVec Ideal Cert.ReferenceIdeal.S100000x64 .f32) (a1 : Cert.ReferenceIdeal.Hand.Edges) (a2 : Cert.ReferenceIdeal.Hand.Batch) (a3 : FVec Ideal Cert.ReferenceIdeal.S64x64 .f32) (a4 : FVec Ideal Cert.ReferenceIdeal.S64 .f32) (a5 : FVec Ideal Cert.ReferenceIdeal.S64 .f32) (a6 : FVec Ideal Cert.ReferenceIdeal.S64 .f32) (a7 : FVec Ideal Cert.ReferenceIdeal.S64 .f32) (a8 : FVec Ideal Cert.ReferenceIdeal.S64 .f32) (a9 : FVec Ideal Cert.ReferenceIdeal.S64x64 .f32) (a10 : FVec Ideal Cert.ReferenceIdeal.S64 .f32) (a11 : FVec Ideal Cert.ReferenceIdeal.S64x64 .f32) (a12 : FVec Ideal Cert.ReferenceIdeal.S64 .f32) (a13 : FVec Ideal Cert.ReferenceIdeal.S64 .f32) (a14 : FVec Ideal Cert.ReferenceIdeal.S64 .f32) (a15 : FVec Ideal Cert.ReferenceIdeal.S64 .f32) (a16 : FVec Ideal Cert.ReferenceIdeal.S64 .f32) (a17 : FVec Ideal Cert.ReferenceIdeal.S64x64 .f32) (a18 : FVec Ideal Cert.ReferenceIdeal.S64 .f32) (a19 : FVec Ideal Cert.ReferenceIdeal.S64x64 .f32) (a20 : FVec Ideal Cert.ReferenceIdeal.S64 .f32) (a21 : FVec Ideal Cert.ReferenceIdeal.S64 .f32) (a22 : FVec Ideal Cert.ReferenceIdeal.S64 .f32) (a23 : FVec Ideal Cert.ReferenceIdeal.S64 .f32) (a24 : FVec Ideal Cert.ReferenceIdeal.S64 .f32) (a25 : FVec Ideal Cert.ReferenceIdeal.S64x64 .f32) (a26 : FVec Ideal Cert.ReferenceIdeal.S64 .f32) (a27 : FVec Ideal Cert.ReferenceIdeal.S192x192 .f32) (a28 : FVec Ideal Cert.ReferenceIdeal.S192 .f32) (a29 : FVec Ideal Cert.ReferenceIdeal.S192x10 .f32) (a30 : FVec Ideal Cert.ReferenceIdeal.S10 .f32) :
    Cert.ReferenceIdeal.Hand.net a0 a1 a2 a3 a4 a5 a6 a7 a8 a9 a10 a11 a12 a13 a14 a15 a16 a17 a18 a19 a20 a21 a22 a23 a24 a25 a26 a27 a28 a29 a30 = Cert.KernelIdeal.Hand.netK a0 a1 a2 a3 a4 a5 a6 a7 a8 a9 a10 a11 a12 a13 a14 a15 a16 a17 a18 a19 a20 a21 a22 a23 a24 a25 a26 a27 a28 a29 a30 := by
  unfold Cert.ReferenceIdeal.Hand.net Cert.KernelIdeal.Hand.netK
  dsimp only
  rw [agg_cross, agg_cross, agg_cross, pool_cross, pool_cross, pool_cross, cat_cross]

set_option maxHeartbeats 4000000 in
/-- From memories agreeing on the arguments, both programs run to the end with equal results: the kernel program's
    result buffer holds the network of its arguments, the reference's the network of its own, and the arguments agree. -/
theorem algebraic : Cert.algebraic_KernelIdeal_ReferenceIdeal := by
  intro m ρ m' ρ' _ hagree
  refine ⟨fun c => Cert.KernelIdeal.Hand.W8 m ρ c (Proc.devRef .tc Cert.KernelIdeal.main_v75),
    Cert.KernelIdeal.Hand.result m ρ, ?_⟩
  refine (θ_run Cert.ReferenceIdeal.defs _ _).mono (fun r h c => ⟨(h c).1.trans ?_, (h c).2⟩)
    (Cert.ReferenceIdeal.Hand.result m' ρ')
  obtain ⟨h0, h1, h2, h3, h4, h5, h6, h7, h8, h9, h10, h11, h12, h13, h14, h15, h16, h17, h18, h19, h20, h21, h22, h23, h24, h25, h26, h27, h28, h29, h30⟩ := hagree c
  show _ = Cert.KernelIdeal.Hand.W8 m ρ c (Proc.devRef .tc Cert.KernelIdeal.main_v75)
  rw [Cert.KernelIdeal.Hand.W8_result m ρ c, h0, h1, h2, h3, h4, h5, h6, h7, h8, h9, h10, h11, h12, h13, h14, h15, h16, h17, h18, h19, h20, h21, h22, h23, h24, h25, h26, h27, h28, h29, h30]
  exact net_cross _ _ _ _ _ _ _ _ _ _ _ _ _ _ _ _ _ _ _ _ _ _ _ _ _ _ _ _ _ _ _

end Cert.Proof.Bridge

end
-- ==== Proof.lean ====
/-
  The certificate: a three-layer graph network with per-graph pooling and a read-out head, computed by a program whose
  dense parts are four pipelined kernels, equals its plain reference over the extended reals.

  Each of the kernel program's two printings runs to the end, faults nowhere and leaves its arguments as launched:
  its @main is four host lines and four kernel regions in turn, every body loads its blocks and stores its result block
  once, and no line or region writes an argument. The reference is a line of host operations and runs likewise. The
  idealization rewrote nothing. The two idealized programs end with equal results: layer by layer the kernel computes on
  blocks of 5000 rows what the reference computes on whole arrays, a layer's row depending on that row only, and the
  head's shifted logarithm of the softmax is spelt the same way on both sides; changes of float format are the
  identity on the extended reals.
-/
import proofs.«178267_j2276332667486_1_alg».proof.Defs
import proofs.«178267_j2276332667486_1_alg».proof.Proof.Gen.Kernel
import proofs.«178267_j2276332667486_1_alg».proof.Proof.Gen.KernelIdeal
import proofs.«178267_j2276332667486_1_alg».proof.Proof.Gen.ReferenceIdeal
import proofs.«178267_j2276332667486_1_alg».proof.Proof.Gen.Pre_finite_inputs
import proofs.«178267_j2276332667486_1_alg».proof.Proof.KRun
import proofs.«178267_j2276332667486_1_alg».proof.Proof.KiRun
import proofs.«178267_j2276332667486_1_alg».proof.Proof.RefRun
import proofs.«178267_j2276332667486_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.Hand.frame,
    trivial,
    Cert.Proof.Bridge.algebraic⟩

end Cert.Proof

end
